-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S16x15x512 : Shape := ⟨3, ![16, 15, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S16x15x512 : S_.BroadcastsInDim S16x15x512 (![] : Fin 0 → Fin S16x15x512.rank)
  reducesTo_S16x15x512_S_d0_1_2 : S16x15x512.ReducesTo [0, 1, 2] S_

variable [Facts]

def fn {F : FTy → Type} [FloatOps F] (main_arg0 : FVec F S10000x512 .f32) (main_arg1 : FVec F S16x15x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S16x15x512 .f32 := Host.absf main_arg1
  let main_cst_0 : FVec F S_ .f32 := constant S_ .f32 0x7F800000#32
  let main_v5 : FVec F S16x15x512 .f32 := broadcastInDim S16x15x512 ![] bcast_S_S16x15x512 main_cst_0
  let main_v6 : IVec S16x15x512 1 := cmpf .olt main_v4 main_v5
  let main_c_1 : IVec S_ 1 := constantI S_ 1 1#1
  let main_v7 : IVec S_ 1 := (fun x v => Host.reduce IntOp.andi x v reducesTo_S16x15x512_S_d0_1_2 h_S_) main_v6 main_c_1
  let main_v8 : IVec S_ 1 := andi main_v3 main_v7
  main_v8
-- ==== Kernel.lean ====
abbrev S10000x512 : Shape := ⟨2, ![10000, 512]⟩
abbrev S16x15x512 : Shape := ⟨3, ![16, 15, 512]⟩
abbrev S240x512 : Shape := ⟨2, ![240, 512]⟩
abbrev S5000x512 : Shape := ⟨2, ![5000, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S10000x512, .f32⟩
  | .hbm, ⟨1, _⟩ => ⟨S16x15x512, .f32⟩
  | .hbm, ⟨2, _⟩ => ⟨S240x512, .f32⟩
  | .hbm, ⟨3, _⟩ => ⟨S10000x512, .f32⟩
  | .local _ .vmem, ⟨0, _⟩ => ⟨S240x512, .f32⟩
  | .local _ .vmem, ⟨1, _⟩ => ⟨S5000x512, .f32⟩
  | .local _ .vmem, ⟨2, _⟩ => ⟨S5000x512, .f32⟩
  | .local _ .vmem, ⟨3, _⟩ => ⟨S5000x512, .f32⟩
  | .local _ .vmem, ⟨4, _⟩ => ⟨S5000x512, .f32⟩
  | .local _ .vmem, ⟨5, _⟩ => ⟨S1x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S240x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x15x512_S240x512 : S16x15x512.ShapeCasts S240x512
  inb_S240x512_S1x512_14_0 : ∀ a, (![14, 0] : Fin 2 → Nat) a + S1x512.size a ≤ S240x512.size a
  h_S1x512 : 0 < S1x512.numel
  shapeCasts_S1x512_S1x512 : S1x512.ShapeCasts S1x512
  inb_S240x512_S1x512_13_0 : ∀ a, (![13, 0] : Fin 2 → Nat) a + S1x512.size a ≤ S240x512.size a
  inb_S240x512_S1x512_12_0 : ∀ a, (![12, 0] : Fin 2 → Nat) a + S1x512.size a ≤ S240x512.size a
  inb_S240x512_S1x512_11_0 : ∀ a, (![11, 0] : Fin 2 → Nat) a + S1x512.size a ≤ S240x512.size a
  inb_S240x512_S1x512_10_0 : ∀ a, (![10, 0] : Fin 2 → Nat) a + S1x512.size a ≤ S240x512.size a
  inb_S240x512_S1x512_9_0 : ∀ a, (![9, 0] : Fin 2 → Nat) a + S1x512.size a ≤ S240x512.size a
  inb_S240x512_S1x512_8_0 : ∀ a, (![8, 0] : Fin 2 → Nat) a + S1x512.size a ≤ S240x512.size a
  inb_S240x512_S1x512_7_0 : ∀ a, (![7, 0] : Fin 2 → Nat) a + S1x512.size a ≤ S240x512.size a
  inb_S240x512_S1x512_6_0 : ∀ a, (![6, 0] : Fin 2 → Nat) a + S1x512.size a ≤ S240x512.size a
  inb_S240x512_S1x512_5_0 : ∀ a, (![5, 0] : Fin 2 → Nat) a + S1x512.size a ≤ S240x512.size a
  inb_S240x512_S1x512_4_0 : ∀ a, (![4, 0] : Fin 2 → Nat) a + S1x512.size a ≤ S240x512.size a
  inb_S240x512_S1x512_3_0 : ∀ a, (![3, 0] : Fin 2 → Nat) a + S1x512.size a ≤ S240x512.size a
  inb_S240x512_S1x512_2_0 : ∀ a, (![2, 0] : Fin 2 → Nat) a + S1x512.size a ≤ S240x512.size a
  inb_S240x512_S1x512_1_0 : ∀ a, (![1, 0] : Fin 2 → Nat) a + S1x512.size a ≤ S240x512.size a
  inb_S240x512_S1x512_0_0 : ∀ a, (![0, 0] : Fin 2 → Nat) a + S1x512.size a ≤ S240x512.size a
  inb_S240x512_S1x512_29_0 : ∀ a, (![29, 0] : Fin 2 → Nat) a + S1x512.size a ≤ S240x512.size a
  inb_S240x512_S1x512_28_0 : ∀ a, (![28, 0] : Fin 2 → Nat) a + S1x512.size a ≤ S240x512.size a
  inb_S240x512_S1x512_27_0 : ∀ a, (![27, 0] : Fin 2 → Nat) a + S1x512.size a ≤ S240x512.size a
  inb_S240x512_S1x512_26_0 : ∀ a, (![26, 0] : Fin 2 → Nat) a + S1x512.size a ≤ S240x512.size a
  inb_S240x512_S1x512_25_0 : ∀ a, (![25, 0] : Fin 2 → Nat) a + S1x512.size a ≤ S240x512.size a
  inb_S240x512_S1x512_24_0 : ∀ a, (![24, 0] : Fin 2 → Nat) a + S1x512.size a ≤ S240x512.size a
  inb_S240x512_S1x512_23_0 : ∀ a, (![23, 0] : Fin 2 → Nat) a + S1x512.size a ≤ S240x512.size a
  inb_S240x512_S1x512_22_0 : ∀ a, (![22, 0] : Fin 2 → Nat) a + S1x512.size a ≤ S240x512.size a
  inb_S240x512_S1x512_21_0 : ∀ a, (![21, 0] : Fin 2 → Nat) a + S1x512.size a ≤ S240x512.size a
  inb_S240x512_S1x512_20_0 : ∀ a, (![20, 0] : Fin 2 → Nat) a + S1x512.size a ≤ S240x512.size a
  inb_S240x512_S1x512_19_0 : ∀ a, (![19, 0] : Fin 2 → Nat) a + S1x512.size a ≤ S240x512.size a
  inb_S240x512_S1x512_18_0 : ∀ a, (![18, 0] : Fin 2 → Nat) a + S1x512.size a ≤ S240x512.size a
  inb_S240x512_S1x512_17_0 : ∀ a, (![17, 0] : Fin 2 → Nat) a + S1x512.size a ≤ S240x512.size a
  inb_S240x512_S1x512_16_0 : ∀ a, (![16, 0] : Fin 2 → Nat) a + S1x512.size a ≤ S240x512.size a
  inb_S240x512_S1x512_15_0 : ∀ a, (![15, 0] : Fin 2 → Nat) a + S1x512.size a ≤ S240x512.size a
  inb_S240x512_S1x512_44_0 : ∀ a, (![44, 0] : Fin 2 → Nat) a + S1x512.size a ≤ S240x512.size a
  inb_S240x512_S1x512_43_0 : ∀ a, (![43, 0] : Fin 2 → Nat) a + S1x512.size a ≤ S240x512.size a
  inb_S240x512_S1x512_42_0 : ∀ a, (![42, 0] : Fin 2 → Nat) a + S1x512.size a ≤ S240x512.size a
  inb_S240x512_S1x512_41_0 : ∀ a, (![41, 0] : Fin 2 → Nat) a + S1x512.size a ≤ S240x512.size a
  inb_S240x512_S1x512_40_0 : ∀ a, (![40, 0] : Fin 2 → Nat) a + S1x512.size a ≤ S240x512.size a
  inb_S240x512_S1x512_39_0 : ∀ a, (![39, 0] : Fin 2 → Nat) a + S1x512.size a ≤ S240x512.size a
  inb_S240x512_S1x512_38_0 : ∀ a, (![38, 0] : Fin 2 → Nat) a + S1x512.size a ≤ S240x512.size a
  inb_S240x512_S1x512_37_0 : ∀ a, (![37, 0] : Fin 2 → Nat) a + S1x512.size a ≤ S240x512.size a
  inb_S240x512_S1x512_36_0 : ∀ a, (![36, 0] : Fin 2 → Nat) a + S1x512.size a ≤ S240x512.size a
  inb_S240x512_S1x512_35_0 : ∀ a, (![35, 0] : Fin 2 → Nat) a + S1x512.size a ≤ S240x512.size a
  inb_S240x512_S1x512_34_0 : ∀ a, (![34, 0] : Fin 2 → Nat) a + S1x512.size a ≤ S240x512.size a
  inb_S240x512_S1x512_33_0 : ∀ a, (![33, 0] : Fin 2 → Nat) a + S1x512.size a ≤ S240x512.size a
  inb_S240x512_S1x512_32_0 : ∀ a, (![32, 0] : Fin 2 → Nat) a + S1x512.size a ≤ S240x512.size a
  inb_S240x512_S1x512_31_0 : ∀ a, (![31, 0] : Fin 2 → Nat) a + S1x512.size a ≤ S240x512.size a
  inb_S240x512_S1x512_30_0 : ∀ a, (![30, 0] : Fin 2 → Nat) a + S1x512.size a ≤ S240x512.size a
  inb_S240x512_S1x512_59_0 : ∀ a, (![59, 0] : Fin 2 → Nat) a + S1x512.size a ≤ S240x512.size a
  inb_S240x512_S1x512_58_0 : ∀ a, (![58, 0] : Fin 2 → Nat) a + S1x512.size a ≤ S240x512.size a
  inb_S240x512_S1x512_57_0 : ∀ a, (![57, 0] : Fin 2 → Nat) a + S1x512.size a ≤ S240x512.size a
  inb_S240x512_S1x512_56_0 : ∀ a, (![56, 0] : Fin 2 → Nat) a + S1x512.size a ≤ S240x512.size a
  inb_S240x512_S1x512_55_0 : ∀ a, (![55, 0] : Fin 2 → Nat) a + S1x512.size a ≤ S240x512.size a
  inb_S240x512_S1x512_54_0 : ∀ a, (![54, 0] : Fin 2 → Nat) a + S1x512.size a ≤ S240x512.size a
  inb_S240x512_S1x512_53_0 : ∀ a, (![53, 0] : Fin 2 → Nat) a + S1x512.size a ≤ S240x512.size a
  inb_S240x512_S1x512_52_0 : ∀ a, (![52, 0] : Fin 2 → Nat) a + S1x512.size a ≤ S240x512.size a
  inb_S240x512_S1x512_51_0 : ∀ a, (![51, 0] : Fin 2 → Nat) a + S1x512.size a ≤ S240x512.size a
  inb_S240x512_S1x512_50_0 : ∀ a, (![50, 0] : Fin 2 → Nat) a + S1x512.size a ≤ S240x512.size a
  inb_S240x512_S1x512_49_0 : ∀ a, (![49, 0] : Fin 2 → Nat) a + S1x512.size a ≤ S240x512.size a
  inb_S240x512_S1x512_48_0 : ∀ a, (![48, 0] : Fin 2 → Nat) a + S1x512.size a ≤ S240x512.size a
  inb_S240x512_S1x512_47_0 : ∀ a, (![47, 0] : Fin 2 → Nat) a + S1x512.size a ≤ S240x512.size a
  inb_S240x512_S1x512_46_0 : ∀ a, (![46, 0] : Fin 2 → Nat) a + S1x512.size a ≤ S240x512.size a
  inb_S240x512_S1x512_45_0 : ∀ a, (![45, 0] : Fin 2 → Nat) a + S1x512.size a ≤ S240x512.size a
  inb_S240x512_S1x512_74_0 : ∀ a, (![74, 0] : Fin 2 → Nat) a + S1x512.size a ≤ S240x512.size a
  inb_S240x512_S1x512_73_0 : ∀ a, (![73, 0] : Fin 2 → Nat) a + S1x512.size a ≤ S240x512.size a
  inb_S240x512_S1x512_72_0 : ∀ a, (![72, 0] : Fin 2 → Nat) a + S1x512.size a ≤ S240x512.size a
  inb_S240x512_S1x512_71_0 : ∀ a, (![71, 0] : Fin 2 → Nat) a + S1x512.size a ≤ S240x512.size a
  inb_S240x512_S1x512_70_0 : ∀ a, (![70, 0] : Fin 2 → Nat) a + S1x512.size a ≤ S240x512.size a
  inb_S240x512_S1x512_69_0 : ∀ a, (![69, 0] : Fin 2 → Nat) a + S1x512.size a ≤ S240x512.size a
  inb_S240x512_S1x512_68_0 : ∀ a, (![68, 0] : Fin 2 → Nat) a + S1x512.size a ≤ S240x512.size a
  inb_S240x512_S1x512_67_0 : ∀ a, (![67, 0] : Fin 2 → Nat) a + S1x512.size a ≤ S240x512.size a
  inb_S240x512_S1x512_66_0 : ∀ a, (![66, 0] : Fin 2 → Nat) a + S1x512.size a ≤ S240x512.size a
  inb_S240x512_S1x512_65_0 : ∀ a, (![65, 0] : Fin 2 → Nat) a + S1x512.size a ≤ S240x512.size a
  inb_S240x512_S1x512_64_0 : ∀ a, (![64, 0] : Fin 2 → Nat) a + S1x512.size a ≤ S240x512.size a
  inb_S240x512_S1x512_63_0 : ∀ a, (![63, 0] : Fin 2 → Nat) a + S1x512.size a ≤ S240x512.size a
  inb_S240x512_S1x512_62_0 : ∀ a, (![62, 0] : Fin 2 → Nat) a + S1x512.size a ≤ S240x512.size a
  inb_S240x512_S1x512_61_0 : ∀ a, (![61, 0] : Fin 2 → Nat) a + S1x512.size a ≤ S240x512.size a
  inb_S240x512_S1x512_60_0 : ∀ a, (![60, 0] : Fin 2 → Nat) a + S1x512.size a ≤ S240x512.size a
  inb_S240x512_S1x512_89_0 : ∀ a, (![89, 0] : Fin 2 → Nat) a + S1x512.size a ≤ S240x512.size a
  inb_S240x512_S1x512_88_0 : ∀ a, (![88, 0] : Fin 2 → Nat) a + S1x512.size a ≤ S240x512.size a
  inb_S240x512_S1x512_87_0 : ∀ a, (![87, 0] : Fin 2 → Nat) a + S1x512.size a ≤ S240x512.size a
  inb_S240x512_S1x512_86_0 : ∀ a, (![86, 0] : Fin 2 → Nat) a + S1x512.size a ≤ S240x512.size a
  inb_S240x512_S1x512_85_0 : ∀ a, (![85, 0] : Fin 2 → Nat) a + S1x512.size a ≤ S240x512.size a
  inb_S240x512_S1x512_84_0 : ∀ a, (![84, 0] : Fin 2 → Nat) a + S1x512.size a ≤ S240x512.size a
  inb_S240x512_S1x512_83_0 : ∀ a, (![83, 0] : Fin 2 → Nat) a + S1x512.size a ≤ S240x512.size a
  inb_S240x512_S1x512_82_0 : ∀ a, (![82, 0] : Fin 2 → Nat) a + S1x512.size a ≤ S240x512.size a
  inb_S240x512_S1x512_81_0 : ∀ a, (![81, 0] : Fin 2 → Nat) a + S1x512.size a ≤ S240x512.size a
  inb_S240x512_S1x512_80_0 : ∀ a, (![80, 0] : Fin 2 → Nat) a + S1x512.size a ≤ S240x512.size a
  inb_S240x512_S1x512_79_0 : ∀ a, (![79, 0] : Fin 2 → Nat) a + S1x512.size a ≤ S240x512.size a
  inb_S240x512_S1x512_78_0 : ∀ a, (![78, 0] : Fin 2 → Nat) a + S1x512.size a ≤ S240x512.size a
  inb_S240x512_S1x512_77_0 : ∀ a, (![77, 0] : Fin 2 → Nat) a + S1x512.size a ≤ S240x512.size a
  inb_S240x512_S1x512_76_0 : ∀ a, (![76, 0] : Fin 2 → Nat) a + S1x512.size a ≤ S240x512.size a
  inb_S240x512_S1x512_75_0 : ∀ a, (![75, 0] : Fin 2 → Nat) a + S1x512.size a ≤ S240x512.size a
  inb_S240x512_S1x512_104_0 : ∀ a, (![104, 0] : Fin 2 → Nat) a + S1x512.size a ≤ S240x512.size a
  inb_S240x512_S1x512_103_0 : ∀ a, (![103, 0] : Fin 2 → Nat) a + S1x512.size a ≤ S240x512.size a
  inb_S240x512_S1x512_102_0 : ∀ a, (![102, 0] : Fin 2 → Nat) a + S1x512.size a ≤ S240x512.size a
  inb_S240x512_S1x512_101_0 : ∀ a, (![101, 0] : Fin 2 → Nat) a + S1x512.size a ≤ S240x512.size a
  inb_S240x512_S1x512_100_0 : ∀ a, (![100, 0] : Fin 2 → Nat) a + S1x512.size a ≤ S240x512.size a
  inb_S240x512_S1x512_99_0 : ∀ a, (![99, 0] : Fin 2 → Nat) a + S1x512.size a ≤ S240x512.size a
  inb_S240x512_S1x512_98_0 : ∀ a, (![98, 0] : Fin 2 → Nat) a + S1x512.size a ≤ S240x512.size a
  inb_S240x512_S1x512_97_0 : ∀ a, (![97, 0] : Fin 2 → Nat) a + S1x512.size a ≤ S240x512.size a
  inb_S240x512_S1x512_96_0 : ∀ a, (![96, 0] : Fin 2 → Nat) a + S1x512.size a ≤ S240x512.size a
  inb_S240x512_S1x512_95_0 : ∀ a, (![95, 0] : Fin 2 → Nat) a + S1x512.size a ≤ S240x512.size a
  inb_S240x512_S1x512_94_0 : ∀ a, (![94, 0] : Fin 2 → Nat) a + S1x512.size a ≤ S240x512.size a
  inb_S240x512_S1x512_93_0 : ∀ a, (![93, 0] : Fin 2 → Nat) a + S1x512.size a ≤ S240x512.size a
  inb_S240x512_S1x512_92_0 : ∀ a, (![92, 0] : Fin 2 → Nat) a + S1x512.size a ≤ S240x512.size a
  inb_S240x512_S1x512_91_0 : ∀ a, (![91, 0] : Fin 2 → Nat) a + S1x512.size a ≤ S240x512.size a
  inb_S240x512_S1x512_90_0 : ∀ a, (![90, 0] : Fin 2 → Nat) a + S1x512.size a ≤ S240x512.size a
  inb_S240x512_S1x512_119_0 : ∀ a, (![119, 0] : Fin 2 → Nat) a + S1x512.size a ≤ S240x512.size a
  inb_S240x512_S1x512_118_0 : ∀ a, (![118, 0] : Fin 2 → Nat) a + S1x512.size a ≤ S240x512.size a
  inb_S240x512_S1x512_117_0 : ∀ a, (![117, 0] : Fin 2 → Nat) a + S1x512.size a ≤ S240x512.size a
  inb_S240x512_S1x512_116_0 : ∀ a, (![116, 0] : Fin 2 → Nat) a + S1x512.size a ≤ S240x512.size a
  inb_S240x512_S1x512_115_0 : ∀ a, (![115, 0] : Fin 2 → Nat) a + S1x512.size a ≤ S240x512.size a
  inb_S240x512_S1x512_114_0 : ∀ a, (![114, 0] : Fin 2 → Nat) a + S1x512.size a ≤ S240x512.size a
  inb_S240x512_S1x512_113_0 : ∀ a, (![113, 0] : Fin 2 → Nat) a + S1x512.size a ≤ S240x512.size a
  inb_S240x512_S1x512_112_0 : ∀ a, (![112, 0] : Fin 2 → Nat) a + S1x512.size a ≤ S240x512.size a
  inb_S240x512_S1x512_111_0 : ∀ a, (![111, 0] : Fin 2 → Nat) a + S1x512.size a ≤ S240x512.size a
  inb_S240x512_S1x512_110_0 : ∀ a, (![110, 0] : Fin 2 → Nat) a + S1x512.size a ≤ S240x512.size a
  inb_S240x512_S1x512_109_0 : ∀ a, (![109, 0] : Fin 2 → Nat) a + S1x512.size a ≤ S240x512.size a
  inb_S240x512_S1x512_108_0 : ∀ a, (![108, 0] : Fin 2 → Nat) a + S1x512.size a ≤ S240x512.size a
  inb_S240x512_S1x512_107_0 : ∀ a, (![107, 0] : Fin 2 → Nat) a + S1x512.size a ≤ S240x512.size a
  inb_S240x512_S1x512_106_0 : ∀ a, (![106, 0] : Fin 2 → Nat) a + S1x512.size a ≤ S240x512.size a
  inb_S240x512_S1x512_105_0 : ∀ a, (![105, 0] : Fin 2 → Nat) a + S1x512.size a ≤ S240x512.size a
  inb_S240x512_S1x512_134_0 : ∀ a, (![134, 0] : Fin 2 → Nat) a + S1x512.size a ≤ S240x512.size a
  inb_S240x512_S1x512_133_0 : ∀ a, (![133, 0] : Fin 2 → Nat) a + S1x512.size a ≤ S240x512.size a
  inb_S240x512_S1x512_132_0 : ∀ a, (![132, 0] : Fin 2 → Nat) a + S1x512.size a ≤ S240x512.size a
  inb_S240x512_S1x512_131_0 : ∀ a, (![131, 0] : Fin 2 → Nat) a + S1x512.size a ≤ S240x512.size a
  inb_S240x512_S1x512_130_0 : ∀ a, (![130, 0] : Fin 2 → Nat) a + S1x512.size a ≤ S240x512.size a
  inb_S240x512_S1x512_129_0 : ∀ a, (![129, 0] : Fin 2 → Nat) a + S1x512.size a ≤ S240x512.size a
  inb_S240x512_S1x512_128_0 : ∀ a, (![128, 0] : Fin 2 → Nat) a + S1x512.size a ≤ S240x512.size a
  inb_S240x512_S1x512_127_0 : ∀ a, (![127, 0] : Fin 2 → Nat) a + S1x512.size a ≤ S240x512.size a
  inb_S240x512_S1x512_126_0 : ∀ a, (![126, 0] : Fin 2 → Nat) a + S1x512.size a ≤ S240x512.size a
  inb_S240x512_S1x512_125_0 : ∀ a, (![125, 0] : Fin 2 → Nat) a + S1x512.size a ≤ S240x512.size a
  inb_S240x512_S1x512_124_0 : ∀ a, (![124, 0] : Fin 2 → Nat) a + S1x512.size a ≤ S240x512.size a
  inb_S240x512_S1x512_123_0 : ∀ a, (![123, 0] : Fin 2 → Nat) a + S1x512.size a ≤ S240x512.size a
  inb_S240x512_S1x512_122_0 : ∀ a, (![122, 0] : Fin 2 → Nat) a + S1x512.size a ≤ S240x512.size a
  inb_S240x512_S1x512_121_0 : ∀ a, (![121, 0] : Fin 2 → Nat) a + S1x512.size a ≤ S240x512.size a
  inb_S240x512_S1x512_120_0 : ∀ a, (![120, 0] : Fin 2 → Nat) a + S1x512.size a ≤ S240x512.size a
  inb_S240x512_S1x512_149_0 : ∀ a, (![149, 0] : Fin 2 → Nat) a + S1x512.size a ≤ S240x512.size a
  inb_S240x512_S1x512_148_0 : ∀ a, (![148, 0] : Fin 2 → Nat) a + S1x512.size a ≤ S240x512.size a
  inb_S240x512_S1x512_147_0 : ∀ a, (![147, 0] : Fin 2 → Nat) a + S1x512.size a ≤ S240x512.size a
  inb_S240x512_S1x512_146_0 : ∀ a, (![146, 0] : Fin 2 → Nat) a + S1x512.size a ≤ S240x512.size a
  inb_S240x512_S1x512_145_0 : ∀ a, (![145, 0] : Fin 2 → Nat) a + S1x512.size a ≤ S240x512.size a
  inb_S240x512_S1x512_144_0 : ∀ a, (![144, 0] : Fin 2 → Nat) a + S1x512.size a ≤ S240x512.size a
  inb_S240x512_S1x512_143_0 : ∀ a, (![143, 0] : Fin 2 → Nat) a + S1x512.size a ≤ S240x512.size a
  inb_S240x512_S1x512_142_0 : ∀ a, (![142, 0] : Fin 2 → Nat) a + S1x512.size a ≤ S240x512.size a
  inb_S240x512_S1x512_141_0 : ∀ a, (![141, 0] : Fin 2 → Nat) a + S1x512.size a ≤ S240x512.size a
  inb_S240x512_S1x512_140_0 : ∀ a, (![140, 0] : Fin 2 → Nat) a + S1x512.size a ≤ S240x512.size a
  inb_S240x512_S1x512_139_0 : ∀ a, (![139, 0] : Fin 2 → Nat) a + S1x512.size a ≤ S240x512.size a
  inb_S240x512_S1x512_138_0 : ∀ a, (![138, 0] : Fin 2 → Nat) a + S1x512.size a ≤ S240x512.size a
  inb_S240x512_S1x512_137_0 : ∀ a, (![137, 0] : Fin 2 → Nat) a + S1x512.size a ≤ S240x512.size a
  inb_S240x512_S1x512_136_0 : ∀ a, (![136, 0] : Fin 2 → Nat) a + S1x512.size a ≤ S240x512.size a
  inb_S240x512_S1x512_135_0 : ∀ a, (![135, 0] : Fin 2 → Nat) a + S1x512.size a ≤ S240x512.size a
  inb_S240x512_S1x512_164_0 : ∀ a, (![164, 0] : Fin 2 → Nat) a + S1x512.size a ≤ S240x512.size a
  inb_S240x512_S1x512_163_0 : ∀ a, (![163, 0] : Fin 2 → Nat) a + S1x512.size a ≤ S240x512.size a
  inb_S240x512_S1x512_162_0 : ∀ a, (![162, 0] : Fin 2 → Nat) a + S1x512.size a ≤ S240x512.size a
  inb_S240x512_S1x512_161_0 : ∀ a, (![161, 0] : Fin 2 → Nat) a + S1x512.size a ≤ S240x512.size a
  inb_S240x512_S1x512_160_0 : ∀ a, (![160, 0] : Fin 2 → Nat) a + S1x512.size a ≤ S240x512.size a
  inb_S240x512_S1x512_159_0 : ∀ a, (![159, 0] : Fin 2 → Nat) a + S1x512.size a ≤ S240x512.size a
  inb_S240x512_S1x512_158_0 : ∀ a, (![158, 0] : Fin 2 → Nat) a + S1x512.size a ≤ S240x512.size a
  inb_S240x512_S1x512_157_0 : ∀ a, (![157, 0] : Fin 2 → Nat) a + S1x512.size a ≤ S240x512.size a
  inb_S240x512_S1x512_156_0 : ∀ a, (![156, 0] : Fin 2 → Nat) a + S1x512.size a ≤ S240x512.size a
  inb_S240x512_S1x512_155_0 : ∀ a, (![155, 0] : Fin 2 → Nat) a + S1x512.size a ≤ S240x512.size a
  inb_S240x512_S1x512_154_0 : ∀ a, (![154, 0] : Fin 2 → Nat) a + S1x512.size a ≤ S240x512.size a
  inb_S240x512_S1x512_153_0 : ∀ a, (![153, 0] : Fin 2 → Nat) a + S1x512.size a ≤ S240x512.size a
  inb_S240x512_S1x512_152_0 : ∀ a, (![152, 0] : Fin 2 → Nat) a + S1x512.size a ≤ S240x512.size a
  inb_S240x512_S1x512_151_0 : ∀ a, (![151, 0] : Fin 2 → Nat) a + S1x512.size a ≤ S240x512.size a
  inb_S240x512_S1x512_150_0 : ∀ a, (![150, 0] : Fin 2 → Nat) a + S1x512.size a ≤ S240x512.size a
  inb_S240x512_S1x512_179_0 : ∀ a, (![179, 0] : Fin 2 → Nat) a + S1x512.size a ≤ S240x512.size a
  inb_S240x512_S1x512_178_0 : ∀ a, (![178, 0] : Fin 2 → Nat) a + S1x512.size a ≤ S240x512.size a
  inb_S240x512_S1x512_177_0 : ∀ a, (![177, 0] : Fin 2 → Nat) a + S1x512.size a ≤ S240x512.size a
  inb_S240x512_S1x512_176_0 : ∀ a, (![176, 0] : Fin 2 → Nat) a + S1x512.size a ≤ S240x512.size a
  inb_S240x512_S1x512_175_0 : ∀ a, (![175, 0] : Fin 2 → Nat) a + S1x512.size a ≤ S240x512.size a
  inb_S240x512_S1x512_174_0 : ∀ a, (![174, 0] : Fin 2 → Nat) a + S1x512.size a ≤ S240x512.size a
  inb_S240x512_S1x512_173_0 : ∀ a, (![173, 0] : Fin 2 → Nat) a + S1x512.size a ≤ S240x512.size a
  inb_S240x512_S1x512_172_0 : ∀ a, (![172, 0] : Fin 2 → Nat) a + S1x512.size a ≤ S240x512.size a
  inb_S240x512_S1x512_171_0 : ∀ a, (![171, 0] : Fin 2 → Nat) a + S1x512.size a ≤ S240x512.size a
  inb_S240x512_S1x512_170_0 : ∀ a, (![170, 0] : Fin 2 → Nat) a + S1x512.size a ≤ S240x512.size a
  inb_S240x512_S1x512_169_0 : ∀ a, (![169, 0] : Fin 2 → Nat) a + S1x512.size a ≤ S240x512.size a
  inb_S240x512_S1x512_168_0 : ∀ a, (![168, 0] : Fin 2 → Nat) a + S1x512.size a ≤ S240x512.size a
  inb_S240x512_S1x512_167_0 : ∀ a, (![167, 0] : Fin 2 → Nat) a + S1x512.size a ≤ S240x512.size a
  inb_S240x512_S1x512_166_0 : ∀ a, (![166, 0] : Fin 2 → Nat) a + S1x512.size a ≤ S240x512.size a
  inb_S240x512_S1x512_165_0 : ∀ a, (![165, 0] : Fin 2 → Nat) a + S1x512.size a ≤ S240x512.size a
  inb_S240x512_S1x512_194_0 : ∀ a, (![194, 0] : Fin 2 → Nat) a + S1x512.size a ≤ S240x512.size a
  inb_S240x512_S1x512_193_0 : ∀ a, (![193, 0] : Fin 2 → Nat) a + S1x512.size a ≤ S240x512.size a
  inb_S240x512_S1x512_192_0 : ∀ a, (![192, 0] : Fin 2 → Nat) a + S1x512.size a ≤ S240x512.size a
  inb_S240x512_S1x512_191_0 : ∀ a, (![191, 0] : Fin 2 → Nat) a + S1x512.size a ≤ S240x512.size a
  inb_S240x512_S1x512_190_0 : ∀ a, (![190, 0] : Fin 2 → Nat) a + S1x512.size a ≤ S240x512.size a
  inb_S240x512_S1x512_189_0 : ∀ a, (![189, 0] : Fin 2 → Nat) a + S1x512.size a ≤ S240x512.size a
  inb_S240x512_S1x512_188_0 : ∀ a, (![188, 0] : Fin 2 → Nat) a + S1x512.size a ≤ S240x512.size a
  inb_S240x512_S1x512_187_0 : ∀ a, (![187, 0] : Fin 2 → Nat) a + S1x512.size a ≤ S240x512.size a
  inb_S240x512_S1x512_186_0 : ∀ a, (![186, 0] : Fin 2 → Nat) a + S1x512.size a ≤ S240x512.size a
  inb_S240x512_S1x512_185_0 : ∀ a, (![185, 0] : Fin 2 → Nat) a + S1x512.size a ≤ S240x512.size a
  inb_S240x512_S1x512_184_0 : ∀ a, (![184, 0] : Fin 2 → Nat) a + S1x512.size a ≤ S240x512.size a
  inb_S240x512_S1x512_183_0 : ∀ a, (![183, 0] : Fin 2 → Nat) a + S1x512.size a ≤ S240x512.size a
  inb_S240x512_S1x512_182_0 : ∀ a, (![182, 0] : Fin 2 → Nat) a + S1x512.size a ≤ S240x512.size a
  inb_S240x512_S1x512_181_0 : ∀ a, (![181, 0] : Fin 2 → Nat) a + S1x512.size a ≤ S240x512.size a
  inb_S240x512_S1x512_180_0 : ∀ a, (![180, 0] : Fin 2 → Nat) a + S1x512.size a ≤ S240x512.size a
  inb_S240x512_S1x512_209_0 : ∀ a, (![209, 0] : Fin 2 → Nat) a + S1x512.size a ≤ S240x512.size a
  inb_S240x512_S1x512_208_0 : ∀ a, (![208, 0] : Fin 2 → Nat) a + S1x512.size a ≤ S240x512.size a
  inb_S240x512_S1x512_207_0 : ∀ a, (![207, 0] : Fin 2 → Nat) a + S1x512.size a ≤ S240x512.size a
  inb_S240x512_S1x512_206_0 : ∀ a, (![206, 0] : Fin 2 → Nat) a + S1x512.size a ≤ S240x512.size a
  inb_S240x512_S1x512_205_0 : ∀ a, (![205, 0] : Fin 2 → Nat) a + S1x512.size a ≤ S240x512.size a
  inb_S240x512_S1x512_204_0 : ∀ a, (![204, 0] : Fin 2 → Nat) a + S1x512.size a ≤ S240x512.size a
  inb_S240x512_S1x512_203_0 : ∀ a, (![203, 0] : Fin 2 → Nat) a + S1x512.size a ≤ S240x512.size a
  inb_S240x512_S1x512_202_0 : ∀ a, (![202, 0] : Fin 2 → Nat) a + S1x512.size a ≤ S240x512.size a
  inb_S240x512_S1x512_201_0 : ∀ a, (![201, 0] : Fin 2 → Nat) a + S1x512.size a ≤ S240x512.size a
  inb_S240x512_S1x512_200_0 : ∀ a, (![200, 0] : Fin 2 → Nat) a + S1x512.size a ≤ S240x512.size a
  inb_S240x512_S1x512_199_0 : ∀ a, (![199, 0] : Fin 2 → Nat) a + S1x512.size a ≤ S240x512.size a
  inb_S240x512_S1x512_198_0 : ∀ a, (![198, 0] : Fin 2 → Nat) a + S1x512.size a ≤ S240x512.size a
  inb_S240x512_S1x512_197_0 : ∀ a, (![197, 0] : Fin 2 → Nat) a + S1x512.size a ≤ S240x512.size a
  inb_S240x512_S1x512_196_0 : ∀ a, (![196, 0] : Fin 2 → Nat) a + S1x512.size a ≤ S240x512.size a
  inb_S240x512_S1x512_195_0 : ∀ a, (![195, 0] : Fin 2 → Nat) a + S1x512.size a ≤ S240x512.size a
  inb_S240x512_S1x512_224_0 : ∀ a, (![224, 0] : Fin 2 → Nat) a + S1x512.size a ≤ S240x512.size a
  inb_S240x512_S1x512_223_0 : ∀ a, (![223, 0] : Fin 2 → Nat) a + S1x512.size a ≤ S240x512.size a
  inb_S240x512_S1x512_222_0 : ∀ a, (![222, 0] : Fin 2 → Nat) a + S1x512.size a ≤ S240x512.size a
  inb_S240x512_S1x512_221_0 : ∀ a, (![221, 0] : Fin 2 → Nat) a + S1x512.size a ≤ S240x512.size a
  inb_S240x512_S1x512_220_0 : ∀ a, (![220, 0] : Fin 2 → Nat) a + S1x512.size a ≤ S240x512.size a
  inb_S240x512_S1x512_219_0 : ∀ a, (![219, 0] : Fin 2 → Nat) a + S1x512.size a ≤ S240x512.size a
  inb_S240x512_S1x512_218_0 : ∀ a, (![218, 0] : Fin 2 → Nat) a + S1x512.size a ≤ S240x512.size a
  inb_S240x512_S1x512_217_0 : ∀ a, (![217, 0] : Fin 2 → Nat) a + S1x512.size a ≤ S240x512.size a
  inb_S240x512_S1x512_216_0 : ∀ a, (![216, 0] : Fin 2 → Nat) a + S1x512.size a ≤ S240x512.size a
  inb_S240x512_S1x512_215_0 : ∀ a, (![215, 0] : Fin 2 → Nat) a + S1x512.size a ≤ S240x512.size a
  inb_S240x512_S1x512_214_0 : ∀ a, (![214, 0] : Fin 2 → Nat) a + S1x512.size a ≤ S240x512.size a
  inb_S240x512_S1x512_213_0 : ∀ a, (![213, 0] : Fin 2 → Nat) a + S1x512.size a ≤ S240x512.size a
  inb_S240x512_S1x512_212_0 : ∀ a, (![212, 0] : Fin 2 → Nat) a + S1x512.size a ≤ S240x512.size a
  inb_S240x512_S1x512_211_0 : ∀ a, (![211, 0] : Fin 2 → Nat) a + S1x512.size a ≤ S240x512.size a
  inb_S240x512_S1x512_210_0 : ∀ a, (![210, 0] : Fin 2 → Nat) a + S1x512.size a ≤ S240x512.size a
  inb_S240x512_S1x512_239_0 : ∀ a, (![239, 0] : Fin 2 → Nat) a + S1x512.size a ≤ S240x512.size a
  inb_S240x512_S1x512_238_0 : ∀ a, (![238, 0] : Fin 2 → Nat) a + S1x512.size a ≤ S240x512.size a
  inb_S240x512_S1x512_237_0 : ∀ a, (![237, 0] : Fin 2 → Nat) a + S1x512.size a ≤ S240x512.size a
  inb_S240x512_S1x512_236_0 : ∀ a, (![236, 0] : Fin 2 → Nat) a + S1x512.size a ≤ S240x512.size a
  inb_S240x512_S1x512_235_0 : ∀ a, (![235, 0] : Fin 2 → Nat) a + S1x512.size a ≤ S240x512.size a
  inb_S240x512_S1x512_234_0 : ∀ a, (![234, 0] : Fin 2 → Nat) a + S1x512.size a ≤ S240x512.size a
  inb_S240x512_S1x512_233_0 : ∀ a, (![233, 0] : Fin 2 → Nat) a + S1x512.size a ≤ S240x512.size a
  inb_S240x512_S1x512_232_0 : ∀ a, (![232, 0] : Fin 2 → Nat) a + S1x512.size a ≤ S240x512.size a
  inb_S240x512_S1x512_231_0 : ∀ a, (![231, 0] : Fin 2 → Nat) a + S1x512.size a ≤ S240x512.size a
  inb_S240x512_S1x512_230_0 : ∀ a, (![230, 0] : Fin 2 → Nat) a + S1x512.size a ≤ S240x512.size a
  inb_S240x512_S1x512_229_0 : ∀ a, (![229, 0] : Fin 2 → Nat) a + S1x512.size a ≤ S240x512.size a
  inb_S240x512_S1x512_228_0 : ∀ a, (![228, 0] : Fin 2 → Nat) a + S1x512.size a ≤ S240x512.size a
  inb_S240x512_S1x512_227_0 : ∀ a, (![227, 0] : Fin 2 → Nat) a + S1x512.size a ≤ S240x512.size a
  inb_S240x512_S1x512_226_0 : ∀ a, (![226, 0] : Fin 2 → Nat) a + S1x512.size a ≤ S240x512.size a
  inb_S240x512_S1x512_225_0 : ∀ a, (![225, 0] : Fin 2 → Nat) a + S1x512.size a ≤ S240x512.size a
  inb_S1x512_S1x512_0_0 : ∀ a, (![0, 0] : Fin 2 → Nat) a + S1x512.size a ≤ S1x512.size a
  inb_S5000x512_S5000x512_0_0 : ∀ a, (![0, 0] : Fin 2 → Nat) a + S5000x512.size a ≤ S5000x512.size a
  h_S5000x512 : 0 < S5000x512.numel
  broadcasts_S1x512_S5000x512 : S1x512.Broadcasts S5000x512
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S240x512.size a ≤ S240x512.size a
  hwx0_0 : ∀ i : grid0.Coords, EltTy.bits .f32 = 32 ∨ (Rect.block (s := S240x512) S240x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S10000x512.size a
  hwx0_1 : ∀ i : grid0.Coords, EltTy.bits .f32 = 32 ∨ (Rect.block (s := S10000x512) S5000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S10000x512.size a
  hwx0_2 : ∀ i : grid0.Coords, EltTy.bits .f32 = 32 ∨ (Rect.block (s := S10000x512) S5000x512.size (cc0_transform_2 i) (hinb0_2 i)).WholeWords (EltTy.packing .f32)

variable [Facts₀]

abbrev win0_0 : Pipeline.Window sig grid0 :=
  Pipeline.Window.ofSpec (Memref.whole main_v0) S240x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x512 : Shape := ⟨2, ![10000, 512]⟩
abbrev S16x15x512 : Shape := ⟨3, ![16, 15, 512]⟩
abbrev S_ : Shape := ⟨0, ![]⟩
abbrev S1x15x512 : Shape := ⟨3, ![1, 15, 512]⟩
abbrev S15x512 : Shape := ⟨2, ![15, 512]⟩
abbrev S1x512 : Shape := ⟨2, ![1, 512]⟩
abbrev S512 : Shape := ⟨1, ![512]⟩

abbrev nBuf : Space → Nat
  | .hbm => 1366
  | .vmem => 0
  | .smem => 0
  | _ => 0

abbrev hbmTy0_0 (i : Nat) : BufTy := match i % 128 with
  | 0 => ⟨S10000x512, .f32⟩
  | 1 => ⟨S16x15x512, .f32⟩
  | 2 => ⟨S_, .f32⟩
  | 3 => ⟨S10000x512, .f32⟩
  | 4 => ⟨S10000x512, .f32⟩
  | 5 => ⟨S10000x512, .f32⟩
  | 6 => ⟨S1x15x512, .f32⟩
  | 7 => ⟨S15x512, .f32⟩
  | 8 => ⟨S1x512, .f32⟩
  | 9 => ⟨S512, .f32⟩
  | 10 => ⟨S1x512, .f32⟩
  | 11 => ⟨S10000x512, .f32⟩
  | 12 => ⟨S10000x512, .f32⟩
  | 13 => ⟨S1x512, .f32⟩
  | 14 => ⟨S512, .f32⟩
  | 15 => ⟨S1x512, .f32⟩
  | 16 => ⟨S10000x512, .f32⟩
  | 17 => ⟨S10000x512, .f32⟩
  | 18 => ⟨S1x512, .f32⟩
  | 19 => ⟨S512, .f32⟩
  | 20 => ⟨S1x512, .f32⟩
  | 21 => ⟨S10000x512, .f32⟩
  | 22 => ⟨S10000x512, .f32⟩
  | 23 => ⟨S1x512, .f32⟩
  | 24 => ⟨S512, .f32⟩
  | 25 => ⟨S1x512, .f32⟩
  | 26 => ⟨S10000x512, .f32⟩
  | 27 => ⟨S10000x512, .f32⟩
  | 28 => ⟨S1x512, .f32⟩
  | 29 => ⟨S512, .f32⟩
  | 30 => ⟨S1x512, .f32⟩
  | 31 => ⟨S10000x512, .f32⟩
  | 32 => ⟨S10000x512, .f32⟩
  | 33 => ⟨S1x512, .f32⟩
  | 34 => ⟨S512, .f32⟩
  | 35 => ⟨S1x512, .f32⟩
  | 36 => ⟨S10000x512, .f32⟩
  | 37 => ⟨S10000x512, .f32⟩
  | 38 => ⟨S1x512, .f32⟩
  | 39 => ⟨S512, .f32⟩
  | 40 => ⟨S1x512, .f32⟩
  | 41 => ⟨S10000x512, .f32⟩
  | 42 => ⟨S10000x512, .f32⟩
  | 43 => ⟨S1x512, .f32⟩
  | 44 => ⟨S512, .f32⟩
  | 45 => ⟨S1x512, .f32⟩
  | 46 => ⟨S10000x512, .f32⟩
  | 47 => ⟨S10000x512, .f32⟩
  | 48 => ⟨S10000x512, .f32⟩
  | 49 => ⟨S1x512, .f32⟩
  | 50 => ⟨S512, .f32⟩
  | 51 => ⟨S1x512, .f32⟩
  | 52 => ⟨S10000x512, .f32⟩
  | 53 => ⟨S10000x512, .f32⟩
  | 54 => ⟨S10000x512, .f32⟩
  | 55 => ⟨S1x512, .f32⟩
  | 56 => ⟨S512, .f32⟩
  | 57 => ⟨S1x512, .f32⟩
  | 58 => ⟨S10000x512, .f32⟩
  | 59 => ⟨S10000x512, .f32⟩
  | 60 => ⟨S10000x512, .f32⟩
  | 61 => ⟨S1x512, .f32⟩
  | 62 => ⟨S512, .f32⟩
  | 63 => ⟨S1x512, .f32⟩
  | 64 => ⟨S10000x512, .f32⟩
  | 65 => ⟨S10000x512, .f32⟩
  | 66 => ⟨S10000x512, .f32⟩
  | 67 => ⟨S1x512, .f32⟩
  | 68 => ⟨S512, .f32⟩
  | 69 => ⟨S1x512, .f32⟩
  | 70 => ⟨S10000x512, .f32⟩
  | 71 => ⟨S10000x512, .f32⟩
  | 72 => ⟨S10000x512, .f32⟩
  | 73 => ⟨S1x512, .f32⟩
  | 74 => ⟨S512, .f32⟩
  | 75 => ⟨S1x512, .f32⟩
  | 76 => ⟨S10000x512, .f32⟩
  | 77 => ⟨S10000x512, .f32⟩
  | 78 => ⟨S10000x512, .f32⟩
  | 79 => ⟨S1x512, .f32⟩
  | 80 => ⟨S512, .f32⟩
  | 81 => ⟨S1x512, .f32⟩
  | 82 => ⟨S10000x512, .f32⟩
  | 83 => ⟨S10000x512, .f32⟩
  | 84 => ⟨S10000x512, .f32⟩
  | 85 => ⟨S1x512, .f32⟩
  | 86 => ⟨S512, .f32⟩
  | 87 => ⟨S1x512, .f32⟩
  | 88 => ⟨S10000x512, .f32⟩
  | 89 => ⟨S10000x512, .f32⟩
  | 90 => ⟨S1x15x512, .f32⟩
  | 91 => ⟨S15x512, .f32⟩
  | 92 => ⟨S1x512, .f32⟩
  | 93 => ⟨S512, .f32⟩
  | 94 => ⟨S1x512, .f32⟩
  | 95 => ⟨S10000x512, .f32⟩
  | 96 => ⟨S10000x512, .f32⟩
  | 97 => ⟨S1x512, .f32⟩
  | 98 => ⟨S512, .f32⟩
  | 99 => ⟨S1x512, .f32⟩
  | 100 => ⟨S10000x512, .f32⟩
  | 101 => ⟨S10000x512, .f32⟩
  | 102 => ⟨S1x512, .f32⟩
  | 103 => ⟨S512, .f32⟩
  | 104 => ⟨S1x512, .f32⟩
  | 105 => ⟨S10000x512, .f32⟩
  | 106 => ⟨S10000x512, .f32⟩
  | 107 => ⟨S1x512, .f32⟩
  | 108 => ⟨S512, .f32⟩
  | 109 => ⟨S1x512, .f32⟩
  | 110 => ⟨S10000x512, .f32⟩
  | 111 => ⟨S10000x512, .f32⟩
  | 112 => ⟨S1x512, .f32⟩
  | 113 => ⟨S512, .f32⟩
  | 114 => ⟨S1x512, .f32⟩
  | 115 => ⟨S10000x512, .f32⟩
  | 116 => ⟨S10000x512, .f32⟩
  | 117 => ⟨S1x512, .f32⟩
  | 118 => ⟨S512, .f32⟩
  | 119 => ⟨S1x512, .f32⟩
  | 120 => ⟨S10000x512, .f32⟩
  | 121 => ⟨S10000x512, .f32⟩
  | 122 => ⟨S1x512, .f32⟩
  | 123 => ⟨S512, .f32⟩
  | 124 => ⟨S1x512, .f32⟩
  | 125 => ⟨S10000x512, .f32⟩
  | 126 => ⟨S10000x512, .f32⟩
  | 127 => ⟨S1x512, .f32⟩
  | _ => ⟨S10000x512, .f32⟩

abbrev hbmTy0_1 (i : Nat) : BufTy := match i % 128 with
  | 0 => ⟨S512, .f32⟩
  | 1 => ⟨S1x512, .f32⟩
  | 2 => ⟨S10000x512, .f32⟩
  | 3 => ⟨S10000x512, .f32⟩
  | 4 => ⟨S10000x512, .f32⟩
  | 5 => ⟨S1x512, .f32⟩
  | 6 => ⟨S512, .f32⟩
  | 7 => ⟨S1x512, .f32⟩
  | 8 => ⟨S10000x512, .f32⟩
  | 9 => ⟨S10000x512, .f32⟩
  | 10 => ⟨S10000x512, .f32⟩
  | 11 => ⟨S1x512, .f32⟩
  | 12 => ⟨S512, .f32⟩
  | 13 => ⟨S1x512, .f32⟩
  | 14 => ⟨S10000x512, .f32⟩
  | 15 => ⟨S10000x512, .f32⟩
  | 16 => ⟨S10000x512, .f32⟩
  | 17 => ⟨S1x512, .f32⟩
  | 18 => ⟨S512, .f32⟩
  | 19 => ⟨S1x512, .f32⟩
  | 20 => ⟨S10000x512, .f32⟩
  | 21 => ⟨S10000x512, .f32⟩
  | 22 => ⟨S10000x512, .f32⟩
  | 23 => ⟨S1x512, .f32⟩
  | 24 => ⟨S512, .f32⟩
  | 25 => ⟨S1x512, .f32⟩
  | 26 => ⟨S10000x512, .f32⟩
  | 27 => ⟨S10000x512, .f32⟩
  | 28 => ⟨S10000x512, .f32⟩
  | 29 => ⟨S1x512, .f32⟩
  | 30 => ⟨S512, .f32⟩
  | 31 => ⟨S1x512, .f32⟩
  | 32 => ⟨S10000x512, .f32⟩
  | 33 => ⟨S10000x512, .f32⟩
  | 34 => ⟨S10000x512, .f32⟩
  | 35 => ⟨S1x512, .f32⟩
  | 36 => ⟨S512, .f32⟩
  | 37 => ⟨S1x512, .f32⟩
  | 38 => ⟨S10000x512, .f32⟩
  | 39 => ⟨S10000x512, .f32⟩
  | 40 => ⟨S10000x512, .f32⟩
  | 41 => ⟨S1x512, .f32⟩
  | 42 => ⟨S512, .f32⟩
  | 43 => ⟨S1x512, .f32⟩
  | 44 => ⟨S10000x512, .f32⟩
  | 45 => ⟨S10000x512, .f32⟩
  | 46 => ⟨S10000x512, .f32⟩
  | 47 => ⟨S1x15x512, .f32⟩
  | 48 => ⟨S15x512, .f32⟩
  | 49 => ⟨S1x512, .f32⟩
  | 50 => ⟨S512, .f32⟩
  | 51 => ⟨S1x512, .f32⟩
  | 52 => ⟨S10000x512, .f32⟩
  | 53 => ⟨S10000x512, .f32⟩
  | 54 => ⟨S1x512, .f32⟩
  | 55 => ⟨S512, .f32⟩
  | 56 => ⟨S1x512, .f32⟩
  | 57 => ⟨S10000x512, .f32⟩
  | 58 => ⟨S10000x512, .f32⟩
  | 59 => ⟨S1x512, .f32⟩
  | 60 => ⟨S512, .f32⟩
  | 61 => ⟨S1x512, .f32⟩
  | 62 => ⟨S10000x512, .f32⟩
  | 63 => ⟨S10000x512, .f32⟩
  | 64 => ⟨S1x512, .f32⟩
  | 65 => ⟨S512, .f32⟩
  | 66 => ⟨S1x512, .f32⟩
  | 67 => ⟨S10000x512, .f32⟩
  | 68 => ⟨S10000x512, .f32⟩
  | 69 => ⟨S1x512, .f32⟩
  | 70 => ⟨S512, .f32⟩
  | 71 => ⟨S1x512, .f32⟩
  | 72 => ⟨S10000x512, .f32⟩
  | 73 => ⟨S10000x512, .f32⟩
  | 74 => ⟨S1x512, .f32⟩
  | 75 => ⟨S512, .f32⟩
  | 76 => ⟨S1x512, .f32⟩
  | 77 => ⟨S10000x512, .f32⟩
  | 78 => ⟨S10000x512, .f32⟩
  | 79 => ⟨S1x512, .f32⟩
  | 80 => ⟨S512, .f32⟩
  | 81 => ⟨S1x512, .f32⟩
  | 82 => ⟨S10000x512, .f32⟩
  | 83 => ⟨S10000x512, .f32⟩
  | 84 => ⟨S1x512, .f32⟩
  | 85 => ⟨S512, .f32⟩
  | 86 => ⟨S1x512, .f32⟩
  | 87 => ⟨S10000x512, .f32⟩
  | 88 => ⟨S10000x512, .f32⟩
  | 89 => ⟨S10000x512, .f32⟩
  | 90 => ⟨S1x512, .f32⟩
  | 91 => ⟨S512, .f32⟩
  | 92 => ⟨S1x512, .f32⟩
  | 93 => ⟨S10000x512, .f32⟩
  | 94 => ⟨S10000x512, .f32⟩
  | 95 => ⟨S10000x512, .f32⟩
  | 96 => ⟨S1x512, .f32⟩
  | 97 => ⟨S512, .f32⟩
  | 98 => ⟨S1x512, .f32⟩
  | 99 => ⟨S10000x512, .f32⟩
  | 100 => ⟨S10000x512, .f32⟩
  | 101 => ⟨S10000x512, .f32⟩
  | 102 => ⟨S1x512, .f32⟩
  | 103 => ⟨S512, .f32⟩
  | 104 => ⟨S1x512, .f32⟩
  | 105 => ⟨S10000x512, .f32⟩
  | 106 => ⟨S10000x512, .f32⟩
  | 107 => ⟨S10000x512, .f32⟩
  | 108 => ⟨S1x512, .f32⟩
  | 109 => ⟨S512, .f32⟩
  | 110 => ⟨S1x512, .f32⟩
  | 111 => ⟨S10000x512, .f32⟩
  | 112 => ⟨S10000x512, .f32⟩
  | 113 => ⟨S10000x512, .f32⟩
  | 114 => ⟨S1x512, .f32⟩
  | 115 => ⟨S512, .f32⟩
  | 116 => ⟨S1x512, .f32⟩
  | 117 => ⟨S10000x512, .f32⟩
  | 118 => ⟨S10000x512, .f32⟩
  | 119 => ⟨S10000x512, .f32⟩
  | 120 => ⟨S1x512, .f32⟩
  | 121 => ⟨S512, .f32⟩
  | 122 => ⟨S1x512, .f32⟩
  | 123 => ⟨S10000x512, .f32⟩
  | 124 => ⟨S10000x512, .f32⟩
  | 125 => ⟨S10000x512, .f32⟩
  | 126 => ⟨S1x512, .f32⟩
  | 127 => ⟨S512, .f32⟩
  | _ => ⟨S10000x512, .f32⟩

abbrev hbmTy0_2 (i : Nat) : BufTy := match i % 128 with
  | 0 => ⟨S1x512, .f32⟩
  | 1 => ⟨S10000x512, .f32⟩
  | 2 => ⟨S10000x512, .f32⟩
  | 3 => ⟨S10000x512, .f32⟩
  | 4 => ⟨S1x15x512, .f32⟩
  | 5 => ⟨S15x512, .f32⟩
  | 6 => ⟨S1x512, .f32⟩
  | 7 => ⟨S512, .f32⟩
  | 8 => ⟨S1x512, .f32⟩
  | 9 => ⟨S10000x512, .f32⟩
  | 10 => ⟨S10000x512, .f32⟩
  | 11 => ⟨S1x512, .f32⟩
  | 12 => ⟨S512, .f32⟩
  | 13 => ⟨S1x512, .f32⟩
  | 14 => ⟨S10000x512, .f32⟩
  | 15 => ⟨S10000x512, .f32⟩
  | 16 => ⟨S1x512, .f32⟩
  | 17 => ⟨S512, .f32⟩
  | 18 => ⟨S1x512, .f32⟩
  | 19 => ⟨S10000x512, .f32⟩
  | 20 => ⟨S10000x512, .f32⟩
  | 21 => ⟨S1x512, .f32⟩
  | 22 => ⟨S512, .f32⟩
  | 23 => ⟨S1x512, .f32⟩
  | 24 => ⟨S10000x512, .f32⟩
  | 25 => ⟨S10000x512, .f32⟩
  | 26 => ⟨S1x512, .f32⟩
  | 27 => ⟨S512, .f32⟩
  | 28 => ⟨S1x512, .f32⟩
  | 29 => ⟨S10000x512, .f32⟩
  | 30 => ⟨S10000x512, .f32⟩
  | 31 => ⟨S1x512, .f32⟩
  | 32 => ⟨S512, .f32⟩
  | 33 => ⟨S1x512, .f32⟩
  | 34 => ⟨S10000x512, .f32⟩
  | 35 => ⟨S10000x512, .f32⟩
  | 36 => ⟨S1x512, .f32⟩
  | 37 => ⟨S512, .f32⟩
  | 38 => ⟨S1x512, .f32⟩
  | 39 => ⟨S10000x512, .f32⟩
  | 40 => ⟨S10000x512, .f32⟩
  | 41 => ⟨S1x512, .f32⟩
  | 42 => ⟨S512, .f32⟩
  | 43 => ⟨S1x512, .f32⟩
  | 44 => ⟨S10000x512, .f32⟩
  | 45 => ⟨S10000x512, .f32⟩
  | 46 => ⟨S10000x512, .f32⟩
  | 47 => ⟨S1x512, .f32⟩
  | 48 => ⟨S512, .f32⟩
  | 49 => ⟨S1x512, .f32⟩
  | 50 => ⟨S10000x512, .f32⟩
  | 51 => ⟨S10000x512, .f32⟩
  | 52 => ⟨S10000x512, .f32⟩
  | 53 => ⟨S1x512, .f32⟩
  | 54 => ⟨S512, .f32⟩
  | 55 => ⟨S1x512, .f32⟩
  | 56 => ⟨S10000x512, .f32⟩
  | 57 => ⟨S10000x512, .f32⟩
  | 58 => ⟨S10000x512, .f32⟩
  | 59 => ⟨S1x512, .f32⟩
  | 60 => ⟨S512, .f32⟩
  | 61 => ⟨S1x512, .f32⟩
  | 62 => ⟨S10000x512, .f32⟩
  | 63 => ⟨S10000x512, .f32⟩
  | 64 => ⟨S10000x512, .f32⟩
  | 65 => ⟨S1x512, .f32⟩
  | 66 => ⟨S512, .f32⟩
  | 67 => ⟨S1x512, .f32⟩
  | 68 => ⟨S10000x512, .f32⟩
  | 69 => ⟨S10000x512, .f32⟩
  | 70 => ⟨S10000x512, .f32⟩
  | 71 => ⟨S1x512, .f32⟩
  | 72 => ⟨S512, .f32⟩
  | 73 => ⟨S1x512, .f32⟩
  | 74 => ⟨S10000x512, .f32⟩
  | 75 => ⟨S10000x512, .f32⟩
  | 76 => ⟨S10000x512, .f32⟩
  | 77 => ⟨S1x512, .f32⟩
  | 78 => ⟨S512, .f32⟩
  | 79 => ⟨S1x512, .f32⟩
  | 80 => ⟨S10000x512, .f32⟩
  | 81 => ⟨S10000x512, .f32⟩
  | 82 => ⟨S10000x512, .f32⟩
  | 83 => ⟨S1x512, .f32⟩
  | 84 => ⟨S512, .f32⟩
  | 85 => ⟨S1x512, .f32⟩
  | 86 => ⟨S10000x512, .f32⟩
  | 87 => ⟨S10000x512, .f32⟩
  | 88 => ⟨S10000x512, .f32⟩
  | 89 => ⟨S1x15x512, .f32⟩
  | 90 => ⟨S15x512, .f32⟩
  | 91 => ⟨S1x512, .f32⟩
  | 92 => ⟨S512, .f32⟩
  | 93 => ⟨S1x512, .f32⟩
  | 94 => ⟨S10000x512, .f32⟩
  | 95 => ⟨S10000x512, .f32⟩
  | 96 => ⟨S1x512, .f32⟩
  | 97 => ⟨S512, .f32⟩
  | 98 => ⟨S1x512, .f32⟩
  | 99 => ⟨S10000x512, .f32⟩
  | 100 => ⟨S10000x512, .f32⟩
  | 101 => ⟨S1x512, .f32⟩
  | 102 => ⟨S512, .f32⟩
  | 103 => ⟨S1x512, .f32⟩
  | 104 => ⟨S10000x512, .f32⟩
  | 105 => ⟨S10000x512, .f32⟩
  | 106 => ⟨S1x512, .f32⟩
  | 107 => ⟨S512, .f32⟩
  | 108 => ⟨S1x512, .f32⟩
  | 109 => ⟨S10000x512, .f32⟩
  | 110 => ⟨S10000x512, .f32⟩
  | 111 => ⟨S1x512, .f32⟩
  | 112 => ⟨S512, .f32⟩
  | 113 => ⟨S1x512, .f32⟩
  | 114 => ⟨S10000x512, .f32⟩
  | 115 => ⟨S10000x512, .f32⟩
  | 116 => ⟨S1x512, .f32⟩
  | 117 => ⟨S512, .f32⟩
  | 118 => ⟨S1x512, .f32⟩
  | 119 => ⟨S10000x512, .f32⟩
  | 120 => ⟨S10000x512, .f32⟩
  | 121 => ⟨S1x512, .f32⟩
  | 122 => ⟨S512, .f32⟩
  | 123 => ⟨S1x512, .f32⟩
  | 124 => ⟨S10000x512, .f32⟩
  | 125 => ⟨S10000x512, .f32⟩
  | 126 => ⟨S1x512, .f32⟩
  | 127 => ⟨S512, .f32⟩
  | _ => ⟨S10000x512, .f32⟩

abbrev hbmTy0_3 (i : Nat) : BufTy := match i % 128 with
  | 0 => ⟨S1x512, .f32⟩
  | 1 => ⟨S10000x512, .f32⟩
  | 2 => ⟨S10000x512, .f32⟩
  | 3 => ⟨S10000x512, .f32⟩
  | 4 => ⟨S1x512, .f32⟩
  | 5 => ⟨S512, .f32⟩
  | 6 => ⟨S1x512, .f32⟩
  | 7 => ⟨S10000x512, .f32⟩
  | 8 => ⟨S10000x512, .f32⟩
  | 9 => ⟨S10000x512, .f32⟩
  | 10 => ⟨S1x512, .f32⟩
  | 11 => ⟨S512, .f32⟩
  | 12 => ⟨S1x512, .f32⟩
  | 13 => ⟨S10000x512, .f32⟩
  | 14 => ⟨S10000x512, .f32⟩
  | 15 => ⟨S10000x512, .f32⟩
  | 16 => ⟨S1x512, .f32⟩
  | 17 => ⟨S512, .f32⟩
  | 18 => ⟨S1x512, .f32⟩
  | 19 => ⟨S10000x512, .f32⟩
  | 20 => ⟨S10000x512, .f32⟩
  | 21 => ⟨S10000x512, .f32⟩
  | 22 => ⟨S1x512, .f32⟩
  | 23 => ⟨S512, .f32⟩
  | 24 => ⟨S1x512, .f32⟩
  | 25 => ⟨S10000x512, .f32⟩
  | 26 => ⟨S10000x512, .f32⟩
  | 27 => ⟨S10000x512, .f32⟩
  | 28 => ⟨S1x512, .f32⟩
  | 29 => ⟨S512, .f32⟩
  | 30 => ⟨S1x512, .f32⟩
  | 31 => ⟨S10000x512, .f32⟩
  | 32 => ⟨S10000x512, .f32⟩
  | 33 => ⟨S10000x512, .f32⟩
  | 34 => ⟨S1x512, .f32⟩
  | 35 => ⟨S512, .f32⟩
  | 36 => ⟨S1x512, .f32⟩
  | 37 => ⟨S10000x512, .f32⟩
  | 38 => ⟨S10000x512, .f32⟩
  | 39 => ⟨S10000x512, .f32⟩
  | 40 => ⟨S1x512, .f32⟩
  | 41 => ⟨S512, .f32⟩
  | 42 => ⟨S1x512, .f32⟩
  | 43 => ⟨S10000x512, .f32⟩
  | 44 => ⟨S10000x512, .f32⟩
  | 45 => ⟨S10000x512, .f32⟩
  | 46 => ⟨S1x15x512, .f32⟩
  | 47 => ⟨S15x512, .f32⟩
  | 48 => ⟨S1x512, .f32⟩
  | 49 => ⟨S512, .f32⟩
  | 50 => ⟨S1x512, .f32⟩
  | 51 => ⟨S10000x512, .f32⟩
  | 52 => ⟨S10000x512, .f32⟩
  | 53 => ⟨S1x512, .f32⟩
  | 54 => ⟨S512, .f32⟩
  | 55 => ⟨S1x512, .f32⟩
  | 56 => ⟨S10000x512, .f32⟩
  | 57 => ⟨S10000x512, .f32⟩
  | 58 => ⟨S1x512, .f32⟩
  | 59 => ⟨S512, .f32⟩
  | 60 => ⟨S1x512, .f32⟩
  | 61 => ⟨S10000x512, .f32⟩
  | 62 => ⟨S10000x512, .f32⟩
  | 63 => ⟨S1x512, .f32⟩
  | 64 => ⟨S512, .f32⟩
  | 65 => ⟨S1x512, .f32⟩
  | 66 => ⟨S10000x512, .f32⟩
  | 67 => ⟨S10000x512, .f32⟩
  | 68 => ⟨S1x512, .f32⟩
  | 69 => ⟨S512, .f32⟩
  | 70 => ⟨S1x512, .f32⟩
  | 71 => ⟨S10000x512, .f32⟩
  | 72 => ⟨S10000x512, .f32⟩
  | 73 => ⟨S1x512, .f32⟩
  | 74 => ⟨S512, .f32⟩
  | 75 => ⟨S1x512, .f32⟩
  | 76 => ⟨S10000x512, .f32⟩
  | 77 => ⟨S10000x512, .f32⟩
  | 78 => ⟨S1x512, .f32⟩
  | 79 => ⟨S512, .f32⟩
  | 80 => ⟨S1x512, .f32⟩
  | 81 => ⟨S10000x512, .f32⟩
  | 82 => ⟨S10000x512, .f32⟩
  | 83 => ⟨S1x512, .f32⟩
  | 84 => ⟨S512, .f32⟩
  | 85 => ⟨S1x512, .f32⟩
  | 86 => ⟨S10000x512, .f32⟩
  | 87 => ⟨S10000x512, .f32⟩
  | 88 => ⟨S10000x512, .f32⟩
  | 89 => ⟨S1x512, .f32⟩
  | 90 => ⟨S512, .f32⟩
  | 91 => ⟨S1x512, .f32⟩
  | 92 => ⟨S10000x512, .f32⟩
  | 93 => ⟨S10000x512, .f32⟩
  | 94 => ⟨S10000x512, .f32⟩
  | 95 => ⟨S1x512, .f32⟩
  | 96 => ⟨S512, .f32⟩
  | 97 => ⟨S1x512, .f32⟩
  | 98 => ⟨S10000x512, .f32⟩
  | 99 => ⟨S10000x512, .f32⟩
  | 100 => ⟨S10000x512, .f32⟩
  | 101 => ⟨S1x512, .f32⟩
  | 102 => ⟨S512, .f32⟩
  | 103 => ⟨S1x512, .f32⟩
  | 104 => ⟨S10000x512, .f32⟩
  | 105 => ⟨S10000x512, .f32⟩
  | 106 => ⟨S10000x512, .f32⟩
  | 107 => ⟨S1x512, .f32⟩
  | 108 => ⟨S512, .f32⟩
  | 109 => ⟨S1x512, .f32⟩
  | 110 => ⟨S10000x512, .f32⟩
  | 111 => ⟨S10000x512, .f32⟩
  | 112 => ⟨S10000x512, .f32⟩
  | 113 => ⟨S1x512, .f32⟩
  | 114 => ⟨S512, .f32⟩
  | 115 => ⟨S1x512, .f32⟩
  | 116 => ⟨S10000x512, .f32⟩
  | 117 => ⟨S10000x512, .f32⟩
  | 118 => ⟨S10000x512, .f32⟩
  | 119 => ⟨S1x512, .f32⟩
  | 120 => ⟨S512, .f32⟩
  | 121 => ⟨S1x512, .f32⟩
  | 122 => ⟨S10000x512, .f32⟩
  | 123 => ⟨S10000x512, .f32⟩
  | 124 => ⟨S10000x512, .f32⟩
  | 125 => ⟨S1x512, .f32⟩
  | 126 => ⟨S512, .f32⟩
  | 127 => ⟨S1x512, .f32⟩
  | _ => ⟨S10000x512, .f32⟩

abbrev hbmTy0_4 (i : Nat) : BufTy := match i % 128 with
  | 0 => ⟨S10000x512, .f32⟩
  | 1 => ⟨S10000x512, .f32⟩
  | 2 => ⟨S10000x512, .f32⟩
  | 3 => ⟨S1x15x512, .f32⟩
  | 4 => ⟨S15x512, .f32⟩
  | 5 => ⟨S1x512, .f32⟩
  | 6 => ⟨S512, .f32⟩
  | 7 => ⟨S1x512, .f32⟩
  | 8 => ⟨S10000x512, .f32⟩
  | 9 => ⟨S10000x512, .f32⟩
  | 10 => ⟨S1x512, .f32⟩
  | 11 => ⟨S512, .f32⟩
  | 12 => ⟨S1x512, .f32⟩
  | 13 => ⟨S10000x512, .f32⟩
  | 14 => ⟨S10000x512, .f32⟩
  | 15 => ⟨S1x512, .f32⟩
  | 16 => ⟨S512, .f32⟩
  | 17 => ⟨S1x512, .f32⟩
  | 18 => ⟨S10000x512, .f32⟩
  | 19 => ⟨S10000x512, .f32⟩
  | 20 => ⟨S1x512, .f32⟩
  | 21 => ⟨S512, .f32⟩
  | 22 => ⟨S1x512, .f32⟩
  | 23 => ⟨S10000x512, .f32⟩
  | 24 => ⟨S10000x512, .f32⟩
  | 25 => ⟨S1x512, .f32⟩
  | 26 => ⟨S512, .f32⟩
  | 27 => ⟨S1x512, .f32⟩
  | 28 => ⟨S10000x512, .f32⟩
  | 29 => ⟨S10000x512, .f32⟩
  | 30 => ⟨S1x512, .f32⟩
  | 31 => ⟨S512, .f32⟩
  | 32 => ⟨S1x512, .f32⟩
  | 33 => ⟨S10000x512, .f32⟩
  | 34 => ⟨S10000x512, .f32⟩
  | 35 => ⟨S1x512, .f32⟩
  | 36 => ⟨S512, .f32⟩
  | 37 => ⟨S1x512, .f32⟩
  | 38 => ⟨S10000x512, .f32⟩
  | 39 => ⟨S10000x512, .f32⟩
  | 40 => ⟨S1x512, .f32⟩
  | 41 => ⟨S512, .f32⟩
  | 42 => ⟨S1x512, .f32⟩
  | 43 => ⟨S10000x512, .f32⟩
  | 44 => ⟨S10000x512, .f32⟩
  | 45 => ⟨S10000x512, .f32⟩
  | 46 => ⟨S1x512, .f32⟩
  | 47 => ⟨S512, .f32⟩
  | 48 => ⟨S1x512, .f32⟩
  | 49 => ⟨S10000x512, .f32⟩
  | 50 => ⟨S10000x512, .f32⟩
  | 51 => ⟨S10000x512, .f32⟩
  | 52 => ⟨S1x512, .f32⟩
  | 53 => ⟨S512, .f32⟩
  | 54 => ⟨S1x512, .f32⟩
  | 55 => ⟨S10000x512, .f32⟩
  | 56 => ⟨S10000x512, .f32⟩
  | 57 => ⟨S10000x512, .f32⟩
  | 58 => ⟨S1x512, .f32⟩
  | 59 => ⟨S512, .f32⟩
  | 60 => ⟨S1x512, .f32⟩
  | 61 => ⟨S10000x512, .f32⟩
  | 62 => ⟨S10000x512, .f32⟩
  | 63 => ⟨S10000x512, .f32⟩
  | 64 => ⟨S1x512, .f32⟩
  | 65 => ⟨S512, .f32⟩
  | 66 => ⟨S1x512, .f32⟩
  | 67 => ⟨S10000x512, .f32⟩
  | 68 => ⟨S10000x512, .f32⟩
  | 69 => ⟨S10000x512, .f32⟩
  | 70 => ⟨S1x512, .f32⟩
  | 71 => ⟨S512, .f32⟩
  | 72 => ⟨S1x512, .f32⟩
  | 73 => ⟨S10000x512, .f32⟩
  | 74 => ⟨S10000x512, .f32⟩
  | 75 => ⟨S10000x512, .f32⟩
  | 76 => ⟨S1x512, .f32⟩
  | 77 => ⟨S512, .f32⟩
  | 78 => ⟨S1x512, .f32⟩
  | 79 => ⟨S10000x512, .f32⟩
  | 80 => ⟨S10000x512, .f32⟩
  | 81 => ⟨S10000x512, .f32⟩
  | 82 => ⟨S1x512, .f32⟩
  | 83 => ⟨S512, .f32⟩
  | 84 => ⟨S1x512, .f32⟩
  | 85 => ⟨S10000x512, .f32⟩
  | 86 => ⟨S10000x512, .f32⟩
  | 87 => ⟨S10000x512, .f32⟩
  | 88 => ⟨S1x15x512, .f32⟩
  | 89 => ⟨S15x512, .f32⟩
  | 90 => ⟨S1x512, .f32⟩
  | 91 => ⟨S512, .f32⟩
  | 92 => ⟨S1x512, .f32⟩
  | 93 => ⟨S10000x512, .f32⟩
  | 94 => ⟨S10000x512, .f32⟩
  | 95 => ⟨S1x512, .f32⟩
  | 96 => ⟨S512, .f32⟩
  | 97 => ⟨S1x512, .f32⟩
  | 98 => ⟨S10000x512, .f32⟩
  | 99 => ⟨S10000x512, .f32⟩
  | 100 => ⟨S1x512, .f32⟩
  | 101 => ⟨S512, .f32⟩
  | 102 => ⟨S1x512, .f32⟩
  | 103 => ⟨S10000x512, .f32⟩
  | 104 => ⟨S10000x512, .f32⟩
  | 105 => ⟨S1x512, .f32⟩
  | 106 => ⟨S512, .f32⟩
  | 107 => ⟨S1x512, .f32⟩
  | 108 => ⟨S10000x512, .f32⟩
  | 109 => ⟨S10000x512, .f32⟩
  | 110 => ⟨S1x512, .f32⟩
  | 111 => ⟨S512, .f32⟩
  | 112 => ⟨S1x512, .f32⟩
  | 113 => ⟨S10000x512, .f32⟩
  | 114 => ⟨S10000x512, .f32⟩
  | 115 => ⟨S1x512, .f32⟩
  | 116 => ⟨S512, .f32⟩
  | 117 => ⟨S1x512, .f32⟩
  | 118 => ⟨S10000x512, .f32⟩
  | 119 => ⟨S10000x512, .f32⟩
  | 120 => ⟨S1x512, .f32⟩
  | 121 => ⟨S512, .f32⟩
  | 122 => ⟨S1x512, .f32⟩
  | 123 => ⟨S10000x512, .f32⟩
  | 124 => ⟨S10000x512, .f32⟩
  | 125 => ⟨S1x512, .f32⟩
  | 126 => ⟨S512, .f32⟩
  | 127 => ⟨S1x512, .f32⟩
  | _ => ⟨S10000x512, .f32⟩

abbrev hbmTy0_5 (i : Nat) : BufTy := match i % 128 with
  | 0 => ⟨S10000x512, .f32⟩
  | 1 => ⟨S10000x512, .f32⟩
  | 2 => ⟨S10000x512, .f32⟩
  | 3 => ⟨S1x512, .f32⟩
  | 4 => ⟨S512, .f32⟩
  | 5 => ⟨S1x512, .f32⟩
  | 6 => ⟨S10000x512, .f32⟩
  | 7 => ⟨S10000x512, .f32⟩
  | 8 => ⟨S10000x512, .f32⟩
  | 9 => ⟨S1x512, .f32⟩
  | 10 => ⟨S512, .f32⟩
  | 11 => ⟨S1x512, .f32⟩
  | 12 => ⟨S10000x512, .f32⟩
  | 13 => ⟨S10000x512, .f32⟩
  | 14 => ⟨S10000x512, .f32⟩
  | 15 => ⟨S1x512, .f32⟩
  | 16 => ⟨S512, .f32⟩
  | 17 => ⟨S1x512, .f32⟩
  | 18 => ⟨S10000x512, .f32⟩
  | 19 => ⟨S10000x512, .f32⟩
  | 20 => ⟨S10000x512, .f32⟩
  | 21 => ⟨S1x512, .f32⟩
  | 22 => ⟨S512, .f32⟩
  | 23 => ⟨S1x512, .f32⟩
  | 24 => ⟨S10000x512, .f32⟩
  | 25 => ⟨S10000x512, .f32⟩
  | 26 => ⟨S10000x512, .f32⟩
  | 27 => ⟨S1x512, .f32⟩
  | 28 => ⟨S512, .f32⟩
  | 29 => ⟨S1x512, .f32⟩
  | 30 => ⟨S10000x512, .f32⟩
  | 31 => ⟨S10000x512, .f32⟩
  | 32 => ⟨S10000x512, .f32⟩
  | 33 => ⟨S1x512, .f32⟩
  | 34 => ⟨S512, .f32⟩
  | 35 => ⟨S1x512, .f32⟩
  | 36 => ⟨S10000x512, .f32⟩
  | 37 => ⟨S10000x512, .f32⟩
  | 38 => ⟨S10000x512, .f32⟩
  | 39 => ⟨S1x512, .f32⟩
  | 40 => ⟨S512, .f32⟩
  | 41 => ⟨S1x512, .f32⟩
  | 42 => ⟨S10000x512, .f32⟩
  | 43 => ⟨S10000x512, .f32⟩
  | 44 => ⟨S10000x512, .f32⟩
  | 45 => ⟨S1x15x512, .f32⟩
  | 46 => ⟨S15x512, .f32⟩
  | 47 => ⟨S1x512, .f32⟩
  | 48 => ⟨S512, .f32⟩
  | 49 => ⟨S1x512, .f32⟩
  | 50 => ⟨S10000x512, .f32⟩
  | 51 => ⟨S10000x512, .f32⟩
  | 52 => ⟨S1x512, .f32⟩
  | 53 => ⟨S512, .f32⟩
  | 54 => ⟨S1x512, .f32⟩
  | 55 => ⟨S10000x512, .f32⟩
  | 56 => ⟨S10000x512, .f32⟩
  | 57 => ⟨S1x512, .f32⟩
  | 58 => ⟨S512, .f32⟩
  | 59 => ⟨S1x512, .f32⟩
  | 60 => ⟨S10000x512, .f32⟩
  | 61 => ⟨S10000x512, .f32⟩
  | 62 => ⟨S1x512, .f32⟩
  | 63 => ⟨S512, .f32⟩
  | 64 => ⟨S1x512, .f32⟩
  | 65 => ⟨S10000x512, .f32⟩
  | 66 => ⟨S10000x512, .f32⟩
  | 67 => ⟨S1x512, .f32⟩
  | 68 => ⟨S512, .f32⟩
  | 69 => ⟨S1x512, .f32⟩
  | 70 => ⟨S10000x512, .f32⟩
  | 71 => ⟨S10000x512, .f32⟩
  | 72 => ⟨S1x512, .f32⟩
  | 73 => ⟨S512, .f32⟩
  | 74 => ⟨S1x512, .f32⟩
  | 75 => ⟨S10000x512, .f32⟩
  | 76 => ⟨S10000x512, .f32⟩
  | 77 => ⟨S1x512, .f32⟩
  | 78 => ⟨S512, .f32⟩
  | 79 => ⟨S1x512, .f32⟩
  | 80 => ⟨S10000x512, .f32⟩
  | 81 => ⟨S10000x512, .f32⟩
  | 82 => ⟨S1x512, .f32⟩
  | 83 => ⟨S512, .f32⟩
  | 84 => ⟨S1x512, .f32⟩
  | 85 => ⟨S10000x512, .f32⟩
  | 86 => ⟨S10000x512, .f32⟩
  | 87 => ⟨S10000x512, .f32⟩
  | 88 => ⟨S1x512, .f32⟩
  | 89 => ⟨S512, .f32⟩
  | 90 => ⟨S1x512, .f32⟩
  | 91 => ⟨S10000x512, .f32⟩
  | 92 => ⟨S10000x512, .f32⟩
  | 93 => ⟨S10000x512, .f32⟩
  | 94 => ⟨S1x512, .f32⟩
  | 95 => ⟨S512, .f32⟩
  | 96 => ⟨S1x512, .f32⟩
  | 97 => ⟨S10000x512, .f32⟩
  | 98 => ⟨S10000x512, .f32⟩
  | 99 => ⟨S10000x512, .f32⟩
  | 100 => ⟨S1x512, .f32⟩
  | 101 => ⟨S512, .f32⟩
  | 102 => ⟨S1x512, .f32⟩
  | 103 => ⟨S10000x512, .f32⟩
  | 104 => ⟨S10000x512, .f32⟩
  | 105 => ⟨S10000x512, .f32⟩
  | 106 => ⟨S1x512, .f32⟩
  | 107 => ⟨S512, .f32⟩
  | 108 => ⟨S1x512, .f32⟩
  | 109 => ⟨S10000x512, .f32⟩
  | 110 => ⟨S10000x512, .f32⟩
  | 111 => ⟨S10000x512, .f32⟩
  | 112 => ⟨S1x512, .f32⟩
  | 113 => ⟨S512, .f32⟩
  | 114 => ⟨S1x512, .f32⟩
  | 115 => ⟨S10000x512, .f32⟩
  | 116 => ⟨S10000x512, .f32⟩
  | 117 => ⟨S10000x512, .f32⟩
  | 118 => ⟨S1x512, .f32⟩
  | 119 => ⟨S512, .f32⟩
  | 120 => ⟨S1x512, .f32⟩
  | 121 => ⟨S10000x512, .f32⟩
  | 122 => ⟨S10000x512, .f32⟩
  | 123 => ⟨S10000x512, .f32⟩
  | 124 => ⟨S1x512, .f32⟩
  | 125 => ⟨S512, .f32⟩
  | 126 => ⟨S1x512, .f32⟩
  | 127 => ⟨S10000x512, .f32⟩
  | _ => ⟨S10000x512, .f32⟩

abbrev hbmTy0_6 (i : Nat) : BufTy := match i % 128 with
  | 0 => ⟨S10000x512, .f32⟩
  | 1 => ⟨S10000x512, .f32⟩
  | 2 => ⟨S1x15x512, .f32⟩
  | 3 => ⟨S15x512, .f32⟩
  | 4 => ⟨S1x512, .f32⟩
  | 5 => ⟨S512, .f32⟩
  | 6 => ⟨S1x512, .f32⟩
  | 7 => ⟨S10000x512, .f32⟩
  | 8 => ⟨S10000x512, .f32⟩
  | 9 => ⟨S1x512, .f32⟩
  | 10 => ⟨S512, .f32⟩
  | 11 => ⟨S1x512, .f32⟩
  | 12 => ⟨S10000x512, .f32⟩
  | 13 => ⟨S10000x512, .f32⟩
  | 14 => ⟨S1x512, .f32⟩
  | 15 => ⟨S512, .f32⟩
  | 16 => ⟨S1x512, .f32⟩
  | 17 => ⟨S10000x512, .f32⟩
  | 18 => ⟨S10000x512, .f32⟩
  | 19 => ⟨S1x512, .f32⟩
  | 20 => ⟨S512, .f32⟩
  | 21 => ⟨S1x512, .f32⟩
  | 22 => ⟨S10000x512, .f32⟩
  | 23 => ⟨S10000x512, .f32⟩
  | 24 => ⟨S1x512, .f32⟩
  | 25 => ⟨S512, .f32⟩
  | 26 => ⟨S1x512, .f32⟩
  | 27 => ⟨S10000x512, .f32⟩
  | 28 => ⟨S10000x512, .f32⟩
  | 29 => ⟨S1x512, .f32⟩
  | 30 => ⟨S512, .f32⟩
  | 31 => ⟨S1x512, .f32⟩
  | 32 => ⟨S10000x512, .f32⟩
  | 33 => ⟨S10000x512, .f32⟩
  | 34 => ⟨S1x512, .f32⟩
  | 35 => ⟨S512, .f32⟩
  | 36 => ⟨S1x512, .f32⟩
  | 37 => ⟨S10000x512, .f32⟩
  | 38 => ⟨S10000x512, .f32⟩
  | 39 => ⟨S1x512, .f32⟩
  | 40 => ⟨S512, .f32⟩
  | 41 => ⟨S1x512, .f32⟩
  | 42 => ⟨S10000x512, .f32⟩
  | 43 => ⟨S10000x512, .f32⟩
  | 44 => ⟨S10000x512, .f32⟩
  | 45 => ⟨S1x512, .f32⟩
  | 46 => ⟨S512, .f32⟩
  | 47 => ⟨S1x512, .f32⟩
  | 48 => ⟨S10000x512, .f32⟩
  | 49 => ⟨S10000x512, .f32⟩
  | 50 => ⟨S10000x512, .f32⟩
  | 51 => ⟨S1x512, .f32⟩
  | 52 => ⟨S512, .f32⟩
  | 53 => ⟨S1x512, .f32⟩
  | 54 => ⟨S10000x512, .f32⟩
  | 55 => ⟨S10000x512, .f32⟩
  | 56 => ⟨S10000x512, .f32⟩
  | 57 => ⟨S1x512, .f32⟩
  | 58 => ⟨S512, .f32⟩
  | 59 => ⟨S1x512, .f32⟩
  | 60 => ⟨S10000x512, .f32⟩
  | 61 => ⟨S10000x512, .f32⟩
  | 62 => ⟨S10000x512, .f32⟩
  | 63 => ⟨S1x512, .f32⟩
  | 64 => ⟨S512, .f32⟩
  | 65 => ⟨S1x512, .f32⟩
  | 66 => ⟨S10000x512, .f32⟩
  | 67 => ⟨S10000x512, .f32⟩
  | 68 => ⟨S10000x512, .f32⟩
  | 69 => ⟨S1x512, .f32⟩
  | 70 => ⟨S512, .f32⟩
  | 71 => ⟨S1x512, .f32⟩
  | 72 => ⟨S10000x512, .f32⟩
  | 73 => ⟨S10000x512, .f32⟩
  | 74 => ⟨S10000x512, .f32⟩
  | 75 => ⟨S1x512, .f32⟩
  | 76 => ⟨S512, .f32⟩
  | 77 => ⟨S1x512, .f32⟩
  | 78 => ⟨S10000x512, .f32⟩
  | 79 => ⟨S10000x512, .f32⟩
  | 80 => ⟨S10000x512, .f32⟩
  | 81 => ⟨S1x512, .f32⟩
  | 82 => ⟨S512, .f32⟩
  | 83 => ⟨S1x512, .f32⟩
  | 84 => ⟨S10000x512, .f32⟩
  | 85 => ⟨S10000x512, .f32⟩
  | 86 => ⟨S10000x512, .f32⟩
  | 87 => ⟨S1x15x512, .f32⟩
  | 88 => ⟨S15x512, .f32⟩
  | 89 => ⟨S1x512, .f32⟩
  | 90 => ⟨S512, .f32⟩
  | 91 => ⟨S1x512, .f32⟩
  | 92 => ⟨S10000x512, .f32⟩
  | 93 => ⟨S10000x512, .f32⟩
  | 94 => ⟨S1x512, .f32⟩
  | 95 => ⟨S512, .f32⟩
  | 96 => ⟨S1x512, .f32⟩
  | 97 => ⟨S10000x512, .f32⟩
  | 98 => ⟨S10000x512, .f32⟩
  | 99 => ⟨S1x512, .f32⟩
  | 100 => ⟨S512, .f32⟩
  | 101 => ⟨S1x512, .f32⟩
  | 102 => ⟨S10000x512, .f32⟩
  | 103 => ⟨S10000x512, .f32⟩
  | 104 => ⟨S1x512, .f32⟩
  | 105 => ⟨S512, .f32⟩
  | 106 => ⟨S1x512, .f32⟩
  | 107 => ⟨S10000x512, .f32⟩
  | 108 => ⟨S10000x512, .f32⟩
  | 109 => ⟨S1x512, .f32⟩
  | 110 => ⟨S512, .f32⟩
  | 111 => ⟨S1x512, .f32⟩
  | 112 => ⟨S10000x512, .f32⟩
  | 113 => ⟨S10000x512, .f32⟩
  | 114 => ⟨S1x512, .f32⟩
  | 115 => ⟨S512, .f32⟩
  | 116 => ⟨S1x512, .f32⟩
  | 117 => ⟨S10000x512, .f32⟩
  | 118 => ⟨S10000x512, .f32⟩
  | 119 => ⟨S1x512, .f32⟩
  | 120 => ⟨S512, .f32⟩
  | 121 => ⟨S1x512, .f32⟩
  | 122 => ⟨S10000x512, .f32⟩
  | 123 => ⟨S10000x512, .f32⟩
  | 124 => ⟨S1x512, .f32⟩
  | 125 => ⟨S512, .f32⟩
  | 126 => ⟨S1x512, .f32⟩
  | 127 => ⟨S10000x512, .f32⟩
  | _ => ⟨S10000x512, .f32⟩

abbrev hbmTy0_7 (i : Nat) : BufTy := match i % 128 with
  | 0 => ⟨S10000x512, .f32⟩
  | 1 => ⟨S10000x512, .f32⟩
  | 2 => ⟨S1x512, .f32⟩
  | 3 => ⟨S512, .f32⟩
  | 4 => ⟨S1x512, .f32⟩
  | 5 => ⟨S10000x512, .f32⟩
  | 6 => ⟨S10000x512, .f32⟩
  | 7 => ⟨S10000x512, .f32⟩
  | 8 => ⟨S1x512, .f32⟩
  | 9 => ⟨S512, .f32⟩
  | 10 => ⟨S1x512, .f32⟩
  | 11 => ⟨S10000x512, .f32⟩
  | 12 => ⟨S10000x512, .f32⟩
  | 13 => ⟨S10000x512, .f32⟩
  | 14 => ⟨S1x512, .f32⟩
  | 15 => ⟨S512, .f32⟩
  | 16 => ⟨S1x512, .f32⟩
  | 17 => ⟨S10000x512, .f32⟩
  | 18 => ⟨S10000x512, .f32⟩
  | 19 => ⟨S10000x512, .f32⟩
  | 20 => ⟨S1x512, .f32⟩
  | 21 => ⟨S512, .f32⟩
  | 22 => ⟨S1x512, .f32⟩
  | 23 => ⟨S10000x512, .f32⟩
  | 24 => ⟨S10000x512, .f32⟩
  | 25 => ⟨S10000x512, .f32⟩
  | 26 => ⟨S1x512, .f32⟩
  | 27 => ⟨S512, .f32⟩
  | 28 => ⟨S1x512, .f32⟩
  | 29 => ⟨S10000x512, .f32⟩
  | 30 => ⟨S10000x512, .f32⟩
  | 31 => ⟨S10000x512, .f32⟩
  | 32 => ⟨S1x512, .f32⟩
  | 33 => ⟨S512, .f32⟩
  | 34 => ⟨S1x512, .f32⟩
  | 35 => ⟨S10000x512, .f32⟩
  | 36 => ⟨S10000x512, .f32⟩
  | 37 => ⟨S10000x512, .f32⟩
  | 38 => ⟨S1x512, .f32⟩
  | 39 => ⟨S512, .f32⟩
  | 40 => ⟨S1x512, .f32⟩
  | 41 => ⟨S10000x512, .f32⟩
  | 42 => ⟨S10000x512, .f32⟩
  | 43 => ⟨S10000x512, .f32⟩
  | 44 => ⟨S1x15x512, .f32⟩
  | 45 => ⟨S15x512, .f32⟩
  | 46 => ⟨S1x512, .f32⟩
  | 47 => ⟨S512, .f32⟩
  | 48 => ⟨S1x512, .f32⟩
  | 49 => ⟨S10000x512, .f32⟩
  | 50 => ⟨S10000x512, .f32⟩
  | 51 => ⟨S1x512, .f32⟩
  | 52 => ⟨S512, .f32⟩
  | 53 => ⟨S1x512, .f32⟩
  | 54 => ⟨S10000x512, .f32⟩
  | 55 => ⟨S10000x512, .f32⟩
  | 56 => ⟨S1x512, .f32⟩
  | 57 => ⟨S512, .f32⟩
  | 58 => ⟨S1x512, .f32⟩
  | 59 => ⟨S10000x512, .f32⟩
  | 60 => ⟨S10000x512, .f32⟩
  | 61 => ⟨S1x512, .f32⟩
  | 62 => ⟨S512, .f32⟩
  | 63 => ⟨S1x512, .f32⟩
  | 64 => ⟨S10000x512, .f32⟩
  | 65 => ⟨S10000x512, .f32⟩
  | 66 => ⟨S1x512, .f32⟩
  | 67 => ⟨S512, .f32⟩
  | 68 => ⟨S1x512, .f32⟩
  | 69 => ⟨S10000x512, .f32⟩
  | 70 => ⟨S10000x512, .f32⟩
  | 71 => ⟨S1x512, .f32⟩
  | 72 => ⟨S512, .f32⟩
  | 73 => ⟨S1x512, .f32⟩
  | 74 => ⟨S10000x512, .f32⟩
  | 75 => ⟨S10000x512, .f32⟩
  | 76 => ⟨S1x512, .f32⟩
  | 77 => ⟨S512, .f32⟩
  | 78 => ⟨S1x512, .f32⟩
  | 79 => ⟨S10000x512, .f32⟩
  | 80 => ⟨S10000x512, .f32⟩
  | 81 => ⟨S1x512, .f32⟩
  | 82 => ⟨S512, .f32⟩
  | 83 => ⟨S1x512, .f32⟩
  | 84 => ⟨S10000x512, .f32⟩
  | 85 => ⟨S10000x512, .f32⟩
  | 86 => ⟨S10000x512, .f32⟩
  | 87 => ⟨S1x512, .f32⟩
  | 88 => ⟨S512, .f32⟩
  | 89 => ⟨S1x512, .f32⟩
  | 90 => ⟨S10000x512, .f32⟩
  | 91 => ⟨S10000x512, .f32⟩
  | 92 => ⟨S10000x512, .f32⟩
  | 93 => ⟨S1x512, .f32⟩
  | 94 => ⟨S512, .f32⟩
  | 95 => ⟨S1x512, .f32⟩
  | 96 => ⟨S10000x512, .f32⟩
  | 97 => ⟨S10000x512, .f32⟩
  | 98 => ⟨S10000x512, .f32⟩
  | 99 => ⟨S1x512, .f32⟩
  | 100 => ⟨S512, .f32⟩
  | 101 => ⟨S1x512, .f32⟩
  | 102 => ⟨S10000x512, .f32⟩
  | 103 => ⟨S10000x512, .f32⟩
  | 104 => ⟨S10000x512, .f32⟩
  | 105 => ⟨S1x512, .f32⟩
  | 106 => ⟨S512, .f32⟩
  | 107 => ⟨S1x512, .f32⟩
  | 108 => ⟨S10000x512, .f32⟩
  | 109 => ⟨S10000x512, .f32⟩
  | 110 => ⟨S10000x512, .f32⟩
  | 111 => ⟨S1x512, .f32⟩
  | 112 => ⟨S512, .f32⟩
  | 113 => ⟨S1x512, .f32⟩
  | 114 => ⟨S10000x512, .f32⟩
  | 115 => ⟨S10000x512, .f32⟩
  | 116 => ⟨S10000x512, .f32⟩
  | 117 => ⟨S1x512, .f32⟩
  | 118 => ⟨S512, .f32⟩
  | 119 => ⟨S1x512, .f32⟩
  | 120 => ⟨S10000x512, .f32⟩
  | 121 => ⟨S10000x512, .f32⟩
  | 122 => ⟨S10000x512, .f32⟩
  | 123 => ⟨S1x512, .f32⟩
  | 124 => ⟨S512, .f32⟩
  | 125 => ⟨S1x512, .f32⟩
  | 126 => ⟨S10000x512, .f32⟩
  | 127 => ⟨S10000x512, .f32⟩
  | _ => ⟨S10000x512, .f32⟩

abbrev hbmTy0_8 (i : Nat) : BufTy := match i % 128 with
  | 0 => ⟨S10000x512, .f32⟩
  | 1 => ⟨S1x15x512, .f32⟩
  | 2 => ⟨S15x512, .f32⟩
  | 3 => ⟨S1x512, .f32⟩
  | 4 => ⟨S512, .f32⟩
  | 5 => ⟨S1x512, .f32⟩
  | 6 => ⟨S10000x512, .f32⟩
  | 7 => ⟨S10000x512, .f32⟩
  | 8 => ⟨S1x512, .f32⟩
  | 9 => ⟨S512, .f32⟩
  | 10 => ⟨S1x512, .f32⟩
  | 11 => ⟨S10000x512, .f32⟩
  | 12 => ⟨S10000x512, .f32⟩
  | 13 => ⟨S1x512, .f32⟩
  | 14 => ⟨S512, .f32⟩
  | 15 => ⟨S1x512, .f32⟩
  | 16 => ⟨S10000x512, .f32⟩
  | 17 => ⟨S10000x512, .f32⟩
  | 18 => ⟨S1x512, .f32⟩
  | 19 => ⟨S512, .f32⟩
  | 20 => ⟨S1x512, .f32⟩
  | 21 => ⟨S10000x512, .f32⟩
  | 22 => ⟨S10000x512, .f32⟩
  | 23 => ⟨S1x512, .f32⟩
  | 24 => ⟨S512, .f32⟩
  | 25 => ⟨S1x512, .f32⟩
  | 26 => ⟨S10000x512, .f32⟩
  | 27 => ⟨S10000x512, .f32⟩
  | 28 => ⟨S1x512, .f32⟩
  | 29 => ⟨S512, .f32⟩
  | 30 => ⟨S1x512, .f32⟩
  | 31 => ⟨S10000x512, .f32⟩
  | 32 => ⟨S10000x512, .f32⟩
  | 33 => ⟨S1x512, .f32⟩
  | 34 => ⟨S512, .f32⟩
  | 35 => ⟨S1x512, .f32⟩
  | 36 => ⟨S10000x512, .f32⟩
  | 37 => ⟨S10000x512, .f32⟩
  | 38 => ⟨S1x512, .f32⟩
  | 39 => ⟨S512, .f32⟩
  | 40 => ⟨S1x512, .f32⟩
  | 41 => ⟨S10000x512, .f32⟩
  | 42 => ⟨S10000x512, .f32⟩
  | 43 => ⟨S10000x512, .f32⟩
  | 44 => ⟨S1x512, .f32⟩
  | 45 => ⟨S512, .f32⟩
  | 46 => ⟨S1x512, .f32⟩
  | 47 => ⟨S10000x512, .f32⟩
  | 48 => ⟨S10000x512, .f32⟩
  | 49 => ⟨S10000x512, .f32⟩
  | 50 => ⟨S1x512, .f32⟩
  | 51 => ⟨S512, .f32⟩
  | 52 => ⟨S1x512, .f32⟩
  | 53 => ⟨S10000x512, .f32⟩
  | 54 => ⟨S10000x512, .f32⟩
  | 55 => ⟨S10000x512, .f32⟩
  | 56 => ⟨S1x512, .f32⟩
  | 57 => ⟨S512, .f32⟩
  | 58 => ⟨S1x512, .f32⟩
  | 59 => ⟨S10000x512, .f32⟩
  | 60 => ⟨S10000x512, .f32⟩
  | 61 => ⟨S10000x512, .f32⟩
  | 62 => ⟨S1x512, .f32⟩
  | 63 => ⟨S512, .f32⟩
  | 64 => ⟨S1x512, .f32⟩
  | 65 => ⟨S10000x512, .f32⟩
  | 66 => ⟨S10000x512, .f32⟩
  | 67 => ⟨S10000x512, .f32⟩
  | 68 => ⟨S1x512, .f32⟩
  | 69 => ⟨S512, .f32⟩
  | 70 => ⟨S1x512, .f32⟩
  | 71 => ⟨S10000x512, .f32⟩
  | 72 => ⟨S10000x512, .f32⟩
  | 73 => ⟨S10000x512, .f32⟩
  | 74 => ⟨S1x512, .f32⟩
  | 75 => ⟨S512, .f32⟩
  | 76 => ⟨S1x512, .f32⟩
  | 77 => ⟨S10000x512, .f32⟩
  | 78 => ⟨S10000x512, .f32⟩
  | 79 => ⟨S10000x512, .f32⟩
  | 80 => ⟨S1x512, .f32⟩
  | 81 => ⟨S512, .f32⟩
  | 82 => ⟨S1x512, .f32⟩
  | 83 => ⟨S10000x512, .f32⟩
  | 84 => ⟨S10000x512, .f32⟩
  | 85 => ⟨S10000x512, .f32⟩
  | 86 => ⟨S1x15x512, .f32⟩
  | 87 => ⟨S15x512, .f32⟩
  | 88 => ⟨S1x512, .f32⟩
  | 89 => ⟨S512, .f32⟩
  | 90 => ⟨S1x512, .f32⟩
  | 91 => ⟨S10000x512, .f32⟩
  | 92 => ⟨S10000x512, .f32⟩
  | 93 => ⟨S1x512, .f32⟩
  | 94 => ⟨S512, .f32⟩
  | 95 => ⟨S1x512, .f32⟩
  | 96 => ⟨S10000x512, .f32⟩
  | 97 => ⟨S10000x512, .f32⟩
  | 98 => ⟨S1x512, .f32⟩
  | 99 => ⟨S512, .f32⟩
  | 100 => ⟨S1x512, .f32⟩
  | 101 => ⟨S10000x512, .f32⟩
  | 102 => ⟨S10000x512, .f32⟩
  | 103 => ⟨S1x512, .f32⟩
  | 104 => ⟨S512, .f32⟩
  | 105 => ⟨S1x512, .f32⟩
  | 106 => ⟨S10000x512, .f32⟩
  | 107 => ⟨S10000x512, .f32⟩
  | 108 => ⟨S1x512, .f32⟩
  | 109 => ⟨S512, .f32⟩
  | 110 => ⟨S1x512, .f32⟩
  | 111 => ⟨S10000x512, .f32⟩
  | 112 => ⟨S10000x512, .f32⟩
  | 113 => ⟨S1x512, .f32⟩
  | 114 => ⟨S512, .f32⟩
  | 115 => ⟨S1x512, .f32⟩
  | 116 => ⟨S10000x512, .f32⟩
  | 117 => ⟨S10000x512, .f32⟩
  | 118 => ⟨S1x512, .f32⟩
  | 119 => ⟨S512, .f32⟩
  | 120 => ⟨S1x512, .f32⟩
  | 121 => ⟨S10000x512, .f32⟩
  | 122 => ⟨S10000x512, .f32⟩
  | 123 => ⟨S1x512, .f32⟩
  | 124 => ⟨S512, .f32⟩
  | 125 => ⟨S1x512, .f32⟩
  | 126 => ⟨S10000x512, .f32⟩
  | 127 => ⟨S10000x512, .f32⟩
  | _ => ⟨S10000x512, .f32⟩

abbrev hbmTy0_9 (i : Nat) : BufTy := match i % 128 with
  | 0 => ⟨S10000x512, .f32⟩
  | 1 => ⟨S1x512, .f32⟩
  | 2 => ⟨S512, .f32⟩
  | 3 => ⟨S1x512, .f32⟩
  | 4 => ⟨S10000x512, .f32⟩
  | 5 => ⟨S10000x512, .f32⟩
  | 6 => ⟨S10000x512, .f32⟩
  | 7 => ⟨S1x512, .f32⟩
  | 8 => ⟨S512, .f32⟩
  | 9 => ⟨S1x512, .f32⟩
  | 10 => ⟨S10000x512, .f32⟩
  | 11 => ⟨S10000x512, .f32⟩
  | 12 => ⟨S10000x512, .f32⟩
  | 13 => ⟨S1x512, .f32⟩
  | 14 => ⟨S512, .f32⟩
  | 15 => ⟨S1x512, .f32⟩
  | 16 => ⟨S10000x512, .f32⟩
  | 17 => ⟨S10000x512, .f32⟩
  | 18 => ⟨S10000x512, .f32⟩
  | 19 => ⟨S1x512, .f32⟩
  | 20 => ⟨S512, .f32⟩
  | 21 => ⟨S1x512, .f32⟩
  | 22 => ⟨S10000x512, .f32⟩
  | 23 => ⟨S10000x512, .f32⟩
  | 24 => ⟨S10000x512, .f32⟩
  | 25 => ⟨S1x512, .f32⟩
  | 26 => ⟨S512, .f32⟩
  | 27 => ⟨S1x512, .f32⟩
  | 28 => ⟨S10000x512, .f32⟩
  | 29 => ⟨S10000x512, .f32⟩
  | 30 => ⟨S10000x512, .f32⟩
  | 31 => ⟨S1x512, .f32⟩
  | 32 => ⟨S512, .f32⟩
  | 33 => ⟨S1x512, .f32⟩
  | 34 => ⟨S10000x512, .f32⟩
  | 35 => ⟨S10000x512, .f32⟩
  | 36 => ⟨S10000x512, .f32⟩
  | 37 => ⟨S1x512, .f32⟩
  | 38 => ⟨S512, .f32⟩
  | 39 => ⟨S1x512, .f32⟩
  | 40 => ⟨S10000x512, .f32⟩
  | 41 => ⟨S10000x512, .f32⟩
  | 42 => ⟨S10000x512, .f32⟩
  | 43 => ⟨S1x15x512, .f32⟩
  | 44 => ⟨S15x512, .f32⟩
  | 45 => ⟨S1x512, .f32⟩
  | 46 => ⟨S512, .f32⟩
  | 47 => ⟨S1x512, .f32⟩
  | 48 => ⟨S10000x512, .f32⟩
  | 49 => ⟨S10000x512, .f32⟩
  | 50 => ⟨S1x512, .f32⟩
  | 51 => ⟨S512, .f32⟩
  | 52 => ⟨S1x512, .f32⟩
  | 53 => ⟨S10000x512, .f32⟩
  | 54 => ⟨S10000x512, .f32⟩
  | 55 => ⟨S1x512, .f32⟩
  | 56 => ⟨S512, .f32⟩
  | 57 => ⟨S1x512, .f32⟩
  | 58 => ⟨S10000x512, .f32⟩
  | 59 => ⟨S10000x512, .f32⟩
  | 60 => ⟨S1x512, .f32⟩
  | 61 => ⟨S512, .f32⟩
  | 62 => ⟨S1x512, .f32⟩
  | 63 => ⟨S10000x512, .f32⟩
  | 64 => ⟨S10000x512, .f32⟩
  | 65 => ⟨S1x512, .f32⟩
  | 66 => ⟨S512, .f32⟩
  | 67 => ⟨S1x512, .f32⟩
  | 68 => ⟨S10000x512, .f32⟩
  | 69 => ⟨S10000x512, .f32⟩
  | 70 => ⟨S1x512, .f32⟩
  | 71 => ⟨S512, .f32⟩
  | 72 => ⟨S1x512, .f32⟩
  | 73 => ⟨S10000x512, .f32⟩
  | 74 => ⟨S10000x512, .f32⟩
  | 75 => ⟨S1x512, .f32⟩
  | 76 => ⟨S512, .f32⟩
  | 77 => ⟨S1x512, .f32⟩
  | 78 => ⟨S10000x512, .f32⟩
  | 79 => ⟨S10000x512, .f32⟩
  | 80 => ⟨S1x512, .f32⟩
  | 81 => ⟨S512, .f32⟩
  | 82 => ⟨S1x512, .f32⟩
  | 83 => ⟨S10000x512, .f32⟩
  | 84 => ⟨S10000x512, .f32⟩
  | 85 => ⟨S10000x512, .f32⟩
  | 86 => ⟨S1x512, .f32⟩
  | 87 => ⟨S512, .f32⟩
  | 88 => ⟨S1x512, .f32⟩
  | 89 => ⟨S10000x512, .f32⟩
  | 90 => ⟨S10000x512, .f32⟩
  | 91 => ⟨S10000x512, .f32⟩
  | 92 => ⟨S1x512, .f32⟩
  | 93 => ⟨S512, .f32⟩
  | 94 => ⟨S1x512, .f32⟩
  | 95 => ⟨S10000x512, .f32⟩
  | 96 => ⟨S10000x512, .f32⟩
  | 97 => ⟨S10000x512, .f32⟩
  | 98 => ⟨S1x512, .f32⟩
  | 99 => ⟨S512, .f32⟩
  | 100 => ⟨S1x512, .f32⟩
  | 101 => ⟨S10000x512, .f32⟩
  | 102 => ⟨S10000x512, .f32⟩
  | 103 => ⟨S10000x512, .f32⟩
  | 104 => ⟨S1x512, .f32⟩
  | 105 => ⟨S512, .f32⟩
  | 106 => ⟨S1x512, .f32⟩
  | 107 => ⟨S10000x512, .f32⟩
  | 108 => ⟨S10000x512, .f32⟩
  | 109 => ⟨S10000x512, .f32⟩
  | 110 => ⟨S1x512, .f32⟩
  | 111 => ⟨S512, .f32⟩
  | 112 => ⟨S1x512, .f32⟩
  | 113 => ⟨S10000x512, .f32⟩
  | 114 => ⟨S10000x512, .f32⟩
  | 115 => ⟨S10000x512, .f32⟩
  | 116 => ⟨S1x512, .f32⟩
  | 117 => ⟨S512, .f32⟩
  | 118 => ⟨S1x512, .f32⟩
  | 119 => ⟨S10000x512, .f32⟩
  | 120 => ⟨S10000x512, .f32⟩
  | 121 => ⟨S10000x512, .f32⟩
  | 122 => ⟨S1x512, .f32⟩
  | 123 => ⟨S512, .f32⟩
  | 124 => ⟨S1x512, .f32⟩
  | 125 => ⟨S10000x512, .f32⟩
  | 126 => ⟨S10000x512, .f32⟩
  | 127 => ⟨S10000x512, .f32⟩
  | _ => ⟨S10000x512, .f32⟩

abbrev hbmTy0_10 (i : Nat) : BufTy := match i % 128 with
  | 0 => ⟨S1x15x512, .f32⟩
  | 1 => ⟨S15x512, .f32⟩
  | 2 => ⟨S1x512, .f32⟩
  | 3 => ⟨S512, .f32⟩
  | 4 => ⟨S1x512, .f32⟩
  | 5 => ⟨S10000x512, .f32⟩
  | 6 => ⟨S10000x512, .f32⟩
  | 7 => ⟨S1x512, .f32⟩
  | 8 => ⟨S512, .f32⟩
  | 9 => ⟨S1x512, .f32⟩
  | 10 => ⟨S10000x512, .f32⟩
  | 11 => ⟨S10000x512, .f32⟩
  | 12 => ⟨S1x512, .f32⟩
  | 13 => ⟨S512, .f32⟩
  | 14 => ⟨S1x512, .f32⟩
  | 15 => ⟨S10000x512, .f32⟩
  | 16 => ⟨S10000x512, .f32⟩
  | 17 => ⟨S1x512, .f32⟩
  | 18 => ⟨S512, .f32⟩
  | 19 => ⟨S1x512, .f32⟩
  | 20 => ⟨S10000x512, .f32⟩
  | 21 => ⟨S10000x512, .f32⟩
  | 22 => ⟨S1x512, .f32⟩
  | 23 => ⟨S512, .f32⟩
  | 24 => ⟨S1x512, .f32⟩
  | 25 => ⟨S10000x512, .f32⟩
  | 26 => ⟨S10000x512, .f32⟩
  | 27 => ⟨S1x512, .f32⟩
  | 28 => ⟨S512, .f32⟩
  | 29 => ⟨S1x512, .f32⟩
  | 30 => ⟨S10000x512, .f32⟩
  | 31 => ⟨S10000x512, .f32⟩
  | 32 => ⟨S1x512, .f32⟩
  | 33 => ⟨S512, .f32⟩
  | 34 => ⟨S1x512, .f32⟩
  | 35 => ⟨S10000x512, .f32⟩
  | 36 => ⟨S10000x512, .f32⟩
  | 37 => ⟨S1x512, .f32⟩
  | 38 => ⟨S512, .f32⟩
  | 39 => ⟨S1x512, .f32⟩
  | 40 => ⟨S10000x512, .f32⟩
  | 41 => ⟨S10000x512, .f32⟩
  | 42 => ⟨S10000x512, .f32⟩
  | 43 => ⟨S1x512, .f32⟩
  | 44 => ⟨S512, .f32⟩
  | 45 => ⟨S1x512, .f32⟩
  | 46 => ⟨S10000x512, .f32⟩
  | 47 => ⟨S10000x512, .f32⟩
  | 48 => ⟨S10000x512, .f32⟩
  | 49 => ⟨S1x512, .f32⟩
  | 50 => ⟨S512, .f32⟩
  | 51 => ⟨S1x512, .f32⟩
  | 52 => ⟨S10000x512, .f32⟩
  | 53 => ⟨S10000x512, .f32⟩
  | 54 => ⟨S10000x512, .f32⟩
  | 55 => ⟨S1x512, .f32⟩
  | 56 => ⟨S512, .f32⟩
  | 57 => ⟨S1x512, .f32⟩
  | 58 => ⟨S10000x512, .f32⟩
  | 59 => ⟨S10000x512, .f32⟩
  | 60 => ⟨S10000x512, .f32⟩
  | 61 => ⟨S1x512, .f32⟩
  | 62 => ⟨S512, .f32⟩
  | 63 => ⟨S1x512, .f32⟩
  | 64 => ⟨S10000x512, .f32⟩
  | 65 => ⟨S10000x512, .f32⟩
  | 66 => ⟨S10000x512, .f32⟩
  | 67 => ⟨S1x512, .f32⟩
  | 68 => ⟨S512, .f32⟩
  | 69 => ⟨S1x512, .f32⟩
  | 70 => ⟨S10000x512, .f32⟩
  | 71 => ⟨S10000x512, .f32⟩
  | 72 => ⟨S10000x512, .f32⟩
  | 73 => ⟨S1x512, .f32⟩
  | 74 => ⟨S512, .f32⟩
  | 75 => ⟨S1x512, .f32⟩
  | 76 => ⟨S10000x512, .f32⟩
  | 77 => ⟨S10000x512, .f32⟩
  | 78 => ⟨S10000x512, .f32⟩
  | 79 => ⟨S1x512, .f32⟩
  | 80 => ⟨S512, .f32⟩
  | 81 => ⟨S1x512, .f32⟩
  | 82 => ⟨S10000x512, .f32⟩
  | 83 => ⟨S10000x512, .f32⟩
  | 84 => ⟨S10000x512, .f32⟩
  | 85 => ⟨S10000x512, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev main_v133 : Ref sig .tc := ⟨.hbm, 137, rfl⟩
abbrev main_v134 : Ref sig .tc := ⟨.hbm, 138, rfl⟩
abbrev main_v135 : Ref sig .tc := ⟨.hbm, 139, rfl⟩
abbrev main_v136 : Ref sig .tc := ⟨.hbm, 140, rfl⟩
abbrev main_v137 : Ref sig .tc := ⟨.hbm, 141, rfl⟩
abbrev main_v138 : Ref sig .tc := ⟨.hbm, 142, rfl⟩
abbrev main_v139 : Ref sig .tc := ⟨.hbm, 143, rfl⟩
abbrev main_v140 : Ref sig .tc := ⟨.hbm, 144, rfl⟩
abbrev main_v141 : Ref sig .tc := ⟨.hbm, 145, rfl⟩
abbrev main_v142 : Ref sig .tc := ⟨.hbm, 146, rfl⟩
abbrev main_v143 : Ref sig .tc := ⟨.hbm, 147, rfl⟩
abbrev main_v144 : Ref sig .tc := ⟨.hbm, 148, rfl⟩
abbrev main_v145 : Ref sig .tc := ⟨.hbm, 149, rfl⟩
abbrev main_v146 : Ref sig .tc := ⟨.hbm, 150, rfl⟩
abbrev main_v147 : Ref sig .tc := ⟨.hbm, 151, rfl⟩
abbrev main_v148 : Ref sig .tc := ⟨.hbm, 152, rfl⟩
abbrev main_v149 : Ref sig .tc := ⟨.hbm, 153, rfl⟩
abbrev main_v150 : Ref sig .tc := ⟨.hbm, 154, rfl⟩
abbrev main_v151 : Ref sig .tc := ⟨.hbm, 155, rfl⟩
abbrev main_v152 : Ref sig .tc := ⟨.hbm, 156, rfl⟩
abbrev main_v153 : Ref sig .tc := ⟨.hbm, 157, rfl⟩
abbrev main_v154 : Ref sig .tc := ⟨.hbm, 158, rfl⟩
abbrev main_v155 : Ref sig .tc := ⟨.hbm, 159, rfl⟩
abbrev main_v156 : Ref sig .tc := ⟨.hbm, 160, rfl⟩
abbrev main_v157 : Ref sig .tc := ⟨.hbm, 161, rfl⟩
abbrev main_v158 : Ref sig .tc := ⟨.hbm, 162, rfl⟩
abbrev main_v159 : Ref sig .tc := ⟨.hbm, 163, rfl⟩
abbrev main_v160 : Ref sig .tc := ⟨.hbm, 164, rfl⟩
abbrev main_v161 : Ref sig .tc := ⟨.hbm, 165, rfl⟩
abbrev main_v162 : Ref sig .tc := ⟨.hbm, 166, rfl⟩
abbrev main_v163 : Ref sig .tc := ⟨.hbm, 167, rfl⟩
abbrev main_v164 : Ref sig .tc := ⟨.hbm, 168, rfl⟩
abbrev main_v165 : Ref sig .tc := ⟨.hbm, 169, rfl⟩
abbrev main_v166 : Ref sig .tc := ⟨.hbm, 170, rfl⟩
abbrev main_v167 : Ref sig .tc := ⟨.hbm, 171, rfl⟩
abbrev main_v168 : Ref sig .tc := ⟨.hbm, 172, rfl⟩
abbrev main_v169 : Ref sig .tc := ⟨.hbm, 173, rfl⟩
abbrev main_v170 : Ref sig .tc := ⟨.hbm, 174, rfl⟩
abbrev main_v171 : Ref sig .tc := ⟨.hbm, 175, rfl⟩
abbrev main_v172 : Ref sig .tc := ⟨.hbm, 176, rfl⟩
abbrev main_v173 : Ref sig .tc := ⟨.hbm, 177, rfl⟩
abbrev main_v174 : Ref sig .tc := ⟨.hbm, 178, rfl⟩
abbrev main_v175 : Ref sig .tc := ⟨.hbm, 179, rfl⟩
abbrev main_v176 : Ref sig .tc := ⟨.hbm, 180, rfl⟩
abbrev main_v177 : Ref sig .tc := ⟨.hbm, 181, rfl⟩
abbrev main_v178 : Ref sig .tc := ⟨.hbm, 182, rfl⟩
abbrev main_v179 : Ref sig .tc := ⟨.hbm, 183, rfl⟩
abbrev main_v180 : Ref sig .tc := ⟨.hbm, 184, rfl⟩
abbrev main_v181 : Ref sig .tc := ⟨.hbm, 185, rfl⟩
abbrev main_v182 : Ref sig .tc := ⟨.hbm, 186, rfl⟩
abbrev main_v183 : Ref sig .tc := ⟨.hbm, 187, rfl⟩
abbrev main_v184 : Ref sig .tc := ⟨.hbm, 188, rfl⟩
abbrev main_v185 : Ref sig .tc := ⟨.hbm, 189, rfl⟩
abbrev main_v186 : Ref sig .tc := ⟨.hbm, 190, rfl⟩
abbrev main_v187 : Ref sig .tc := ⟨.hbm, 191, rfl⟩
abbrev main_v188 : Ref sig .tc := ⟨.hbm, 192, rfl⟩
abbrev main_v189 : Ref sig .tc := ⟨.hbm, 193, rfl⟩
abbrev main_v190 : Ref sig .tc := ⟨.hbm, 194, rfl⟩
abbrev main_v191 : Ref sig .tc := ⟨.hbm, 195, rfl⟩
abbrev main_v192 : Ref sig .tc := ⟨.hbm, 196, rfl⟩
abbrev main_v193 : Ref sig .tc := ⟨.hbm, 197, rfl⟩
abbrev main_v194 : Ref sig .tc := ⟨.hbm, 198, rfl⟩
abbrev main_v195 : Ref sig .tc := ⟨.hbm, 199, rfl⟩
abbrev main_v196 : Ref sig .tc := ⟨.hbm, 200, rfl⟩
abbrev main_v197 : Ref sig .tc := ⟨.hbm, 201, rfl⟩
abbrev main_v198 : Ref sig .tc := ⟨.hbm, 202, rfl⟩
abbrev main_v199 : Ref sig .tc := ⟨.hbm, 203, rfl⟩
abbrev main_v200 : Ref sig .tc := ⟨.hbm, 204, rfl⟩
abbrev main_v201 : Ref sig .tc := ⟨.hbm, 205, rfl⟩
abbrev main_v202 : Ref sig .tc := ⟨.hbm, 206, rfl⟩
abbrev main_v203 : Ref sig .tc := ⟨.hbm, 207, rfl⟩
abbrev main_v204 : Ref sig .tc := ⟨.hbm, 208, rfl⟩
abbrev main_v205 : Ref sig .tc := ⟨.hbm, 209, rfl⟩
abbrev main_v206 : Ref sig .tc := ⟨.hbm, 210, rfl⟩
abbrev main_v207 : Ref sig .tc := ⟨.hbm, 211, rfl⟩
abbrev main_v208 : Ref sig .tc := ⟨.hbm, 212, rfl⟩
abbrev main_v209 : Ref sig .tc := ⟨.hbm, 213, rfl⟩
abbrev main_v210 : Ref sig .tc := ⟨.hbm, 214, rfl⟩
abbrev main_v211 : Ref sig .tc := ⟨.hbm, 215, rfl⟩
abbrev main_v212 : Ref sig .tc := ⟨.hbm, 216, rfl⟩
abbrev main_v213 : Ref sig .tc := ⟨.hbm, 217, rfl⟩
abbrev main_v214 : Ref sig .tc := ⟨.hbm, 218, rfl⟩
abbrev main_v215 : Ref sig .tc := ⟨.hbm, 219, rfl⟩
abbrev main_v216 : Ref sig .tc := ⟨.hbm, 220, rfl⟩
abbrev main_v217 : Ref sig .tc := ⟨.hbm, 221, rfl⟩
abbrev main_v218 : Ref sig .tc := ⟨.hbm, 222, rfl⟩
abbrev main_v219 : Ref sig .tc := ⟨.hbm, 223, rfl⟩
abbrev main_v220 : Ref sig .tc := ⟨.hbm, 224, rfl⟩
abbrev main_v221 : Ref sig .tc := ⟨.hbm, 225, rfl⟩
abbrev main_v222 : Ref sig .tc := ⟨.hbm, 226, rfl⟩
abbrev main_v223 : Ref sig .tc := ⟨.hbm, 227, rfl⟩
abbrev main_v224 : Ref sig .tc := ⟨.hbm, 228, rfl⟩
abbrev main_v225 : Ref sig .tc := ⟨.hbm, 229, rfl⟩
abbrev main_v226 : Ref sig .tc := ⟨.hbm, 230, rfl⟩
abbrev main_v227 : Ref sig .tc := ⟨.hbm, 231, rfl⟩
abbrev main_v228 : Ref sig .tc := ⟨.hbm, 232, rfl⟩
abbrev main_v229 : Ref sig .tc := ⟨.hbm, 233, rfl⟩
abbrev main_v230 : Ref sig .tc := ⟨.hbm, 234, rfl⟩
abbrev main_v231 : Ref sig .tc := ⟨.hbm, 235, rfl⟩
abbrev main_v232 : Ref sig .tc := ⟨.hbm, 236, rfl⟩
abbrev main_v233 : Ref sig .tc := ⟨.hbm, 237, rfl⟩
abbrev main_v234 : Ref sig .tc := ⟨.hbm, 238, rfl⟩
abbrev main_v235 : Ref sig .tc := ⟨.hbm, 239, rfl⟩
abbrev main_v236 : Ref sig .tc := ⟨.hbm, 240, rfl⟩
abbrev main_v237 : Ref sig .tc := ⟨.hbm, 241, rfl⟩
abbrev main_v238 : Ref sig .tc := ⟨.hbm, 242, rfl⟩
abbrev main_v239 : Ref sig .tc := ⟨.hbm, 243, rfl⟩
abbrev main_v240 : Ref sig .tc := ⟨.hbm, 244, rfl⟩
abbrev main_v241 : Ref sig .tc := ⟨.hbm, 245, rfl⟩
abbrev main_v242 : Ref sig .tc := ⟨.hbm, 246, rfl⟩
abbrev main_v243 : Ref sig .tc := ⟨.hbm, 247, rfl⟩
abbrev main_v244 : Ref sig .tc := ⟨.hbm, 248, rfl⟩
abbrev main_v245 : Ref sig .tc := ⟨.hbm, 249, rfl⟩
abbrev main_v246 : Ref sig .tc := ⟨.hbm, 250, rfl⟩
abbrev main_v247 : Ref sig .tc := ⟨.hbm, 251, rfl⟩
abbrev main_v248 : Ref sig .tc := ⟨.hbm, 252, rfl⟩
abbrev main_v249 : Ref sig .tc := ⟨.hbm, 253, rfl⟩
abbrev main_v250 : Ref sig .tc := ⟨.hbm, 254, rfl⟩
abbrev main_v251 : Ref sig .tc := ⟨.hbm, 255, rfl⟩
abbrev main_v252 : Ref sig .tc := ⟨.hbm, 256, rfl⟩
abbrev main_v253 : Ref sig .tc := ⟨.hbm, 257, rfl⟩
abbrev main_v254 : Ref sig .tc := ⟨.hbm, 258, rfl⟩
abbrev main_v255 : Ref sig .tc := ⟨.hbm, 259, rfl⟩
abbrev main_v256 : Ref sig .tc := ⟨.hbm, 260, rfl⟩
abbrev main_v257 : Ref sig .tc := ⟨.hbm, 261, rfl⟩
abbrev main_v258 : Ref sig .tc := ⟨.hbm, 262, rfl⟩
abbrev main_v259 : Ref sig .tc := ⟨.hbm, 263, rfl⟩
abbrev main_v260 : Ref sig .tc := ⟨.hbm, 264, rfl⟩
abbrev main_v261 : Ref sig .tc := ⟨.hbm, 265, rfl⟩
abbrev main_v262 : Ref sig .tc := ⟨.hbm, 266, rfl⟩
abbrev main_v263 : Ref sig .tc := ⟨.hbm, 267, rfl⟩
abbrev main_v264 : Ref sig .tc := ⟨.hbm, 268, rfl⟩
abbrev main_v265 : Ref sig .tc := ⟨.hbm, 269, rfl⟩
abbrev main_v266 : Ref sig .tc := ⟨.hbm, 270, rfl⟩
abbrev main_v267 : Ref sig .tc := ⟨.hbm, 271, rfl⟩
abbrev main_v268 : Ref sig .tc := ⟨.hbm, 272, rfl⟩
abbrev main_v269 : Ref sig .tc := ⟨.hbm, 273, rfl⟩
abbrev main_v270 : Ref sig .tc := ⟨.hbm, 274, rfl⟩
abbrev main_v271 : Ref sig .tc := ⟨.hbm, 275, rfl⟩
abbrev main_v272 : Ref sig .tc := ⟨.hbm, 276, rfl⟩
abbrev main_v273 : Ref sig .tc := ⟨.hbm, 277, rfl⟩
abbrev main_v274 : Ref sig .tc := ⟨.hbm, 278, rfl⟩
abbrev main_v275 : Ref sig .tc := ⟨.hbm, 279, rfl⟩
abbrev main_v276 : Ref sig .tc := ⟨.hbm, 280, rfl⟩
abbrev main_v277 : Ref sig .tc := ⟨.hbm, 281, rfl⟩
abbrev main_v278 : Ref sig .tc := ⟨.hbm, 282, rfl⟩
abbrev main_v279 : Ref sig .tc := ⟨.hbm, 283, rfl⟩
abbrev main_v280 : Ref sig .tc := ⟨.hbm, 284, rfl⟩
abbrev main_v281 : Ref sig .tc := ⟨.hbm, 285, rfl⟩
abbrev main_v282 : Ref sig .tc := ⟨.hbm, 286, rfl⟩
abbrev main_v283 : Ref sig .tc := ⟨.hbm, 287, rfl⟩
abbrev main_v284 : Ref sig .tc := ⟨.hbm, 288, rfl⟩
abbrev main_v285 : Ref sig .tc := ⟨.hbm, 289, rfl⟩
abbrev main_v286 : Ref sig .tc := ⟨.hbm, 290, rfl⟩
abbrev main_v287 : Ref sig .tc := ⟨.hbm, 291, rfl⟩
abbrev main_v288 : Ref sig .tc := ⟨.hbm, 292, rfl⟩
abbrev main_v289 : Ref sig .tc := ⟨.hbm, 293, rfl⟩
abbrev main_v290 : Ref sig .tc := ⟨.hbm, 294, rfl⟩
abbrev main_v291 : Ref sig .tc := ⟨.hbm, 295, rfl⟩
abbrev main_v292 : Ref sig .tc := ⟨.hbm, 296, rfl⟩
abbrev main_v293 : Ref sig .tc := ⟨.hbm, 297, rfl⟩
abbrev main_v294 : Ref sig .tc := ⟨.hbm, 298, rfl⟩
abbrev main_v295 : Ref sig .tc := ⟨.hbm, 299, rfl⟩
abbrev main_v296 : Ref sig .tc := ⟨.hbm, 300, rfl⟩
abbrev main_v297 : Ref sig .tc := ⟨.hbm, 301, rfl⟩
abbrev main_v298 : Ref sig .tc := ⟨.hbm, 302, rfl⟩
abbrev main_v299 : Ref sig .tc := ⟨.hbm, 303, rfl⟩
abbrev main_v300 : Ref sig .tc := ⟨.hbm, 304, rfl⟩
abbrev main_v301 : Ref sig .tc := ⟨.hbm, 305, rfl⟩
abbrev main_v302 : Ref sig .tc := ⟨.hbm, 306, rfl⟩
abbrev main_v303 : Ref sig .tc := ⟨.hbm, 307, rfl⟩
abbrev main_v304 : Ref sig .tc := ⟨.hbm, 308, rfl⟩
abbrev main_v305 : Ref sig .tc := ⟨.hbm, 309, rfl⟩
abbrev main_v306 : Ref sig .tc := ⟨.hbm, 310, rfl⟩
abbrev main_v307 : Ref sig .tc := ⟨.hbm, 311, rfl⟩
abbrev main_v308 : Ref sig .tc := ⟨.hbm, 312, rfl⟩
abbrev main_v309 : Ref sig .tc := ⟨.hbm, 313, rfl⟩
abbrev main_v310 : Ref sig .tc := ⟨.hbm, 314, rfl⟩
abbrev main_v311 : Ref sig .tc := ⟨.hbm, 315, rfl⟩
abbrev main_v312 : Ref sig .tc := ⟨.hbm, 316, rfl⟩
abbrev main_v313 : Ref sig .tc := ⟨.hbm, 317, rfl⟩
abbrev main_v314 : Ref sig .tc := ⟨.hbm, 318, rfl⟩
abbrev main_v315 : Ref sig .tc := ⟨.hbm, 319, rfl⟩
abbrev main_v316 : Ref sig .tc := ⟨.hbm, 320, rfl⟩
abbrev main_v317 : Ref sig .tc := ⟨.hbm, 321, rfl⟩
abbrev main_v318 : Ref sig .tc := ⟨.hbm, 322, rfl⟩
abbrev main_v319 : Ref sig .tc := ⟨.hbm, 323, rfl⟩
abbrev main_v320 : Ref sig .tc := ⟨.hbm, 324, rfl⟩
abbrev main_v321 : Ref sig .tc := ⟨.hbm, 325, rfl⟩
abbrev main_v322 : Ref sig .tc := ⟨.hbm, 326, rfl⟩
abbrev main_v323 : Ref sig .tc := ⟨.hbm, 327, rfl⟩
abbrev main_v324 : Ref sig .tc := ⟨.hbm, 328, rfl⟩
abbrev main_v325 : Ref sig .tc := ⟨.hbm, 329, rfl⟩
abbrev main_v326 : Ref sig .tc := ⟨.hbm, 330, rfl⟩
abbrev main_v327 : Ref sig .tc := ⟨.hbm, 331, rfl⟩
abbrev main_v328 : Ref sig .tc := ⟨.hbm, 332, rfl⟩
abbrev main_v329 : Ref sig .tc := ⟨.hbm, 333, rfl⟩
abbrev main_v330 : Ref sig .tc := ⟨.hbm, 334, rfl⟩
abbrev main_v331 : Ref sig .tc := ⟨.hbm, 335, rfl⟩
abbrev main_v332 : Ref sig .tc := ⟨.hbm, 336, rfl⟩
abbrev main_v333 : Ref sig .tc := ⟨.hbm, 337, rfl⟩
abbrev main_v334 : Ref sig .tc := ⟨.hbm, 338, rfl⟩
abbrev main_v335 : Ref sig .tc := ⟨.hbm, 339, rfl⟩
abbrev main_v336 : Ref sig .tc := ⟨.hbm, 340, rfl⟩
abbrev main_v337 : Ref sig .tc := ⟨.hbm, 341, rfl⟩
abbrev main_v338 : Ref sig .tc := ⟨.hbm, 342, rfl⟩
abbrev main_v339 : Ref sig .tc := ⟨.hbm, 343, rfl⟩
abbrev main_v340 : Ref sig .tc := ⟨.hbm, 344, rfl⟩
abbrev main_v341 : Ref sig .tc := ⟨.hbm, 345, rfl⟩
abbrev main_v342 : Ref sig .tc := ⟨.hbm, 346, rfl⟩
abbrev main_v343 : Ref sig .tc := ⟨.hbm, 347, rfl⟩
abbrev main_v344 : Ref sig .tc := ⟨.hbm, 348, rfl⟩
abbrev main_v345 : Ref sig .tc := ⟨.hbm, 349, rfl⟩
abbrev main_v346 : Ref sig .tc := ⟨.hbm, 350, rfl⟩
abbrev main_v347 : Ref sig .tc := ⟨.hbm, 351, rfl⟩
abbrev main_v348 : Ref sig .tc := ⟨.hbm, 352, rfl⟩
abbrev main_v349 : Ref sig .tc := ⟨.hbm, 353, rfl⟩
abbrev main_v350 : Ref sig .tc := ⟨.hbm, 354, rfl⟩
abbrev main_v351 : Ref sig .tc := ⟨.hbm, 355, rfl⟩
abbrev main_v352 : Ref sig .tc := ⟨.hbm, 356, rfl⟩
abbrev main_v353 : Ref sig .tc := ⟨.hbm, 357, rfl⟩
abbrev main_v354 : Ref sig .tc := ⟨.hbm, 358, rfl⟩
abbrev main_v355 : Ref sig .tc := ⟨.hbm, 359, rfl⟩
abbrev main_v356 : Ref sig .tc := ⟨.hbm, 360, rfl⟩
abbrev main_v357 : Ref sig .tc := ⟨.hbm, 361, rfl⟩
abbrev main_v358 : Ref sig .tc := ⟨.hbm, 362, rfl⟩
abbrev main_v359 : Ref sig .tc := ⟨.hbm, 363, rfl⟩
abbrev main_v360 : Ref sig .tc := ⟨.hbm, 364, rfl⟩
abbrev main_v361 : Ref sig .tc := ⟨.hbm, 365, rfl⟩
abbrev main_v362 : Ref sig .tc := ⟨.hbm, 366, rfl⟩
abbrev main_v363 : Ref sig .tc := ⟨.hbm, 367, rfl⟩
abbrev main_v364 : Ref sig .tc := ⟨.hbm, 368, rfl⟩
abbrev main_v365 : Ref sig .tc := ⟨.hbm, 369, rfl⟩
abbrev main_v366 : Ref sig .tc := ⟨.hbm, 370, rfl⟩
abbrev main_v367 : Ref sig .tc := ⟨.hbm, 371, rfl⟩
abbrev main_v368 : Ref sig .tc := ⟨.hbm, 372, rfl⟩
abbrev main_v369 : Ref sig .tc := ⟨.hbm, 373, rfl⟩
abbrev main_v370 : Ref sig .tc := ⟨.hbm, 374, rfl⟩
abbrev main_v371 : Ref sig .tc := ⟨.hbm, 375, rfl⟩
abbrev main_v372 : Ref sig .tc := ⟨.hbm, 376, rfl⟩
abbrev main_v373 : Ref sig .tc := ⟨.hbm, 377, rfl⟩
abbrev main_v374 : Ref sig .tc := ⟨.hbm, 378, rfl⟩
abbrev main_v375 : Ref sig .tc := ⟨.hbm, 379, rfl⟩
abbrev main_v376 : Ref sig .tc := ⟨.hbm, 380, rfl⟩
abbrev main_v377 : Ref sig .tc := ⟨.hbm, 381, rfl⟩
abbrev main_v378 : Ref sig .tc := ⟨.hbm, 382, rfl⟩
abbrev main_v379 : Ref sig .tc := ⟨.hbm, 383, rfl⟩
abbrev main_v380 : Ref sig .tc := ⟨.hbm, 384, rfl⟩
abbrev main_v381 : Ref sig .tc := ⟨.hbm, 385, rfl⟩
abbrev main_v382 : Ref sig .tc := ⟨.hbm, 386, rfl⟩
abbrev main_v383 : Ref sig .tc := ⟨.hbm, 387, rfl⟩
abbrev main_v384 : Ref sig .tc := ⟨.hbm, 388, rfl⟩
abbrev main_v385 : Ref sig .tc := ⟨.hbm, 389, rfl⟩
abbrev main_v386 : Ref sig .tc := ⟨.hbm, 390, rfl⟩
abbrev main_v387 : Ref sig .tc := ⟨.hbm, 391, rfl⟩
abbrev main_v388 : Ref sig .tc := ⟨.hbm, 392, rfl⟩
abbrev main_v389 : Ref sig .tc := ⟨.hbm, 393, rfl⟩
abbrev main_v390 : Ref sig .tc := ⟨.hbm, 394, rfl⟩
abbrev main_v391 : Ref sig .tc := ⟨.hbm, 395, rfl⟩
abbrev main_v392 : Ref sig .tc := ⟨.hbm, 396, rfl⟩
abbrev main_v393 : Ref sig .tc := ⟨.hbm, 397, rfl⟩
abbrev main_v394 : Ref sig .tc := ⟨.hbm, 398, rfl⟩
abbrev main_v395 : Ref sig .tc := ⟨.hbm, 399, rfl⟩
abbrev main_v396 : Ref sig .tc := ⟨.hbm, 400, rfl⟩
abbrev main_v397 : Ref sig .tc := ⟨.hbm, 401, rfl⟩
abbrev main_v398 : Ref sig .tc := ⟨.hbm, 402, rfl⟩
abbrev main_v399 : Ref sig .tc := ⟨.hbm, 403, rfl⟩
abbrev main_v400 : Ref sig .tc := ⟨.hbm, 404, rfl⟩
abbrev main_v401 : Ref sig .tc := ⟨.hbm, 405, rfl⟩
abbrev main_v402 : Ref sig .tc := ⟨.hbm, 406, rfl⟩
abbrev main_v403 : Ref sig .tc := ⟨.hbm, 407, rfl⟩
abbrev main_v404 : Ref sig .tc := ⟨.hbm, 408, rfl⟩
abbrev main_v405 : Ref sig .tc := ⟨.hbm, 409, rfl⟩
abbrev main_v406 : Ref sig .tc := ⟨.hbm, 410, rfl⟩
abbrev main_v407 : Ref sig .tc := ⟨.hbm, 411, rfl⟩
abbrev main_v408 : Ref sig .tc := ⟨.hbm, 412, rfl⟩
abbrev main_v409 : Ref sig .tc := ⟨.hbm, 413, rfl⟩
abbrev main_v410 : Ref sig .tc := ⟨.hbm, 414, rfl⟩
abbrev main_v411 : Ref sig .tc := ⟨.hbm, 415, rfl⟩
abbrev main_v412 : Ref sig .tc := ⟨.hbm, 416, rfl⟩
abbrev main_v413 : Ref sig .tc := ⟨.hbm, 417, rfl⟩
abbrev main_v414 : Ref sig .tc := ⟨.hbm, 418, rfl⟩
abbrev main_v415 : Ref sig .tc := ⟨.hbm, 419, rfl⟩
abbrev main_v416 : Ref sig .tc := ⟨.hbm, 420, rfl⟩
abbrev main_v417 : Ref sig .tc := ⟨.hbm, 421, rfl⟩
abbrev main_v418 : Ref sig .tc := ⟨.hbm, 422, rfl⟩
abbrev main_v419 : Ref sig .tc := ⟨.hbm, 423, rfl⟩
abbrev main_v420 : Ref sig .tc := ⟨.hbm, 424, rfl⟩
abbrev main_v421 : Ref sig .tc := ⟨.hbm, 425, rfl⟩
abbrev main_v422 : Ref sig .tc := ⟨.hbm, 426, rfl⟩
abbrev main_v423 : Ref sig .tc := ⟨.hbm, 427, rfl⟩
abbrev main_v424 : Ref sig .tc := ⟨.hbm, 428, rfl⟩
abbrev main_v425 : Ref sig .tc := ⟨.hbm, 429, rfl⟩
abbrev main_v426 : Ref sig .tc := ⟨.hbm, 430, rfl⟩
abbrev main_v427 : Ref sig .tc := ⟨.hbm, 431, rfl⟩
abbrev main_v428 : Ref sig .tc := ⟨.hbm, 432, rfl⟩
abbrev main_v429 : Ref sig .tc := ⟨.hbm, 433, rfl⟩
abbrev main_v430 : Ref sig .tc := ⟨.hbm, 434, rfl⟩
abbrev main_v431 : Ref sig .tc := ⟨.hbm, 435, rfl⟩
abbrev main_v432 : Ref sig .tc := ⟨.hbm, 436, rfl⟩
abbrev main_v433 : Ref sig .tc := ⟨.hbm, 437, rfl⟩
abbrev main_v434 : Ref sig .tc := ⟨.hbm, 438, rfl⟩
abbrev main_v435 : Ref sig .tc := ⟨.hbm, 439, rfl⟩
abbrev main_v436 : Ref sig .tc := ⟨.hbm, 440, rfl⟩
abbrev main_v437 : Ref sig .tc := ⟨.hbm, 441, rfl⟩
abbrev main_v438 : Ref sig .tc := ⟨.hbm, 442, rfl⟩
abbrev main_v439 : Ref sig .tc := ⟨.hbm, 443, rfl⟩
abbrev main_v440 : Ref sig .tc := ⟨.hbm, 444, rfl⟩
abbrev main_v441 : Ref sig .tc := ⟨.hbm, 445, rfl⟩
abbrev main_v442 : Ref sig .tc := ⟨.hbm, 446, rfl⟩
abbrev main_v443 : Ref sig .tc := ⟨.hbm, 447, rfl⟩
abbrev main_v444 : Ref sig .tc := ⟨.hbm, 448, rfl⟩
abbrev main_v445 : Ref sig .tc := ⟨.hbm, 449, rfl⟩
abbrev main_v446 : Ref sig .tc := ⟨.hbm, 450, rfl⟩
abbrev main_v447 : Ref sig .tc := ⟨.hbm, 451, rfl⟩
abbrev main_v448 : Ref sig .tc := ⟨.hbm, 452, rfl⟩
abbrev main_v449 : Ref sig .tc := ⟨.hbm, 453, rfl⟩
abbrev main_v450 : Ref sig .tc := ⟨.hbm, 454, rfl⟩
abbrev main_v451 : Ref sig .tc := ⟨.hbm, 455, rfl⟩
abbrev main_v452 : Ref sig .tc := ⟨.hbm, 456, rfl⟩
abbrev main_v453 : Ref sig .tc := ⟨.hbm, 457, rfl⟩
abbrev main_v454 : Ref sig .tc := ⟨.hbm, 458, rfl⟩
abbrev main_v455 : Ref sig .tc := ⟨.hbm, 459, rfl⟩
abbrev main_v456 : Ref sig .tc := ⟨.hbm, 460, rfl⟩
abbrev main_v457 : Ref sig .tc := ⟨.hbm, 461, rfl⟩
abbrev main_v458 : Ref sig .tc := ⟨.hbm, 462, rfl⟩
abbrev main_v459 : Ref sig .tc := ⟨.hbm, 463, rfl⟩
abbrev main_v460 : Ref sig .tc := ⟨.hbm, 464, rfl⟩
abbrev main_v461 : Ref sig .tc := ⟨.hbm, 465, rfl⟩
abbrev main_v462 : Ref sig .tc := ⟨.hbm, 466, rfl⟩
abbrev main_v463 : Ref sig .tc := ⟨.hbm, 467, rfl⟩
abbrev main_v464 : Ref sig .tc := ⟨.hbm, 468, rfl⟩
abbrev main_v465 : Ref sig .tc := ⟨.hbm, 469, rfl⟩
abbrev main_v466 : Ref sig .tc := ⟨.hbm, 470, rfl⟩
abbrev main_v467 : Ref sig .tc := ⟨.hbm, 471, rfl⟩
abbrev main_v468 : Ref sig .tc := ⟨.hbm, 472, rfl⟩
abbrev main_v469 : Ref sig .tc := ⟨.hbm, 473, rfl⟩
abbrev main_v470 : Ref sig .tc := ⟨.hbm, 474, rfl⟩
abbrev main_v471 : Ref sig .tc := ⟨.hbm, 475, rfl⟩
abbrev main_v472 : Ref sig .tc := ⟨.hbm, 476, rfl⟩
abbrev main_v473 : Ref sig .tc := ⟨.hbm, 477, rfl⟩
abbrev main_v474 : Ref sig .tc := ⟨.hbm, 478, rfl⟩
abbrev main_v475 : Ref sig .tc := ⟨.hbm, 479, rfl⟩
abbrev main_v476 : Ref sig .tc := ⟨.hbm, 480, rfl⟩
abbrev main_v477 : Ref sig .tc := ⟨.hbm, 481, rfl⟩
abbrev main_v478 : Ref sig .tc := ⟨.hbm, 482, rfl⟩
abbrev main_v479 : Ref sig .tc := ⟨.hbm, 483, rfl⟩
abbrev main_v480 : Ref sig .tc := ⟨.hbm, 484, rfl⟩
abbrev main_v481 : Ref sig .tc := ⟨.hbm, 485, rfl⟩
abbrev main_v482 : Ref sig .tc := ⟨.hbm, 486, rfl⟩
abbrev main_v483 : Ref sig .tc := ⟨.hbm, 487, rfl⟩
abbrev main_v484 : Ref sig .tc := ⟨.hbm, 488, rfl⟩
abbrev main_v485 : Ref sig .tc := ⟨.hbm, 489, rfl⟩
abbrev main_v486 : Ref sig .tc := ⟨.hbm, 490, rfl⟩
abbrev main_v487 : Ref sig .tc := ⟨.hbm, 491, rfl⟩
abbrev main_v488 : Ref sig .tc := ⟨.hbm, 492, rfl⟩
abbrev main_v489 : Ref sig .tc := ⟨.hbm, 493, rfl⟩
abbrev main_v490 : Ref sig .tc := ⟨.hbm, 494, rfl⟩
abbrev main_v491 : Ref sig .tc := ⟨.hbm, 495, rfl⟩
abbrev main_v492 : Ref sig .tc := ⟨.hbm, 496, rfl⟩
abbrev main_v493 : Ref sig .tc := ⟨.hbm, 497, rfl⟩
abbrev main_v494 : Ref sig .tc := ⟨.hbm, 498, rfl⟩
abbrev main_v495 : Ref sig .tc := ⟨.hbm, 499, rfl⟩
abbrev main_v496 : Ref sig .tc := ⟨.hbm, 500, rfl⟩
abbrev main_v497 : Ref sig .tc := ⟨.hbm, 501, rfl⟩
abbrev main_v498 : Ref sig .tc := ⟨.hbm, 502, rfl⟩
abbrev main_v499 : Ref sig .tc := ⟨.hbm, 503, rfl⟩
abbrev main_v500 : Ref sig .tc := ⟨.hbm, 504, rfl⟩
abbrev main_v501 : Ref sig .tc := ⟨.hbm, 505, rfl⟩
abbrev main_v502 : Ref sig .tc := ⟨.hbm, 506, rfl⟩
abbrev main_v503 : Ref sig .tc := ⟨.hbm, 507, rfl⟩
abbrev main_v504 : Ref sig .tc := ⟨.hbm, 508, rfl⟩
abbrev main_v505 : Ref sig .tc := ⟨.hbm, 509, rfl⟩
abbrev main_v506 : Ref sig .tc := ⟨.hbm, 510, rfl⟩
abbrev main_v507 : Ref sig .tc := ⟨.hbm, 511, rfl⟩
abbrev main_v508 : Ref sig .tc := ⟨.hbm, 512, rfl⟩
abbrev main_v509 : Ref sig .tc := ⟨.hbm, 513, rfl⟩
abbrev main_v510 : Ref sig .tc := ⟨.hbm, 514, rfl⟩
abbrev main_v511 : Ref sig .tc := ⟨.hbm, 515, rfl⟩
abbrev main_v512 : Ref sig .tc := ⟨.hbm, 516, rfl⟩
abbrev main_v513 : Ref sig .tc := ⟨.hbm, 517, rfl⟩
abbrev main_v514 : Ref sig .tc := ⟨.hbm, 518, rfl⟩
abbrev main_v515 : Ref sig .tc := ⟨.hbm, 519, rfl⟩
abbrev main_v516 : Ref sig .tc := ⟨.hbm, 520, rfl⟩
abbrev main_v517 : Ref sig .tc := ⟨.hbm, 521, rfl⟩
abbrev main_v518 : Ref sig .tc := ⟨.hbm, 522, rfl⟩
abbrev main_v519 : Ref sig .tc := ⟨.hbm, 523, rfl⟩
abbrev main_v520 : Ref sig .tc := ⟨.hbm, 524, rfl⟩
abbrev main_v521 : Ref sig .tc := ⟨.hbm, 525, rfl⟩
abbrev main_v522 : Ref sig .tc := ⟨.hbm, 526, rfl⟩
abbrev main_v523 : Ref sig .tc := ⟨.hbm, 527, rfl⟩
abbrev main_v524 : Ref sig .tc := ⟨.hbm, 528, rfl⟩
abbrev main_v525 : Ref sig .tc := ⟨.hbm, 529, rfl⟩
abbrev main_v526 : Ref sig .tc := ⟨.hbm, 530, rfl⟩
abbrev main_v527 : Ref sig .tc := ⟨.hbm, 531, rfl⟩
abbrev main_v528 : Ref sig .tc := ⟨.hbm, 532, rfl⟩
abbrev main_v529 : Ref sig .tc := ⟨.hbm, 533, rfl⟩
abbrev main_v530 : Ref sig .tc := ⟨.hbm, 534, rfl⟩
abbrev main_v531 : Ref sig .tc := ⟨.hbm, 535, rfl⟩
abbrev main_v532 : Ref sig .tc := ⟨.hbm, 536, rfl⟩
abbrev main_v533 : Ref sig .tc := ⟨.hbm, 537, rfl⟩
abbrev main_v534 : Ref sig .tc := ⟨.hbm, 538, rfl⟩
abbrev main_v535 : Ref sig .tc := ⟨.hbm, 539, rfl⟩
abbrev main_v536 : Ref sig .tc := ⟨.hbm, 540, rfl⟩
abbrev main_v537 : Ref sig .tc := ⟨.hbm, 541, rfl⟩
abbrev main_v538 : Ref sig .tc := ⟨.hbm, 542, rfl⟩
abbrev main_v539 : Ref sig .tc := ⟨.hbm, 543, rfl⟩
abbrev main_v540 : Ref sig .tc := ⟨.hbm, 544, rfl⟩
abbrev main_v541 : Ref sig .tc := ⟨.hbm, 545, rfl⟩
abbrev main_v542 : Ref sig .tc := ⟨.hbm, 546, rfl⟩
abbrev main_v543 : Ref sig .tc := ⟨.hbm, 547, rfl⟩
abbrev main_v544 : Ref sig .tc := ⟨.hbm, 548, rfl⟩
abbrev main_v545 : Ref sig .tc := ⟨.hbm, 549, rfl⟩
abbrev main_v546 : Ref sig .tc := ⟨.hbm, 550, rfl⟩
abbrev main_v547 : Ref sig .tc := ⟨.hbm, 551, rfl⟩
abbrev main_v548 : Ref sig .tc := ⟨.hbm, 552, rfl⟩
abbrev main_v549 : Ref sig .tc := ⟨.hbm, 553, rfl⟩
abbrev main_v550 : Ref sig .tc := ⟨.hbm, 554, rfl⟩
abbrev main_v551 : Ref sig .tc := ⟨.hbm, 555, rfl⟩
abbrev main_v552 : Ref sig .tc := ⟨.hbm, 556, rfl⟩
abbrev main_v553 : Ref sig .tc := ⟨.hbm, 557, rfl⟩
abbrev main_v554 : Ref sig .tc := ⟨.hbm, 558, rfl⟩
abbrev main_v555 : Ref sig .tc := ⟨.hbm, 559, rfl⟩
abbrev main_v556 : Ref sig .tc := ⟨.hbm, 560, rfl⟩
abbrev main_v557 : Ref sig .tc := ⟨.hbm, 561, rfl⟩
abbrev main_v558 : Ref sig .tc := ⟨.hbm, 562, rfl⟩
abbrev main_v559 : Ref sig .tc := ⟨.hbm, 563, rfl⟩
abbrev main_v560 : Ref sig .tc := ⟨.hbm, 564, rfl⟩
abbrev main_v561 : Ref sig .tc := ⟨.hbm, 565, rfl⟩
abbrev main_v562 : Ref sig .tc := ⟨.hbm, 566, rfl⟩
abbrev main_v563 : Ref sig .tc := ⟨.hbm, 567, rfl⟩
abbrev main_v564 : Ref sig .tc := ⟨.hbm, 568, rfl⟩
abbrev main_v565 : Ref sig .tc := ⟨.hbm, 569, rfl⟩
abbrev main_v566 : Ref sig .tc := ⟨.hbm, 570, rfl⟩
abbrev main_v567 : Ref sig .tc := ⟨.hbm, 571, rfl⟩
abbrev main_v568 : Ref sig .tc := ⟨.hbm, 572, rfl⟩
abbrev main_v569 : Ref sig .tc := ⟨.hbm, 573, rfl⟩
abbrev main_v570 : Ref sig .tc := ⟨.hbm, 574, rfl⟩
abbrev main_v571 : Ref sig .tc := ⟨.hbm, 575, rfl⟩
abbrev main_v572 : Ref sig .tc := ⟨.hbm, 576, rfl⟩
abbrev main_v573 : Ref sig .tc := ⟨.hbm, 577, rfl⟩
abbrev main_v574 : Ref sig .tc := ⟨.hbm, 578, rfl⟩
abbrev main_v575 : Ref sig .tc := ⟨.hbm, 579, rfl⟩
abbrev main_v576 : Ref sig .tc := ⟨.hbm, 580, rfl⟩
abbrev main_v577 : Ref sig .tc := ⟨.hbm, 581, rfl⟩
abbrev main_v578 : Ref sig .tc := ⟨.hbm, 582, rfl⟩
abbrev main_v579 : Ref sig .tc := ⟨.hbm, 583, rfl⟩
abbrev main_v580 : Ref sig .tc := ⟨.hbm, 584, rfl⟩
abbrev main_v581 : Ref sig .tc := ⟨.hbm, 585, rfl⟩
abbrev main_v582 : Ref sig .tc := ⟨.hbm, 586, rfl⟩
abbrev main_v583 : Ref sig .tc := ⟨.hbm, 587, rfl⟩
abbrev main_v584 : Ref sig .tc := ⟨.hbm, 588, rfl⟩
abbrev main_v585 : Ref sig .tc := ⟨.hbm, 589, rfl⟩
abbrev main_v586 : Ref sig .tc := ⟨.hbm, 590, rfl⟩
abbrev main_v587 : Ref sig .tc := ⟨.hbm, 591, rfl⟩
abbrev main_v588 : Ref sig .tc := ⟨.hbm, 592, rfl⟩
abbrev main_v589 : Ref sig .tc := ⟨.hbm, 593, rfl⟩
abbrev main_v590 : Ref sig .tc := ⟨.hbm, 594, rfl⟩
abbrev main_v591 : Ref sig .tc := ⟨.hbm, 595, rfl⟩
abbrev main_v592 : Ref sig .tc := ⟨.hbm, 596, rfl⟩
abbrev main_v593 : Ref sig .tc := ⟨.hbm, 597, rfl⟩
abbrev main_v594 : Ref sig .tc := ⟨.hbm, 598, rfl⟩
abbrev main_v595 : Ref sig .tc := ⟨.hbm, 599, rfl⟩
abbrev main_v596 : Ref sig .tc := ⟨.hbm, 600, rfl⟩
abbrev main_v597 : Ref sig .tc := ⟨.hbm, 601, rfl⟩
abbrev main_v598 : Ref sig .tc := ⟨.hbm, 602, rfl⟩
abbrev main_v599 : Ref sig .tc := ⟨.hbm, 603, rfl⟩
abbrev main_v600 : Ref sig .tc := ⟨.hbm, 604, rfl⟩
abbrev main_v601 : Ref sig .tc := ⟨.hbm, 605, rfl⟩
abbrev main_v602 : Ref sig .tc := ⟨.hbm, 606, rfl⟩
abbrev main_v603 : Ref sig .tc := ⟨.hbm, 607, rfl⟩
abbrev main_v604 : Ref sig .tc := ⟨.hbm, 608, rfl⟩
abbrev main_v605 : Ref sig .tc := ⟨.hbm, 609, rfl⟩
abbrev main_v606 : Ref sig .tc := ⟨.hbm, 610, rfl⟩
abbrev main_v607 : Ref sig .tc := ⟨.hbm, 611, rfl⟩
abbrev main_v608 : Ref sig .tc := ⟨.hbm, 612, rfl⟩
abbrev main_v609 : Ref sig .tc := ⟨.hbm, 613, rfl⟩
abbrev main_v610 : Ref sig .tc := ⟨.hbm, 614, rfl⟩
abbrev main_v611 : Ref sig .tc := ⟨.hbm, 615, rfl⟩
abbrev main_v612 : Ref sig .tc := ⟨.hbm, 616, rfl⟩
abbrev main_v613 : Ref sig .tc := ⟨.hbm, 617, rfl⟩
abbrev main_v614 : Ref sig .tc := ⟨.hbm, 618, rfl⟩
abbrev main_v615 : Ref sig .tc := ⟨.hbm, 619, rfl⟩
abbrev main_v616 : Ref sig .tc := ⟨.hbm, 620, rfl⟩
abbrev main_v617 : Ref sig .tc := ⟨.hbm, 621, rfl⟩
abbrev main_v618 : Ref sig .tc := ⟨.hbm, 622, rfl⟩
abbrev main_v619 : Ref sig .tc := ⟨.hbm, 623, rfl⟩
abbrev main_v620 : Ref sig .tc := ⟨.hbm, 624, rfl⟩
abbrev main_v621 : Ref sig .tc := ⟨.hbm, 625, rfl⟩
abbrev main_v622 : Ref sig .tc := ⟨.hbm, 626, rfl⟩
abbrev main_v623 : Ref sig .tc := ⟨.hbm, 627, rfl⟩
abbrev main_v624 : Ref sig .tc := ⟨.hbm, 628, rfl⟩
abbrev main_v625 : Ref sig .tc := ⟨.hbm, 629, rfl⟩
abbrev main_v626 : Ref sig .tc := ⟨.hbm, 630, rfl⟩
abbrev main_v627 : Ref sig .tc := ⟨.hbm, 631, rfl⟩
abbrev main_v628 : Ref sig .tc := ⟨.hbm, 632, rfl⟩
abbrev main_v629 : Ref sig .tc := ⟨.hbm, 633, rfl⟩
abbrev main_v630 : Ref sig .tc := ⟨.hbm, 634, rfl⟩
abbrev main_v631 : Ref sig .tc := ⟨.hbm, 635, rfl⟩
abbrev main_v632 : Ref sig .tc := ⟨.hbm, 636, rfl⟩
abbrev main_v633 : Ref sig .tc := ⟨.hbm, 637, rfl⟩
abbrev main_v634 : Ref sig .tc := ⟨.hbm, 638, rfl⟩
abbrev main_v635 : Ref sig .tc := ⟨.hbm, 639, rfl⟩
abbrev main_v636 : Ref sig .tc := ⟨.hbm, 640, rfl⟩
abbrev main_v637 : Ref sig .tc := ⟨.hbm, 641, rfl⟩
abbrev main_v638 : Ref sig .tc := ⟨.hbm, 642, rfl⟩
abbrev main_v639 : Ref sig .tc := ⟨.hbm, 643, rfl⟩
abbrev main_v640 : Ref sig .tc := ⟨.hbm, 644, rfl⟩
abbrev main_v641 : Ref sig .tc := ⟨.hbm, 645, rfl⟩
abbrev main_v642 : Ref sig .tc := ⟨.hbm, 646, rfl⟩
abbrev main_v643 : Ref sig .tc := ⟨.hbm, 647, rfl⟩
abbrev main_v644 : Ref sig .tc := ⟨.hbm, 648, rfl⟩
abbrev main_v645 : Ref sig .tc := ⟨.hbm, 649, rfl⟩
abbrev main_v646 : Ref sig .tc := ⟨.hbm, 650, rfl⟩
abbrev main_v647 : Ref sig .tc := ⟨.hbm, 651, rfl⟩
abbrev main_v648 : Ref sig .tc := ⟨.hbm, 652, rfl⟩
abbrev main_v649 : Ref sig .tc := ⟨.hbm, 653, rfl⟩
abbrev main_v650 : Ref sig .tc := ⟨.hbm, 654, rfl⟩
abbrev main_v651 : Ref sig .tc := ⟨.hbm, 655, rfl⟩
abbrev main_v652 : Ref sig .tc := ⟨.hbm, 656, rfl⟩
abbrev main_v653 : Ref sig .tc := ⟨.hbm, 657, rfl⟩
abbrev main_v654 : Ref sig .tc := ⟨.hbm, 658, rfl⟩
abbrev main_v655 : Ref sig .tc := ⟨.hbm, 659, rfl⟩
abbrev main_v656 : Ref sig .tc := ⟨.hbm, 660, rfl⟩
abbrev main_v657 : Ref sig .tc := ⟨.hbm, 661, rfl⟩
abbrev main_v658 : Ref sig .tc := ⟨.hbm, 662, rfl⟩
abbrev main_v659 : Ref sig .tc := ⟨.hbm, 663, rfl⟩
abbrev main_v660 : Ref sig .tc := ⟨.hbm, 664, rfl⟩
abbrev main_v661 : Ref sig .tc := ⟨.hbm, 665, rfl⟩
abbrev main_v662 : Ref sig .tc := ⟨.hbm, 666, rfl⟩
abbrev main_v663 : Ref sig .tc := ⟨.hbm, 667, rfl⟩
abbrev main_v664 : Ref sig .tc := ⟨.hbm, 668, rfl⟩
abbrev main_v665 : Ref sig .tc := ⟨.hbm, 669, rfl⟩
abbrev main_v666 : Ref sig .tc := ⟨.hbm, 670, rfl⟩
abbrev main_v667 : Ref sig .tc := ⟨.hbm, 671, rfl⟩
abbrev main_v668 : Ref sig .tc := ⟨.hbm, 672, rfl⟩
abbrev main_v669 : Ref sig .tc := ⟨.hbm, 673, rfl⟩
abbrev main_v670 : Ref sig .tc := ⟨.hbm, 674, rfl⟩
abbrev main_v671 : Ref sig .tc := ⟨.hbm, 675, rfl⟩
abbrev main_v672 : Ref sig .tc := ⟨.hbm, 676, rfl⟩
abbrev main_v673 : Ref sig .tc := ⟨.hbm, 677, rfl⟩
abbrev main_v674 : Ref sig .tc := ⟨.hbm, 678, rfl⟩
abbrev main_v675 : Ref sig .tc := ⟨.hbm, 679, rfl⟩
abbrev main_v676 : Ref sig .tc := ⟨.hbm, 680, rfl⟩
abbrev main_v677 : Ref sig .tc := ⟨.hbm, 681, rfl⟩
abbrev main_v678 : Ref sig .tc := ⟨.hbm, 682, rfl⟩
abbrev main_v679 : Ref sig .tc := ⟨.hbm, 683, rfl⟩
abbrev main_v680 : Ref sig .tc := ⟨.hbm, 684, rfl⟩
abbrev main_v681 : Ref sig .tc := ⟨.hbm, 685, rfl⟩
abbrev main_v682 : Ref sig .tc := ⟨.hbm, 686, rfl⟩
abbrev main_v683 : Ref sig .tc := ⟨.hbm, 687, rfl⟩
abbrev main_v684 : Ref sig .tc := ⟨.hbm, 688, rfl⟩
abbrev main_v685 : Ref sig .tc := ⟨.hbm, 689, rfl⟩
abbrev main_v686 : Ref sig .tc := ⟨.hbm, 690, rfl⟩
abbrev main_v687 : Ref sig .tc := ⟨.hbm, 691, rfl⟩
abbrev main_v688 : Ref sig .tc := ⟨.hbm, 692, rfl⟩
abbrev main_v689 : Ref sig .tc := ⟨.hbm, 693, rfl⟩
abbrev main_v690 : Ref sig .tc := ⟨.hbm, 694, rfl⟩
abbrev main_v691 : Ref sig .tc := ⟨.hbm, 695, rfl⟩
abbrev main_v692 : Ref sig .tc := ⟨.hbm, 696, rfl⟩
abbrev main_v693 : Ref sig .tc := ⟨.hbm, 697, rfl⟩
abbrev main_v694 : Ref sig .tc := ⟨.hbm, 698, rfl⟩
abbrev main_v695 : Ref sig .tc := ⟨.hbm, 699, rfl⟩
abbrev main_v696 : Ref sig .tc := ⟨.hbm, 700, rfl⟩
abbrev main_v697 : Ref sig .tc := ⟨.hbm, 701, rfl⟩
abbrev main_v698 : Ref sig .tc := ⟨.hbm, 702, rfl⟩
abbrev main_v699 : Ref sig .tc := ⟨.hbm, 703, rfl⟩
abbrev main_v700 : Ref sig .tc := ⟨.hbm, 704, rfl⟩
abbrev main_v701 : Ref sig .tc := ⟨.hbm, 705, rfl⟩
abbrev main_v702 : Ref sig .tc := ⟨.hbm, 706, rfl⟩
abbrev main_v703 : Ref sig .tc := ⟨.hbm, 707, rfl⟩
abbrev main_v704 : Ref sig .tc := ⟨.hbm, 708, rfl⟩
abbrev main_v705 : Ref sig .tc := ⟨.hbm, 709, rfl⟩
abbrev main_v706 : Ref sig .tc := ⟨.hbm, 710, rfl⟩
abbrev main_v707 : Ref sig .tc := ⟨.hbm, 711, rfl⟩
abbrev main_v708 : Ref sig .tc := ⟨.hbm, 712, rfl⟩
abbrev main_v709 : Ref sig .tc := ⟨.hbm, 713, rfl⟩
abbrev main_v710 : Ref sig .tc := ⟨.hbm, 714, rfl⟩
abbrev main_v711 : Ref sig .tc := ⟨.hbm, 715, rfl⟩
abbrev main_v712 : Ref sig .tc := ⟨.hbm, 716, rfl⟩
abbrev main_v713 : Ref sig .tc := ⟨.hbm, 717, rfl⟩
abbrev main_v714 : Ref sig .tc := ⟨.hbm, 718, rfl⟩
abbrev main_v715 : Ref sig .tc := ⟨.hbm, 719, rfl⟩
abbrev main_v716 : Ref sig .tc := ⟨.hbm, 720, rfl⟩
abbrev main_v717 : Ref sig .tc := ⟨.hbm, 721, rfl⟩
abbrev main_v718 : Ref sig .tc := ⟨.hbm, 722, rfl⟩
abbrev main_v719 : Ref sig .tc := ⟨.hbm, 723, rfl⟩
abbrev main_v720 : Ref sig .tc := ⟨.hbm, 724, rfl⟩
abbrev main_v721 : Ref sig .tc := ⟨.hbm, 725, rfl⟩
abbrev main_v722 : Ref sig .tc := ⟨.hbm, 726, rfl⟩
abbrev main_v723 : Ref sig .tc := ⟨.hbm, 727, rfl⟩
abbrev main_v724 : Ref sig .tc := ⟨.hbm, 728, rfl⟩
abbrev main_v725 : Ref sig .tc := ⟨.hbm, 729, rfl⟩
abbrev main_v726 : Ref sig .tc := ⟨.hbm, 730, rfl⟩
abbrev main_v727 : Ref sig .tc := ⟨.hbm, 731, rfl⟩
abbrev main_v728 : Ref sig .tc := ⟨.hbm, 732, rfl⟩
abbrev main_v729 : Ref sig .tc := ⟨.hbm, 733, rfl⟩
abbrev main_v730 : Ref sig .tc := ⟨.hbm, 734, rfl⟩
abbrev main_v731 : Ref sig .tc := ⟨.hbm, 735, rfl⟩
abbrev main_v732 : Ref sig .tc := ⟨.hbm, 736, rfl⟩
abbrev main_v733 : Ref sig .tc := ⟨.hbm, 737, rfl⟩
abbrev main_v734 : Ref sig .tc := ⟨.hbm, 738, rfl⟩
abbrev main_v735 : Ref sig .tc := ⟨.hbm, 739, rfl⟩
abbrev main_v736 : Ref sig .tc := ⟨.hbm, 740, rfl⟩
abbrev main_v737 : Ref sig .tc := ⟨.hbm, 741, rfl⟩
abbrev main_v738 : Ref sig .tc := ⟨.hbm, 742, rfl⟩
abbrev main_v739 : Ref sig .tc := ⟨.hbm, 743, rfl⟩
abbrev main_v740 : Ref sig .tc := ⟨.hbm, 744, rfl⟩
abbrev main_v741 : Ref sig .tc := ⟨.hbm, 745, rfl⟩
abbrev main_v742 : Ref sig .tc := ⟨.hbm, 746, rfl⟩
abbrev main_v743 : Ref sig .tc := ⟨.hbm, 747, rfl⟩
abbrev main_v744 : Ref sig .tc := ⟨.hbm, 748, rfl⟩
abbrev main_v745 : Ref sig .tc := ⟨.hbm, 749, rfl⟩
abbrev main_v746 : Ref sig .tc := ⟨.hbm, 750, rfl⟩
abbrev main_v747 : Ref sig .tc := ⟨.hbm, 751, rfl⟩
abbrev main_v748 : Ref sig .tc := ⟨.hbm, 752, rfl⟩
abbrev main_v749 : Ref sig .tc := ⟨.hbm, 753, rfl⟩
abbrev main_v750 : Ref sig .tc := ⟨.hbm, 754, rfl⟩
abbrev main_v751 : Ref sig .tc := ⟨.hbm, 755, rfl⟩
abbrev main_v752 : Ref sig .tc := ⟨.hbm, 756, rfl⟩
abbrev main_v753 : Ref sig .tc := ⟨.hbm, 757, rfl⟩
abbrev main_v754 : Ref sig .tc := ⟨.hbm, 758, rfl⟩
abbrev main_v755 : Ref sig .tc := ⟨.hbm, 759, rfl⟩
abbrev main_v756 : Ref sig .tc := ⟨.hbm, 760, rfl⟩
abbrev main_v757 : Ref sig .tc := ⟨.hbm, 761, rfl⟩
abbrev main_v758 : Ref sig .tc := ⟨.hbm, 762, rfl⟩
abbrev main_v759 : Ref sig .tc := ⟨.hbm, 763, rfl⟩
abbrev main_v760 : Ref sig .tc := ⟨.hbm, 764, rfl⟩
abbrev main_v761 : Ref sig .tc := ⟨.hbm, 765, rfl⟩
abbrev main_v762 : Ref sig .tc := ⟨.hbm, 766, rfl⟩
abbrev main_v763 : Ref sig .tc := ⟨.hbm, 767, rfl⟩
abbrev main_v764 : Ref sig .tc := ⟨.hbm, 768, rfl⟩
abbrev main_v765 : Ref sig .tc := ⟨.hbm, 769, rfl⟩
abbrev main_v766 : Ref sig .tc := ⟨.hbm, 770, rfl⟩
abbrev main_v767 : Ref sig .tc := ⟨.hbm, 771, rfl⟩
abbrev main_v768 : Ref sig .tc := ⟨.hbm, 772, rfl⟩
abbrev main_v769 : Ref sig .tc := ⟨.hbm, 773, rfl⟩
abbrev main_v770 : Ref sig .tc := ⟨.hbm, 774, rfl⟩
abbrev main_v771 : Ref sig .tc := ⟨.hbm, 775, rfl⟩
abbrev main_v772 : Ref sig .tc := ⟨.hbm, 776, rfl⟩
abbrev main_v773 : Ref sig .tc := ⟨.hbm, 777, rfl⟩
abbrev main_v774 : Ref sig .tc := ⟨.hbm, 778, rfl⟩
abbrev main_v775 : Ref sig .tc := ⟨.hbm, 779, rfl⟩
abbrev main_v776 : Ref sig .tc := ⟨.hbm, 780, rfl⟩
abbrev main_v777 : Ref sig .tc := ⟨.hbm, 781, rfl⟩
abbrev main_v778 : Ref sig .tc := ⟨.hbm, 782, rfl⟩
abbrev main_v779 : Ref sig .tc := ⟨.hbm, 783, rfl⟩
abbrev main_v780 : Ref sig .tc := ⟨.hbm, 784, rfl⟩
abbrev main_v781 : Ref sig .tc := ⟨.hbm, 785, rfl⟩
abbrev main_v782 : Ref sig .tc := ⟨.hbm, 786, rfl⟩
abbrev main_v783 : Ref sig .tc := ⟨.hbm, 787, rfl⟩
abbrev main_v784 : Ref sig .tc := ⟨.hbm, 788, rfl⟩
abbrev main_v785 : Ref sig .tc := ⟨.hbm, 789, rfl⟩
abbrev main_v786 : Ref sig .tc := ⟨.hbm, 790, rfl⟩
abbrev main_v787 : Ref sig .tc := ⟨.hbm, 791, rfl⟩
abbrev main_v788 : Ref sig .tc := ⟨.hbm, 792, rfl⟩
abbrev main_v789 : Ref sig .tc := ⟨.hbm, 793, rfl⟩
abbrev main_v790 : Ref sig .tc := ⟨.hbm, 794, rfl⟩
abbrev main_v791 : Ref sig .tc := ⟨.hbm, 795, rfl⟩
abbrev main_v792 : Ref sig .tc := ⟨.hbm, 796, rfl⟩
abbrev main_v793 : Ref sig .tc := ⟨.hbm, 797, rfl⟩
abbrev main_v794 : Ref sig .tc := ⟨.hbm, 798, rfl⟩
abbrev main_v795 : Ref sig .tc := ⟨.hbm, 799, rfl⟩
abbrev main_v796 : Ref sig .tc := ⟨.hbm, 800, rfl⟩
abbrev main_v797 : Ref sig .tc := ⟨.hbm, 801, rfl⟩
abbrev main_v798 : Ref sig .tc := ⟨.hbm, 802, rfl⟩
abbrev main_v799 : Ref sig .tc := ⟨.hbm, 803, rfl⟩
abbrev main_v800 : Ref sig .tc := ⟨.hbm, 804, rfl⟩
abbrev main_v801 : Ref sig .tc := ⟨.hbm, 805, rfl⟩
abbrev main_v802 : Ref sig .tc := ⟨.hbm, 806, rfl⟩
abbrev main_v803 : Ref sig .tc := ⟨.hbm, 807, rfl⟩
abbrev main_v804 : Ref sig .tc := ⟨.hbm, 808, rfl⟩
abbrev main_v805 : Ref sig .tc := ⟨.hbm, 809, rfl⟩
abbrev main_v806 : Ref sig .tc := ⟨.hbm, 810, rfl⟩
abbrev main_v807 : Ref sig .tc := ⟨.hbm, 811, rfl⟩
abbrev main_v808 : Ref sig .tc := ⟨.hbm, 812, rfl⟩
abbrev main_v809 : Ref sig .tc := ⟨.hbm, 813, rfl⟩
abbrev main_v810 : Ref sig .tc := ⟨.hbm, 814, rfl⟩
abbrev main_v811 : Ref sig .tc := ⟨.hbm, 815, rfl⟩
abbrev main_v812 : Ref sig .tc := ⟨.hbm, 816, rfl⟩
abbrev main_v813 : Ref sig .tc := ⟨.hbm, 817, rfl⟩
abbrev main_v814 : Ref sig .tc := ⟨.hbm, 818, rfl⟩
abbrev main_v815 : Ref sig .tc := ⟨.hbm, 819, rfl⟩
abbrev main_v816 : Ref sig .tc := ⟨.hbm, 820, rfl⟩
abbrev main_v817 : Ref sig .tc := ⟨.hbm, 821, rfl⟩
abbrev main_v818 : Ref sig .tc := ⟨.hbm, 822, rfl⟩
abbrev main_v819 : Ref sig .tc := ⟨.hbm, 823, rfl⟩
abbrev main_v820 : Ref sig .tc := ⟨.hbm, 824, rfl⟩
abbrev main_v821 : Ref sig .tc := ⟨.hbm, 825, rfl⟩
abbrev main_v822 : Ref sig .tc := ⟨.hbm, 826, rfl⟩
abbrev main_v823 : Ref sig .tc := ⟨.hbm, 827, rfl⟩
abbrev main_v824 : Ref sig .tc := ⟨.hbm, 828, rfl⟩
abbrev main_v825 : Ref sig .tc := ⟨.hbm, 829, rfl⟩
abbrev main_v826 : Ref sig .tc := ⟨.hbm, 830, rfl⟩
abbrev main_v827 : Ref sig .tc := ⟨.hbm, 831, rfl⟩
abbrev main_v828 : Ref sig .tc := ⟨.hbm, 832, rfl⟩
abbrev main_v829 : Ref sig .tc := ⟨.hbm, 833, rfl⟩
abbrev main_v830 : Ref sig .tc := ⟨.hbm, 834, rfl⟩
abbrev main_v831 : Ref sig .tc := ⟨.hbm, 835, rfl⟩
abbrev main_v832 : Ref sig .tc := ⟨.hbm, 836, rfl⟩
abbrev main_v833 : Ref sig .tc := ⟨.hbm, 837, rfl⟩
abbrev main_v834 : Ref sig .tc := ⟨.hbm, 838, rfl⟩
abbrev main_v835 : Ref sig .tc := ⟨.hbm, 839, rfl⟩
abbrev main_v836 : Ref sig .tc := ⟨.hbm, 840, rfl⟩
abbrev main_v837 : Ref sig .tc := ⟨.hbm, 841, rfl⟩
abbrev main_v838 : Ref sig .tc := ⟨.hbm, 842, rfl⟩
abbrev main_v839 : Ref sig .tc := ⟨.hbm, 843, rfl⟩
abbrev main_v840 : Ref sig .tc := ⟨.hbm, 844, rfl⟩
abbrev main_v841 : Ref sig .tc := ⟨.hbm, 845, rfl⟩
abbrev main_v842 : Ref sig .tc := ⟨.hbm, 846, rfl⟩
abbrev main_v843 : Ref sig .tc := ⟨.hbm, 847, rfl⟩
abbrev main_v844 : Ref sig .tc := ⟨.hbm, 848, rfl⟩
abbrev main_v845 : Ref sig .tc := ⟨.hbm, 849, rfl⟩
abbrev main_v846 : Ref sig .tc := ⟨.hbm, 850, rfl⟩
abbrev main_v847 : Ref sig .tc := ⟨.hbm, 851, rfl⟩
abbrev main_v848 : Ref sig .tc := ⟨.hbm, 852, rfl⟩
abbrev main_v849 : Ref sig .tc := ⟨.hbm, 853, rfl⟩
abbrev main_v850 : Ref sig .tc := ⟨.hbm, 854, rfl⟩
abbrev main_v851 : Ref sig .tc := ⟨.hbm, 855, rfl⟩
abbrev main_v852 : Ref sig .tc := ⟨.hbm, 856, rfl⟩
abbrev main_v853 : Ref sig .tc := ⟨.hbm, 857, rfl⟩
abbrev main_v854 : Ref sig .tc := ⟨.hbm, 858, rfl⟩
abbrev main_v855 : Ref sig .tc := ⟨.hbm, 859, rfl⟩
abbrev main_v856 : Ref sig .tc := ⟨.hbm, 860, rfl⟩
abbrev main_v857 : Ref sig .tc := ⟨.hbm, 861, rfl⟩
abbrev main_v858 : Ref sig .tc := ⟨.hbm, 862, rfl⟩
abbrev main_v859 : Ref sig .tc := ⟨.hbm, 863, rfl⟩
abbrev main_v860 : Ref sig .tc := ⟨.hbm, 864, rfl⟩
abbrev main_v861 : Ref sig .tc := ⟨.hbm, 865, rfl⟩
abbrev main_v862 : Ref sig .tc := ⟨.hbm, 866, rfl⟩
abbrev main_v863 : Ref sig .tc := ⟨.hbm, 867, rfl⟩
abbrev main_v864 : Ref sig .tc := ⟨.hbm, 868, rfl⟩
abbrev main_v865 : Ref sig .tc := ⟨.hbm, 869, rfl⟩
abbrev main_v866 : Ref sig .tc := ⟨.hbm, 870, rfl⟩
abbrev main_v867 : Ref sig .tc := ⟨.hbm, 871, rfl⟩
abbrev main_v868 : Ref sig .tc := ⟨.hbm, 872, rfl⟩
abbrev main_v869 : Ref sig .tc := ⟨.hbm, 873, rfl⟩
abbrev main_v870 : Ref sig .tc := ⟨.hbm, 874, rfl⟩
abbrev main_v871 : Ref sig .tc := ⟨.hbm, 875, rfl⟩
abbrev main_v872 : Ref sig .tc := ⟨.hbm, 876, rfl⟩
abbrev main_v873 : Ref sig .tc := ⟨.hbm, 877, rfl⟩
abbrev main_v874 : Ref sig .tc := ⟨.hbm, 878, rfl⟩
abbrev main_v875 : Ref sig .tc := ⟨.hbm, 879, rfl⟩
abbrev main_v876 : Ref sig .tc := ⟨.hbm, 880, rfl⟩
abbrev main_v877 : Ref sig .tc := ⟨.hbm, 881, rfl⟩
abbrev main_v878 : Ref sig .tc := ⟨.hbm, 882, rfl⟩
abbrev main_v879 : Ref sig .tc := ⟨.hbm, 883, rfl⟩
abbrev main_v880 : Ref sig .tc := ⟨.hbm, 884, rfl⟩
abbrev main_v881 : Ref sig .tc := ⟨.hbm, 885, rfl⟩
abbrev main_v882 : Ref sig .tc := ⟨.hbm, 886, rfl⟩
abbrev main_v883 : Ref sig .tc := ⟨.hbm, 887, rfl⟩
abbrev main_v884 : Ref sig .tc := ⟨.hbm, 888, rfl⟩
abbrev main_v885 : Ref sig .tc := ⟨.hbm, 889, rfl⟩
abbrev main_v886 : Ref sig .tc := ⟨.hbm, 890, rfl⟩
abbrev main_v887 : Ref sig .tc := ⟨.hbm, 891, rfl⟩
abbrev main_v888 : Ref sig .tc := ⟨.hbm, 892, rfl⟩
abbrev main_v889 : Ref sig .tc := ⟨.hbm, 893, rfl⟩
abbrev main_v890 : Ref sig .tc := ⟨.hbm, 894, rfl⟩
abbrev main_v891 : Ref sig .tc := ⟨.hbm, 895, rfl⟩
abbrev main_v892 : Ref sig .tc := ⟨.hbm, 896, rfl⟩
abbrev main_v893 : Ref sig .tc := ⟨.hbm, 897, rfl⟩
abbrev main_v894 : Ref sig .tc := ⟨.hbm, 898, rfl⟩
abbrev main_v895 : Ref sig .tc := ⟨.hbm, 899, rfl⟩
abbrev main_v896 : Ref sig .tc := ⟨.hbm, 900, rfl⟩
abbrev main_v897 : Ref sig .tc := ⟨.hbm, 901, rfl⟩
abbrev main_v898 : Ref sig .tc := ⟨.hbm, 902, rfl⟩
abbrev main_v899 : Ref sig .tc := ⟨.hbm, 903, rfl⟩
abbrev main_v900 : Ref sig .tc := ⟨.hbm, 904, rfl⟩
abbrev main_v901 : Ref sig .tc := ⟨.hbm, 905, rfl⟩
abbrev main_v902 : Ref sig .tc := ⟨.hbm, 906, rfl⟩
abbrev main_v903 : Ref sig .tc := ⟨.hbm, 907, rfl⟩
abbrev main_v904 : Ref sig .tc := ⟨.hbm, 908, rfl⟩
abbrev main_v905 : Ref sig .tc := ⟨.hbm, 909, rfl⟩
abbrev main_v906 : Ref sig .tc := ⟨.hbm, 910, rfl⟩
abbrev main_v907 : Ref sig .tc := ⟨.hbm, 911, rfl⟩
abbrev main_v908 : Ref sig .tc := ⟨.hbm, 912, rfl⟩
abbrev main_v909 : Ref sig .tc := ⟨.hbm, 913, rfl⟩
abbrev main_v910 : Ref sig .tc := ⟨.hbm, 914, rfl⟩
abbrev main_v911 : Ref sig .tc := ⟨.hbm, 915, rfl⟩
abbrev main_v912 : Ref sig .tc := ⟨.hbm, 916, rfl⟩
abbrev main_v913 : Ref sig .tc := ⟨.hbm, 917, rfl⟩
abbrev main_v914 : Ref sig .tc := ⟨.hbm, 918, rfl⟩
abbrev main_v915 : Ref sig .tc := ⟨.hbm, 919, rfl⟩
abbrev main_v916 : Ref sig .tc := ⟨.hbm, 920, rfl⟩
abbrev main_v917 : Ref sig .tc := ⟨.hbm, 921, rfl⟩
abbrev main_v918 : Ref sig .tc := ⟨.hbm, 922, rfl⟩
abbrev main_v919 : Ref sig .tc := ⟨.hbm, 923, rfl⟩
abbrev main_v920 : Ref sig .tc := ⟨.hbm, 924, rfl⟩
abbrev main_v921 : Ref sig .tc := ⟨.hbm, 925, rfl⟩
abbrev main_v922 : Ref sig .tc := ⟨.hbm, 926, rfl⟩
abbrev main_v923 : Ref sig .tc := ⟨.hbm, 927, rfl⟩
abbrev main_v924 : Ref sig .tc := ⟨.hbm, 928, rfl⟩
abbrev main_v925 : Ref sig .tc := ⟨.hbm, 929, rfl⟩
abbrev main_v926 : Ref sig .tc := ⟨.hbm, 930, rfl⟩
abbrev main_v927 : Ref sig .tc := ⟨.hbm, 931, rfl⟩
abbrev main_v928 : Ref sig .tc := ⟨.hbm, 932, rfl⟩
abbrev main_v929 : Ref sig .tc := ⟨.hbm, 933, rfl⟩
abbrev main_v930 : Ref sig .tc := ⟨.hbm, 934, rfl⟩
abbrev main_v931 : Ref sig .tc := ⟨.hbm, 935, rfl⟩
abbrev main_v932 : Ref sig .tc := ⟨.hbm, 936, rfl⟩
abbrev main_v933 : Ref sig .tc := ⟨.hbm, 937, rfl⟩
abbrev main_v934 : Ref sig .tc := ⟨.hbm, 938, rfl⟩
abbrev main_v935 : Ref sig .tc := ⟨.hbm, 939, rfl⟩
abbrev main_v936 : Ref sig .tc := ⟨.hbm, 940, rfl⟩
abbrev main_v937 : Ref sig .tc := ⟨.hbm, 941, rfl⟩
abbrev main_v938 : Ref sig .tc := ⟨.hbm, 942, rfl⟩
abbrev main_v939 : Ref sig .tc := ⟨.hbm, 943, rfl⟩
abbrev main_v940 : Ref sig .tc := ⟨.hbm, 944, rfl⟩
abbrev main_v941 : Ref sig .tc := ⟨.hbm, 945, rfl⟩
abbrev main_v942 : Ref sig .tc := ⟨.hbm, 946, rfl⟩
abbrev main_v943 : Ref sig .tc := ⟨.hbm, 947, rfl⟩
abbrev main_v944 : Ref sig .tc := ⟨.hbm, 948, rfl⟩
abbrev main_v945 : Ref sig .tc := ⟨.hbm, 949, rfl⟩
abbrev main_v946 : Ref sig .tc := ⟨.hbm, 950, rfl⟩
abbrev main_v947 : Ref sig .tc := ⟨.hbm, 951, rfl⟩
abbrev main_v948 : Ref sig .tc := ⟨.hbm, 952, rfl⟩
abbrev main_v949 : Ref sig .tc := ⟨.hbm, 953, rfl⟩
abbrev main_v950 : Ref sig .tc := ⟨.hbm, 954, rfl⟩
abbrev main_v951 : Ref sig .tc := ⟨.hbm, 955, rfl⟩
abbrev main_v952 : Ref sig .tc := ⟨.hbm, 956, rfl⟩
abbrev main_v953 : Ref sig .tc := ⟨.hbm, 957, rfl⟩
abbrev main_v954 : Ref sig .tc := ⟨.hbm, 958, rfl⟩
abbrev main_v955 : Ref sig .tc := ⟨.hbm, 959, rfl⟩
abbrev main_v956 : Ref sig .tc := ⟨.hbm, 960, rfl⟩
abbrev main_v957 : Ref sig .tc := ⟨.hbm, 961, rfl⟩
abbrev main_v958 : Ref sig .tc := ⟨.hbm, 962, rfl⟩
abbrev main_v959 : Ref sig .tc := ⟨.hbm, 963, rfl⟩
abbrev main_v960 : Ref sig .tc := ⟨.hbm, 964, rfl⟩
abbrev main_v961 : Ref sig .tc := ⟨.hbm, 965, rfl⟩
abbrev main_v962 : Ref sig .tc := ⟨.hbm, 966, rfl⟩
abbrev main_v963 : Ref sig .tc := ⟨.hbm, 967, rfl⟩
abbrev main_v964 : Ref sig .tc := ⟨.hbm, 968, rfl⟩
abbrev main_v965 : Ref sig .tc := ⟨.hbm, 969, rfl⟩
abbrev main_v966 : Ref sig .tc := ⟨.hbm, 970, rfl⟩
abbrev main_v967 : Ref sig .tc := ⟨.hbm, 971, rfl⟩
abbrev main_v968 : Ref sig .tc := ⟨.hbm, 972, rfl⟩
abbrev main_v969 : Ref sig .tc := ⟨.hbm, 973, rfl⟩
abbrev main_v970 : Ref sig .tc := ⟨.hbm, 974, rfl⟩
abbrev main_v971 : Ref sig .tc := ⟨.hbm, 975, rfl⟩
abbrev main_v972 : Ref sig .tc := ⟨.hbm, 976, rfl⟩
abbrev main_v973 : Ref sig .tc := ⟨.hbm, 977, rfl⟩
abbrev main_v974 : Ref sig .tc := ⟨.hbm, 978, rfl⟩
abbrev main_v975 : Ref sig .tc := ⟨.hbm, 979, rfl⟩
abbrev main_v976 : Ref sig .tc := ⟨.hbm, 980, rfl⟩
abbrev main_v977 : Ref sig .tc := ⟨.hbm, 981, rfl⟩
abbrev main_v978 : Ref sig .tc := ⟨.hbm, 982, rfl⟩
abbrev main_v979 : Ref sig .tc := ⟨.hbm, 983, rfl⟩
abbrev main_v980 : Ref sig .tc := ⟨.hbm, 984, rfl⟩
abbrev main_v981 : Ref sig .tc := ⟨.hbm, 985, rfl⟩
abbrev main_v982 : Ref sig .tc := ⟨.hbm, 986, rfl⟩
abbrev main_v983 : Ref sig .tc := ⟨.hbm, 987, rfl⟩
abbrev main_v984 : Ref sig .tc := ⟨.hbm, 988, rfl⟩
abbrev main_v985 : Ref sig .tc := ⟨.hbm, 989, rfl⟩
abbrev main_v986 : Ref sig .tc := ⟨.hbm, 990, rfl⟩
abbrev main_v987 : Ref sig .tc := ⟨.hbm, 991, rfl⟩
abbrev main_v988 : Ref sig .tc := ⟨.hbm, 992, rfl⟩
abbrev main_v989 : Ref sig .tc := ⟨.hbm, 993, rfl⟩
abbrev main_v990 : Ref sig .tc := ⟨.hbm, 994, rfl⟩
abbrev main_v991 : Ref sig .tc := ⟨.hbm, 995, rfl⟩
abbrev main_v992 : Ref sig .tc := ⟨.hbm, 996, rfl⟩
abbrev main_v993 : Ref sig .tc := ⟨.hbm, 997, rfl⟩
abbrev main_v994 : Ref sig .tc := ⟨.hbm, 998, rfl⟩
abbrev main_v995 : Ref sig .tc := ⟨.hbm, 999, rfl⟩
abbrev main_v996 : Ref sig .tc := ⟨.hbm, 1000, rfl⟩
abbrev main_v997 : Ref sig .tc := ⟨.hbm, 1001, rfl⟩
abbrev main_v998 : Ref sig .tc := ⟨.hbm, 1002, rfl⟩
abbrev main_v999 : Ref sig .tc := ⟨.hbm, 1003, rfl⟩
abbrev main_v1000 : Ref sig .tc := ⟨.hbm, 1004, rfl⟩
abbrev main_v1001 : Ref sig .tc := ⟨.hbm, 1005, rfl⟩
abbrev main_v1002 : Ref sig .tc := ⟨.hbm, 1006, rfl⟩
abbrev main_v1003 : Ref sig .tc := ⟨.hbm, 1007, rfl⟩
abbrev main_v1004 : Ref sig .tc := ⟨.hbm, 1008, rfl⟩
abbrev main_v1005 : Ref sig .tc := ⟨.hbm, 1009, rfl⟩
abbrev main_v1006 : Ref sig .tc := ⟨.hbm, 1010, rfl⟩
abbrev main_v1007 : Ref sig .tc := ⟨.hbm, 1011, rfl⟩
abbrev main_v1008 : Ref sig .tc := ⟨.hbm, 1012, rfl⟩
abbrev main_v1009 : Ref sig .tc := ⟨.hbm, 1013, rfl⟩
abbrev main_v1010 : Ref sig .tc := ⟨.hbm, 1014, rfl⟩
abbrev main_v1011 : Ref sig .tc := ⟨.hbm, 1015, rfl⟩
abbrev main_v1012 : Ref sig .tc := ⟨.hbm, 1016, rfl⟩
abbrev main_v1013 : Ref sig .tc := ⟨.hbm, 1017, rfl⟩
abbrev main_v1014 : Ref sig .tc := ⟨.hbm, 1018, rfl⟩
abbrev main_v1015 : Ref sig .tc := ⟨.hbm, 1019, rfl⟩
abbrev main_v1016 : Ref sig .tc := ⟨.hbm, 1020, rfl⟩
abbrev main_v1017 : Ref sig .tc := ⟨.hbm, 1021, rfl⟩
abbrev main_v1018 : Ref sig .tc := ⟨.hbm, 1022, rfl⟩
abbrev main_v1019 : Ref sig .tc := ⟨.hbm, 1023, rfl⟩
abbrev main_v1020 : Ref sig .tc := ⟨.hbm, 1024, rfl⟩
abbrev main_v1021 : Ref sig .tc := ⟨.hbm, 1025, rfl⟩
abbrev main_v1022 : Ref sig .tc := ⟨.hbm, 1026, rfl⟩
abbrev main_v1023 : Ref sig .tc := ⟨.hbm, 1027, rfl⟩
abbrev main_v1024 : Ref sig .tc := ⟨.hbm, 1028, rfl⟩
abbrev main_v1025 : Ref sig .tc := ⟨.hbm, 1029, rfl⟩
abbrev main_v1026 : Ref sig .tc := ⟨.hbm, 1030, rfl⟩
abbrev main_v1027 : Ref sig .tc := ⟨.hbm, 1031, rfl⟩
abbrev main_v1028 : Ref sig .tc := ⟨.hbm, 1032, rfl⟩
abbrev main_v1029 : Ref sig .tc := ⟨.hbm, 1033, rfl⟩
abbrev main_v1030 : Ref sig .tc := ⟨.hbm, 1034, rfl⟩
abbrev main_v1031 : Ref sig .tc := ⟨.hbm, 1035, rfl⟩
abbrev main_v1032 : Ref sig .tc := ⟨.hbm, 1036, rfl⟩
abbrev main_v1033 : Ref sig .tc := ⟨.hbm, 1037, rfl⟩
abbrev main_v1034 : Ref sig .tc := ⟨.hbm, 1038, rfl⟩
abbrev main_v1035 : Ref sig .tc := ⟨.hbm, 1039, rfl⟩
abbrev main_v1036 : Ref sig .tc := ⟨.hbm, 1040, rfl⟩
abbrev main_v1037 : Ref sig .tc := ⟨.hbm, 1041, rfl⟩
abbrev main_v1038 : Ref sig .tc := ⟨.hbm, 1042, rfl⟩
abbrev main_v1039 : Ref sig .tc := ⟨.hbm, 1043, rfl⟩
abbrev main_v1040 : Ref sig .tc := ⟨.hbm, 1044, rfl⟩
abbrev main_v1041 : Ref sig .tc := ⟨.hbm, 1045, rfl⟩
abbrev main_v1042 : Ref sig .tc := ⟨.hbm, 1046, rfl⟩
abbrev main_v1043 : Ref sig .tc := ⟨.hbm, 1047, rfl⟩
abbrev main_v1044 : Ref sig .tc := ⟨.hbm, 1048, rfl⟩
abbrev main_v1045 : Ref sig .tc := ⟨.hbm, 1049, rfl⟩
abbrev main_v1046 : Ref sig .tc := ⟨.hbm, 1050, rfl⟩
abbrev main_v1047 : Ref sig .tc := ⟨.hbm, 1051, rfl⟩
abbrev main_v1048 : Ref sig .tc := ⟨.hbm, 1052, rfl⟩
abbrev main_v1049 : Ref sig .tc := ⟨.hbm, 1053, rfl⟩
abbrev main_v1050 : Ref sig .tc := ⟨.hbm, 1054, rfl⟩
abbrev main_v1051 : Ref sig .tc := ⟨.hbm, 1055, rfl⟩
abbrev main_v1052 : Ref sig .tc := ⟨.hbm, 1056, rfl⟩
abbrev main_v1053 : Ref sig .tc := ⟨.hbm, 1057, rfl⟩
abbrev main_v1054 : Ref sig .tc := ⟨.hbm, 1058, rfl⟩
abbrev main_v1055 : Ref sig .tc := ⟨.hbm, 1059, rfl⟩
abbrev main_v1056 : Ref sig .tc := ⟨.hbm, 1060, rfl⟩
abbrev main_v1057 : Ref sig .tc := ⟨.hbm, 1061, rfl⟩
abbrev main_v1058 : Ref sig .tc := ⟨.hbm, 1062, rfl⟩
abbrev main_v1059 : Ref sig .tc := ⟨.hbm, 1063, rfl⟩
abbrev main_v1060 : Ref sig .tc := ⟨.hbm, 1064, rfl⟩
abbrev main_v1061 : Ref sig .tc := ⟨.hbm, 1065, rfl⟩
abbrev main_v1062 : Ref sig .tc := ⟨.hbm, 1066, rfl⟩
abbrev main_v1063 : Ref sig .tc := ⟨.hbm, 1067, rfl⟩
abbrev main_v1064 : Ref sig .tc := ⟨.hbm, 1068, rfl⟩
abbrev main_v1065 : Ref sig .tc := ⟨.hbm, 1069, rfl⟩
abbrev main_v1066 : Ref sig .tc := ⟨.hbm, 1070, rfl⟩
abbrev main_v1067 : Ref sig .tc := ⟨.hbm, 1071, rfl⟩
abbrev main_v1068 : Ref sig .tc := ⟨.hbm, 1072, rfl⟩
abbrev main_v1069 : Ref sig .tc := ⟨.hbm, 1073, rfl⟩
abbrev main_v1070 : Ref sig .tc := ⟨.hbm, 1074, rfl⟩
abbrev main_v1071 : Ref sig .tc := ⟨.hbm, 1075, rfl⟩
abbrev main_v1072 : Ref sig .tc := ⟨.hbm, 1076, rfl⟩
abbrev main_v1073 : Ref sig .tc := ⟨.hbm, 1077, rfl⟩
abbrev main_v1074 : Ref sig .tc := ⟨.hbm, 1078, rfl⟩
abbrev main_v1075 : Ref sig .tc := ⟨.hbm, 1079, rfl⟩
abbrev main_v1076 : Ref sig .tc := ⟨.hbm, 1080, rfl⟩
abbrev main_v1077 : Ref sig .tc := ⟨.hbm, 1081, rfl⟩
abbrev main_v1078 : Ref sig .tc := ⟨.hbm, 1082, rfl⟩
abbrev main_v1079 : Ref sig .tc := ⟨.hbm, 1083, rfl⟩
abbrev main_v1080 : Ref sig .tc := ⟨.hbm, 1084, rfl⟩
abbrev main_v1081 : Ref sig .tc := ⟨.hbm, 1085, rfl⟩
abbrev main_v1082 : Ref sig .tc := ⟨.hbm, 1086, rfl⟩
abbrev main_v1083 : Ref sig .tc := ⟨.hbm, 1087, rfl⟩
abbrev main_v1084 : Ref sig .tc := ⟨.hbm, 1088, rfl⟩
abbrev main_v1085 : Ref sig .tc := ⟨.hbm, 1089, rfl⟩
abbrev main_v1086 : Ref sig .tc := ⟨.hbm, 1090, rfl⟩
abbrev main_v1087 : Ref sig .tc := ⟨.hbm, 1091, rfl⟩
abbrev main_v1088 : Ref sig .tc := ⟨.hbm, 1092, rfl⟩
abbrev main_v1089 : Ref sig .tc := ⟨.hbm, 1093, rfl⟩
abbrev main_v1090 : Ref sig .tc := ⟨.hbm, 1094, rfl⟩
abbrev main_v1091 : Ref sig .tc := ⟨.hbm, 1095, rfl⟩
abbrev main_v1092 : Ref sig .tc := ⟨.hbm, 1096, rfl⟩
abbrev main_v1093 : Ref sig .tc := ⟨.hbm, 1097, rfl⟩
abbrev main_v1094 : Ref sig .tc := ⟨.hbm, 1098, rfl⟩
abbrev main_v1095 : Ref sig .tc := ⟨.hbm, 1099, rfl⟩
abbrev main_v1096 : Ref sig .tc := ⟨.hbm, 1100, rfl⟩
abbrev main_v1097 : Ref sig .tc := ⟨.hbm, 1101, rfl⟩
abbrev main_v1098 : Ref sig .tc := ⟨.hbm, 1102, rfl⟩
abbrev main_v1099 : Ref sig .tc := ⟨.hbm, 1103, rfl⟩
abbrev main_v1100 : Ref sig .tc := ⟨.hbm, 1104, rfl⟩
abbrev main_v1101 : Ref sig .tc := ⟨.hbm, 1105, rfl⟩
abbrev main_v1102 : Ref sig .tc := ⟨.hbm, 1106, rfl⟩
abbrev main_v1103 : Ref sig .tc := ⟨.hbm, 1107, rfl⟩
abbrev main_v1104 : Ref sig .tc := ⟨.hbm, 1108, rfl⟩
abbrev main_v1105 : Ref sig .tc := ⟨.hbm, 1109, rfl⟩
abbrev main_v1106 : Ref sig .tc := ⟨.hbm, 1110, rfl⟩
abbrev main_v1107 : Ref sig .tc := ⟨.hbm, 1111, rfl⟩
abbrev main_v1108 : Ref sig .tc := ⟨.hbm, 1112, rfl⟩
abbrev main_v1109 : Ref sig .tc := ⟨.hbm, 1113, rfl⟩
abbrev main_v1110 : Ref sig .tc := ⟨.hbm, 1114, rfl⟩
abbrev main_v1111 : Ref sig .tc := ⟨.hbm, 1115, rfl⟩
abbrev main_v1112 : Ref sig .tc := ⟨.hbm, 1116, rfl⟩
abbrev main_v1113 : Ref sig .tc := ⟨.hbm, 1117, rfl⟩
abbrev main_v1114 : Ref sig .tc := ⟨.hbm, 1118, rfl⟩
abbrev main_v1115 : Ref sig .tc := ⟨.hbm, 1119, rfl⟩
abbrev main_v1116 : Ref sig .tc := ⟨.hbm, 1120, rfl⟩
abbrev main_v1117 : Ref sig .tc := ⟨.hbm, 1121, rfl⟩
abbrev main_v1118 : Ref sig .tc := ⟨.hbm, 1122, rfl⟩
abbrev main_v1119 : Ref sig .tc := ⟨.hbm, 1123, rfl⟩
abbrev main_v1120 : Ref sig .tc := ⟨.hbm, 1124, rfl⟩
abbrev main_v1121 : Ref sig .tc := ⟨.hbm, 1125, rfl⟩
abbrev main_v1122 : Ref sig .tc := ⟨.hbm, 1126, rfl⟩
abbrev main_v1123 : Ref sig .tc := ⟨.hbm, 1127, rfl⟩
abbrev main_v1124 : Ref sig .tc := ⟨.hbm, 1128, rfl⟩
abbrev main_v1125 : Ref sig .tc := ⟨.hbm, 1129, rfl⟩
abbrev main_v1126 : Ref sig .tc := ⟨.hbm, 1130, rfl⟩
abbrev main_v1127 : Ref sig .tc := ⟨.hbm, 1131, rfl⟩
abbrev main_v1128 : Ref sig .tc := ⟨.hbm, 1132, rfl⟩
abbrev main_v1129 : Ref sig .tc := ⟨.hbm, 1133, rfl⟩
abbrev main_v1130 : Ref sig .tc := ⟨.hbm, 1134, rfl⟩
abbrev main_v1131 : Ref sig .tc := ⟨.hbm, 1135, rfl⟩
abbrev main_v1132 : Ref sig .tc := ⟨.hbm, 1136, rfl⟩
abbrev main_v1133 : Ref sig .tc := ⟨.hbm, 1137, rfl⟩
abbrev main_v1134 : Ref sig .tc := ⟨.hbm, 1138, rfl⟩
abbrev main_v1135 : Ref sig .tc := ⟨.hbm, 1139, rfl⟩
abbrev main_v1136 : Ref sig .tc := ⟨.hbm, 1140, rfl⟩
abbrev main_v1137 : Ref sig .tc := ⟨.hbm, 1141, rfl⟩
abbrev main_v1138 : Ref sig .tc := ⟨.hbm, 1142, rfl⟩
abbrev main_v1139 : Ref sig .tc := ⟨.hbm, 1143, rfl⟩
abbrev main_v1140 : Ref sig .tc := ⟨.hbm, 1144, rfl⟩
abbrev main_v1141 : Ref sig .tc := ⟨.hbm, 1145, rfl⟩
abbrev main_v1142 : Ref sig .tc := ⟨.hbm, 1146, rfl⟩
abbrev main_v1143 : Ref sig .tc := ⟨.hbm, 1147, rfl⟩
abbrev main_v1144 : Ref sig .tc := ⟨.hbm, 1148, rfl⟩
abbrev main_v1145 : Ref sig .tc := ⟨.hbm, 1149, rfl⟩
abbrev main_v1146 : Ref sig .tc := ⟨.hbm, 1150, rfl⟩
abbrev main_v1147 : Ref sig .tc := ⟨.hbm, 1151, rfl⟩
abbrev main_v1148 : Ref sig .tc := ⟨.hbm, 1152, rfl⟩
abbrev main_v1149 : Ref sig .tc := ⟨.hbm, 1153, rfl⟩
abbrev main_v1150 : Ref sig .tc := ⟨.hbm, 1154, rfl⟩
abbrev main_v1151 : Ref sig .tc := ⟨.hbm, 1155, rfl⟩
abbrev main_v1152 : Ref sig .tc := ⟨.hbm, 1156, rfl⟩
abbrev main_v1153 : Ref sig .tc := ⟨.hbm, 1157, rfl⟩
abbrev main_v1154 : Ref sig .tc := ⟨.hbm, 1158, rfl⟩
abbrev main_v1155 : Ref sig .tc := ⟨.hbm, 1159, rfl⟩
abbrev main_v1156 : Ref sig .tc := ⟨.hbm, 1160, rfl⟩
abbrev main_v1157 : Ref sig .tc := ⟨.hbm, 1161, rfl⟩
abbrev main_v1158 : Ref sig .tc := ⟨.hbm, 1162, rfl⟩
abbrev main_v1159 : Ref sig .tc := ⟨.hbm, 1163, rfl⟩
abbrev main_v1160 : Ref sig .tc := ⟨.hbm, 1164, rfl⟩
abbrev main_v1161 : Ref sig .tc := ⟨.hbm, 1165, rfl⟩
abbrev main_v1162 : Ref sig .tc := ⟨.hbm, 1166, rfl⟩
abbrev main_v1163 : Ref sig .tc := ⟨.hbm, 1167, rfl⟩
abbrev main_v1164 : Ref sig .tc := ⟨.hbm, 1168, rfl⟩
abbrev main_v1165 : Ref sig .tc := ⟨.hbm, 1169, rfl⟩
abbrev main_v1166 : Ref sig .tc := ⟨.hbm, 1170, rfl⟩
abbrev main_v1167 : Ref sig .tc := ⟨.hbm, 1171, rfl⟩
abbrev main_v1168 : Ref sig .tc := ⟨.hbm, 1172, rfl⟩
abbrev main_v1169 : Ref sig .tc := ⟨.hbm, 1173, rfl⟩
abbrev main_v1170 : Ref sig .tc := ⟨.hbm, 1174, rfl⟩
abbrev main_v1171 : Ref sig .tc := ⟨.hbm, 1175, rfl⟩
abbrev main_v1172 : Ref sig .tc := ⟨.hbm, 1176, rfl⟩
abbrev main_v1173 : Ref sig .tc := ⟨.hbm, 1177, rfl⟩
abbrev main_v1174 : Ref sig .tc := ⟨.hbm, 1178, rfl⟩
abbrev main_v1175 : Ref sig .tc := ⟨.hbm, 1179, rfl⟩
abbrev main_v1176 : Ref sig .tc := ⟨.hbm, 1180, rfl⟩
abbrev main_v1177 : Ref sig .tc := ⟨.hbm, 1181, rfl⟩
abbrev main_v1178 : Ref sig .tc := ⟨.hbm, 1182, rfl⟩
abbrev main_v1179 : Ref sig .tc := ⟨.hbm, 1183, rfl⟩
abbrev main_v1180 : Ref sig .tc := ⟨.hbm, 1184, rfl⟩
abbrev main_v1181 : Ref sig .tc := ⟨.hbm, 1185, rfl⟩
abbrev main_v1182 : Ref sig .tc := ⟨.hbm, 1186, rfl⟩
abbrev main_v1183 : Ref sig .tc := ⟨.hbm, 1187, rfl⟩
abbrev main_v1184 : Ref sig .tc := ⟨.hbm, 1188, rfl⟩
abbrev main_v1185 : Ref sig .tc := ⟨.hbm, 1189, rfl⟩
abbrev main_v1186 : Ref sig .tc := ⟨.hbm, 1190, rfl⟩
abbrev main_v1187 : Ref sig .tc := ⟨.hbm, 1191, rfl⟩
abbrev main_v1188 : Ref sig .tc := ⟨.hbm, 1192, rfl⟩
abbrev main_v1189 : Ref sig .tc := ⟨.hbm, 1193, rfl⟩
abbrev main_v1190 : Ref sig .tc := ⟨.hbm, 1194, rfl⟩
abbrev main_v1191 : Ref sig .tc := ⟨.hbm, 1195, rfl⟩
abbrev main_v1192 : Ref sig .tc := ⟨.hbm, 1196, rfl⟩
abbrev main_v1193 : Ref sig .tc := ⟨.hbm, 1197, rfl⟩
abbrev main_v1194 : Ref sig .tc := ⟨.hbm, 1198, rfl⟩
abbrev main_v1195 : Ref sig .tc := ⟨.hbm, 1199, rfl⟩
abbrev main_v1196 : Ref sig .tc := ⟨.hbm, 1200, rfl⟩
abbrev main_v1197 : Ref sig .tc := ⟨.hbm, 1201, rfl⟩
abbrev main_v1198 : Ref sig .tc := ⟨.hbm, 1202, rfl⟩
abbrev main_v1199 : Ref sig .tc := ⟨.hbm, 1203, rfl⟩
abbrev main_v1200 : Ref sig .tc := ⟨.hbm, 1204, rfl⟩
abbrev main_v1201 : Ref sig .tc := ⟨.hbm, 1205, rfl⟩
abbrev main_v1202 : Ref sig .tc := ⟨.hbm, 1206, rfl⟩
abbrev main_v1203 : Ref sig .tc := ⟨.hbm, 1207, rfl⟩
abbrev main_v1204 : Ref sig .tc := ⟨.hbm, 1208, rfl⟩
abbrev main_v1205 : Ref sig .tc := ⟨.hbm, 1209, rfl⟩
abbrev main_v1206 : Ref sig .tc := ⟨.hbm, 1210, rfl⟩
abbrev main_v1207 : Ref sig .tc := ⟨.hbm, 1211, rfl⟩
abbrev main_v1208 : Ref sig .tc := ⟨.hbm, 1212, rfl⟩
abbrev main_v1209 : Ref sig .tc := ⟨.hbm, 1213, rfl⟩
abbrev main_v1210 : Ref sig .tc := ⟨.hbm, 1214, rfl⟩
abbrev main_v1211 : Ref sig .tc := ⟨.hbm, 1215, rfl⟩
abbrev main_v1212 : Ref sig .tc := ⟨.hbm, 1216, rfl⟩
abbrev main_v1213 : Ref sig .tc := ⟨.hbm, 1217, rfl⟩
abbrev main_v1214 : Ref sig .tc := ⟨.hbm, 1218, rfl⟩
abbrev main_v1215 : Ref sig .tc := ⟨.hbm, 1219, rfl⟩
abbrev main_v1216 : Ref sig .tc := ⟨.hbm, 1220, rfl⟩
abbrev main_v1217 : Ref sig .tc := ⟨.hbm, 1221, rfl⟩
abbrev main_v1218 : Ref sig .tc := ⟨.hbm, 1222, rfl⟩
abbrev main_v1219 : Ref sig .tc := ⟨.hbm, 1223, rfl⟩
abbrev main_v1220 : Ref sig .tc := ⟨.hbm, 1224, rfl⟩
abbrev main_v1221 : Ref sig .tc := ⟨.hbm, 1225, rfl⟩
abbrev main_v1222 : Ref sig .tc := ⟨.hbm, 1226, rfl⟩
abbrev main_v1223 : Ref sig .tc := ⟨.hbm, 1227, rfl⟩
abbrev main_v1224 : Ref sig .tc := ⟨.hbm, 1228, rfl⟩
abbrev main_v1225 : Ref sig .tc := ⟨.hbm, 1229, rfl⟩
abbrev main_v1226 : Ref sig .tc := ⟨.hbm, 1230, rfl⟩
abbrev main_v1227 : Ref sig .tc := ⟨.hbm, 1231, rfl⟩
abbrev main_v1228 : Ref sig .tc := ⟨.hbm, 1232, rfl⟩
abbrev main_v1229 : Ref sig .tc := ⟨.hbm, 1233, rfl⟩
abbrev main_v1230 : Ref sig .tc := ⟨.hbm, 1234, rfl⟩
abbrev main_v1231 : Ref sig .tc := ⟨.hbm, 1235, rfl⟩
abbrev main_v1232 : Ref sig .tc := ⟨.hbm, 1236, rfl⟩
abbrev main_v1233 : Ref sig .tc := ⟨.hbm, 1237, rfl⟩
abbrev main_v1234 : Ref sig .tc := ⟨.hbm, 1238, rfl⟩
abbrev main_v1235 : Ref sig .tc := ⟨.hbm, 1239, rfl⟩
abbrev main_v1236 : Ref sig .tc := ⟨.hbm, 1240, rfl⟩
abbrev main_v1237 : Ref sig .tc := ⟨.hbm, 1241, rfl⟩
abbrev main_v1238 : Ref sig .tc := ⟨.hbm, 1242, rfl⟩
abbrev main_v1239 : Ref sig .tc := ⟨.hbm, 1243, rfl⟩
abbrev main_v1240 : Ref sig .tc := ⟨.hbm, 1244, rfl⟩
abbrev main_v1241 : Ref sig .tc := ⟨.hbm, 1245, rfl⟩
abbrev main_v1242 : Ref sig .tc := ⟨.hbm, 1246, rfl⟩
abbrev main_v1243 : Ref sig .tc := ⟨.hbm, 1247, rfl⟩
abbrev main_v1244 : Ref sig .tc := ⟨.hbm, 1248, rfl⟩
abbrev main_v1245 : Ref sig .tc := ⟨.hbm, 1249, rfl⟩
abbrev main_v1246 : Ref sig .tc := ⟨.hbm, 1250, rfl⟩
abbrev main_v1247 : Ref sig .tc := ⟨.hbm, 1251, rfl⟩
abbrev main_v1248 : Ref sig .tc := ⟨.hbm, 1252, rfl⟩
abbrev main_v1249 : Ref sig .tc := ⟨.hbm, 1253, rfl⟩
abbrev main_v1250 : Ref sig .tc := ⟨.hbm, 1254, rfl⟩
abbrev main_v1251 : Ref sig .tc := ⟨.hbm, 1255, rfl⟩
abbrev main_v1252 : Ref sig .tc := ⟨.hbm, 1256, rfl⟩
abbrev main_v1253 : Ref sig .tc := ⟨.hbm, 1257, rfl⟩
abbrev main_v1254 : Ref sig .tc := ⟨.hbm, 1258, rfl⟩
abbrev main_v1255 : Ref sig .tc := ⟨.hbm, 1259, rfl⟩
abbrev main_v1256 : Ref sig .tc := ⟨.hbm, 1260, rfl⟩
abbrev main_v1257 : Ref sig .tc := ⟨.hbm, 1261, rfl⟩
abbrev main_v1258 : Ref sig .tc := ⟨.hbm, 1262, rfl⟩
abbrev main_v1259 : Ref sig .tc := ⟨.hbm, 1263, rfl⟩
abbrev main_v1260 : Ref sig .tc := ⟨.hbm, 1264, rfl⟩
abbrev main_v1261 : Ref sig .tc := ⟨.hbm, 1265, rfl⟩
abbrev main_v1262 : Ref sig .tc := ⟨.hbm, 1266, rfl⟩
abbrev main_v1263 : Ref sig .tc := ⟨.hbm, 1267, rfl⟩
abbrev main_v1264 : Ref sig .tc := ⟨.hbm, 1268, rfl⟩
abbrev main_v1265 : Ref sig .tc := ⟨.hbm, 1269, rfl⟩
abbrev main_v1266 : Ref sig .tc := ⟨.hbm, 1270, rfl⟩
abbrev main_v1267 : Ref sig .tc := ⟨.hbm, 1271, rfl⟩
abbrev main_v1268 : Ref sig .tc := ⟨.hbm, 1272, rfl⟩
abbrev main_v1269 : Ref sig .tc := ⟨.hbm, 1273, rfl⟩
abbrev main_v1270 : Ref sig .tc := ⟨.hbm, 1274, rfl⟩
abbrev main_v1271 : Ref sig .tc := ⟨.hbm, 1275, rfl⟩
abbrev main_v1272 : Ref sig .tc := ⟨.hbm, 1276, rfl⟩
abbrev main_v1273 : Ref sig .tc := ⟨.hbm, 1277, rfl⟩
abbrev main_v1274 : Ref sig .tc := ⟨.hbm, 1278, rfl⟩
abbrev main_v1275 : Ref sig .tc := ⟨.hbm, 1279, rfl⟩
abbrev main_v1276 : Ref sig .tc := ⟨.hbm, 1280, rfl⟩
abbrev main_v1277 : Ref sig .tc := ⟨.hbm, 1281, rfl⟩
abbrev main_v1278 : Ref sig .tc := ⟨.hbm, 1282, rfl⟩
abbrev main_v1279 : Ref sig .tc := ⟨.hbm, 1283, rfl⟩
abbrev main_v1280 : Ref sig .tc := ⟨.hbm, 1284, rfl⟩
abbrev main_v1281 : Ref sig .tc := ⟨.hbm, 1285, rfl⟩
abbrev main_v1282 : Ref sig .tc := ⟨.hbm, 1286, rfl⟩
abbrev main_v1283 : Ref sig .tc := ⟨.hbm, 1287, rfl⟩
abbrev main_v1284 : Ref sig .tc := ⟨.hbm, 1288, rfl⟩
abbrev main_v1285 : Ref sig .tc := ⟨.hbm, 1289, rfl⟩
abbrev main_v1286 : Ref sig .tc := ⟨.hbm, 1290, rfl⟩
abbrev main_v1287 : Ref sig .tc := ⟨.hbm, 1291, rfl⟩
abbrev main_v1288 : Ref sig .tc := ⟨.hbm, 1292, rfl⟩
abbrev main_v1289 : Ref sig .tc := ⟨.hbm, 1293, rfl⟩
abbrev main_v1290 : Ref sig .tc := ⟨.hbm, 1294, rfl⟩
abbrev main_v1291 : Ref sig .tc := ⟨.hbm, 1295, rfl⟩
abbrev main_v1292 : Ref sig .tc := ⟨.hbm, 1296, rfl⟩
abbrev main_v1293 : Ref sig .tc := ⟨.hbm, 1297, rfl⟩
abbrev main_v1294 : Ref sig .tc := ⟨.hbm, 1298, rfl⟩
abbrev main_v1295 : Ref sig .tc := ⟨.hbm, 1299, rfl⟩
abbrev main_v1296 : Ref sig .tc := ⟨.hbm, 1300, rfl⟩
abbrev main_v1297 : Ref sig .tc := ⟨.hbm, 1301, rfl⟩
abbrev main_v1298 : Ref sig .tc := ⟨.hbm, 1302, rfl⟩
abbrev main_v1299 : Ref sig .tc := ⟨.hbm, 1303, rfl⟩
abbrev main_v1300 : Ref sig .tc := ⟨.hbm, 1304, rfl⟩
abbrev main_v1301 : Ref sig .tc := ⟨.hbm, 1305, rfl⟩
abbrev main_v1302 : Ref sig .tc := ⟨.hbm, 1306, rfl⟩
abbrev main_v1303 : Ref sig .tc := ⟨.hbm, 1307, rfl⟩
abbrev main_v1304 : Ref sig .tc := ⟨.hbm, 1308, rfl⟩
abbrev main_v1305 : Ref sig .tc := ⟨.hbm, 1309, rfl⟩
abbrev main_v1306 : Ref sig .tc := ⟨.hbm, 1310, rfl⟩
abbrev main_v1307 : Ref sig .tc := ⟨.hbm, 1311, rfl⟩
abbrev main_v1308 : Ref sig .tc := ⟨.hbm, 1312, rfl⟩
abbrev main_v1309 : Ref sig .tc := ⟨.hbm, 1313, rfl⟩
abbrev main_v1310 : Ref sig .tc := ⟨.hbm, 1314, rfl⟩
abbrev main_v1311 : Ref sig .tc := ⟨.hbm, 1315, rfl⟩
abbrev main_v1312 : Ref sig .tc := ⟨.hbm, 1316, rfl⟩
abbrev main_v1313 : Ref sig .tc := ⟨.hbm, 1317, rfl⟩
abbrev main_v1314 : Ref sig .tc := ⟨.hbm, 1318, rfl⟩
abbrev main_v1315 : Ref sig .tc := ⟨.hbm, 1319, rfl⟩
abbrev main_v1316 : Ref sig .tc := ⟨.hbm, 1320, rfl⟩
abbrev main_v1317 : Ref sig .tc := ⟨.hbm, 1321, rfl⟩
abbrev main_v1318 : Ref sig .tc := ⟨.hbm, 1322, rfl⟩
abbrev main_v1319 : Ref sig .tc := ⟨.hbm, 1323, rfl⟩
abbrev main_v1320 : Ref sig .tc := ⟨.hbm, 1324, rfl⟩
abbrev main_v1321 : Ref sig .tc := ⟨.hbm, 1325, rfl⟩
abbrev main_v1322 : Ref sig .tc := ⟨.hbm, 1326, rfl⟩
abbrev main_v1323 : Ref sig .tc := ⟨.hbm, 1327, rfl⟩
abbrev main_v1324 : Ref sig .tc := ⟨.hbm, 1328, rfl⟩
abbrev main_v1325 : Ref sig .tc := ⟨.hbm, 1329, rfl⟩
abbrev main_v1326 : Ref sig .tc := ⟨.hbm, 1330, rfl⟩
abbrev main_v1327 : Ref sig .tc := ⟨.hbm, 1331, rfl⟩
abbrev main_v1328 : Ref sig .tc := ⟨.hbm, 1332, rfl⟩
abbrev main_v1329 : Ref sig .tc := ⟨.hbm, 1333, rfl⟩
abbrev main_v1330 : Ref sig .tc := ⟨.hbm, 1334, rfl⟩
abbrev main_v1331 : Ref sig .tc := ⟨.hbm, 1335, rfl⟩
abbrev main_v1332 : Ref sig .tc := ⟨.hbm, 1336, rfl⟩
abbrev main_v1333 : Ref sig .tc := ⟨.hbm, 1337, rfl⟩
abbrev main_v1334 : Ref sig .tc := ⟨.hbm, 1338, rfl⟩
abbrev main_v1335 : Ref sig .tc := ⟨.hbm, 1339, rfl⟩
abbrev main_v1336 : Ref sig .tc := ⟨.hbm, 1340, rfl⟩
abbrev main_v1337 : Ref sig .tc := ⟨.hbm, 1341, rfl⟩
abbrev main_v1338 : Ref sig .tc := ⟨.hbm, 1342, rfl⟩
abbrev main_v1339 : Ref sig .tc := ⟨.hbm, 1343, rfl⟩
abbrev main_v1340 : Ref sig .tc := ⟨.hbm, 1344, rfl⟩
abbrev main_v1341 : Ref sig .tc := ⟨.hbm, 1345, rfl⟩
abbrev main_v1342 : Ref sig .tc := ⟨.hbm, 1346, rfl⟩
abbrev main_v1343 : Ref sig .tc := ⟨.hbm, 1347, rfl⟩
abbrev main_v1344 : Ref sig .tc := ⟨.hbm, 1348, rfl⟩
abbrev main_v1345 : Ref sig .tc := ⟨.hbm, 1349, rfl⟩
abbrev main_v1346 : Ref sig .tc := ⟨.hbm, 1350, rfl⟩
abbrev main_v1347 : Ref sig .tc := ⟨.hbm, 1351, rfl⟩
abbrev main_v1348 : Ref sig .tc := ⟨.hbm, 1352, rfl⟩
abbrev main_v1349 : Ref sig .tc := ⟨.hbm, 1353, rfl⟩
abbrev main_v1350 : Ref sig .tc := ⟨.hbm, 1354, rfl⟩
abbrev main_v1351 : Ref sig .tc := ⟨.hbm, 1355, rfl⟩
abbrev main_v1352 : Ref sig .tc := ⟨.hbm, 1356, rfl⟩
abbrev main_v1353 : Ref sig .tc := ⟨.hbm, 1357, rfl⟩
abbrev main_v1354 : Ref sig .tc := ⟨.hbm, 1358, rfl⟩
abbrev main_v1355 : Ref sig .tc := ⟨.hbm, 1359, rfl⟩
abbrev main_v1356 : Ref sig .tc := ⟨.hbm, 1360, rfl⟩
abbrev main_v1357 : Ref sig .tc := ⟨.hbm, 1361, rfl⟩
abbrev main_v1358 : Ref sig .tc := ⟨.hbm, 1362, rfl⟩
abbrev main_v1359 : Ref sig .tc := ⟨.hbm, 1363, rfl⟩
abbrev main_v1360 : Ref sig .tc := ⟨.hbm, 1364, rfl⟩
abbrev main_v1361 : Ref sig .tc := ⟨.hbm, 1365, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  slices_S16x15x512_S1x15x512_0_0_0 : S16x15x512.Slices ![0, 0, 0] S1x15x512
  shapeCasts_S1x15x512_S15x512 : S1x15x512.ShapeCasts S15x512
  slices_S15x512_S1x512_14_0 : S15x512.Slices ![14, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S15x512_S1x512_13_0 : S15x512.Slices ![13, 0] S1x512
  slices_S15x512_S1x512_12_0 : S15x512.Slices ![12, 0] S1x512
  slices_S15x512_S1x512_11_0 : S15x512.Slices ![11, 0] S1x512
  slices_S15x512_S1x512_10_0 : S15x512.Slices ![10, 0] S1x512
  slices_S15x512_S1x512_9_0 : S15x512.Slices ![9, 0] S1x512
  slices_S15x512_S1x512_8_0 : S15x512.Slices ![8, 0] S1x512
  slices_S15x512_S1x512_7_0 : S15x512.Slices ![7, 0] S1x512
  slices_S15x512_S1x512_6_0 : S15x512.Slices ![6, 0] S1x512
  slices_S15x512_S1x512_5_0 : S15x512.Slices ![5, 0] S1x512
  slices_S15x512_S1x512_4_0 : S15x512.Slices ![4, 0] S1x512
  slices_S15x512_S1x512_3_0 : S15x512.Slices ![3, 0] S1x512
  slices_S15x512_S1x512_2_0 : S15x512.Slices ![2, 0] S1x512
  slices_S15x512_S1x512_1_0 : S15x512.Slices ![1, 0] S1x512
  slices_S15x512_S1x512_0_0 : S15x512.Slices ![0, 0] S1x512
  slices_S16x15x512_S1x15x512_1_0_0 : S16x15x512.Slices ![1, 0, 0] S1x15x512
  slices_S16x15x512_S1x15x512_2_0_0 : S16x15x512.Slices ![2, 0, 0] S1x15x512
  slices_S16x15x512_S1x15x512_3_0_0 : S16x15x512.Slices ![3, 0, 0] S1x15x512
  slices_S16x15x512_S1x15x512_4_0_0 : S16x15x512.Slices ![4, 0, 0] S1x15x512
  slices_S16x15x512_S1x15x512_5_0_0 : S16x15x512.Slices ![5, 0, 0] S1x15x512
  slices_S16x15x512_S1x15x512_6_0_0 : S16x15x512.Slices ![6, 0, 0] S1x15x512
  slices_S16x15x512_S1x15x512_7_0_0 : S16x15x512.Slices ![7, 0, 0] S1x15x512
  slices_S16x15x512_S1x15x512_8_0_0 : S16x15x512.Slices ![8, 0, 0] S1x15x512
  slices_S16x15x512_S1x15x512_9_0_0 : S16x15x512.Slices ![9, 0, 0] S1x15x512
  slices_S16x15x512_S1x15x512_10_0_0 : S16x15x512.Slices ![10, 0, 0] S1x15x512
  slices_S16x15x512_S1x15x512_11_0_0 : S16x15x512.Slices ![11, 0, 0] S1x15x512
  slices_S16x15x512_S1x15x512_12_0_0 : S16x15x512.Slices ![12, 0, 0] S1x15x512
  slices_S16x15x512_S1x15x512_13_0_0 : S16x15x512.Slices ![13, 0, 0] S1x15x512
  slices_S16x15x512_S1x15x512_14_0_0 : S16x15x512.Slices ![14, 0, 0] S1x15x512
  slices_S16x15x512_S1x15x512_15_0_0 : S16x15x512.Slices ![15, 0, 0] S1x15x512

variable [Facts₀]

class Facts : Prop extends Facts₀ where

variable [Facts]
-- ==== Proof.FiniteInputs.lean ====
/-
  What the precondition says.  It is the conjunction of two tests, one per argument: every entry's
  absolute value max x (-x) lies strictly below +inf.  An extended real with that property is neither
  +inf nor -inf, so it is a real number.  Hence: under the precondition every entry of x and every entry
  of alphas is (the image of) a real number.
-/
import proofs.«155760_g3719441679094_cont_8to1_b_551_25_alg».proof.Pre_finite_inputs
import proofs.«155760_g3719441679094_cont_8to1_b_551_25_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.Pre_finite_inputs.Gen

/-- The scalar shape has exactly one index. -/
instance : Subsingleton S_.Idx := ⟨fun a b => funext fun d => d.elim0⟩

/-- The word 0x7F800000 is +inf. -/
theorem inf_word : Ideal.ofBits .f32 0x7F800000#32 = (⊤ : EReal) := by
  simp [Ideal.ofBits, Ideal.ieee]

/-- An extended real whose absolute value is strictly below +inf is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exfalso; simp [Ideal.cmp] at h
  | coe r => exact ⟨r, rfl⟩
  | top => exfalso; simp [Ideal.cmp] at h

/-- Under the precondition every entry of both arguments is a real number. -/
theorem reals_of_pre (x0 : FVec Ideal S10000x512 .f32) (x1 : FVec Ideal S16x15x512 .f32)
    (h : Cert.Pre_finite_inputs.fn (F := Ideal) x0 x1 = fun _ => 1#1) :
    (∀ i : S10000x512.Idx, ∃ r : ℝ, (x0 i : EReal) = (r : EReal))
      ∧ (∀ j : S16x15x512.Idx, ∃ r : ℝ, (x1 j : EReal) = (r : EReal)) := by
  have h0 := congrFun h ValueIdx.ix0
  dsimp only [fn] at h0
  obtain ⟨ha, hb⟩ := IntOp.andi_eq_one.1 h0
  refine ⟨fun i => real_of_abs_lt _ ?_, fun j => real_of_abs_lt _ ?_⟩
  · exact Host.reduce_andi_all _ _ _ _ _ ha i
  · exact Host.reduce_andi_all _ _ _ _ _ hb j

end Cert.FiniteInputs

end
-- ==== Proof.LibMaxPlusHeap.lean ====
/-
  Complete binary trees in the (max, +) semiring, and a forest of them.

  A tree of 15 nodes is laid out as a heap: node n has the children 2n+1 and 2n+2, the nodes 7..14 are
  leaves.  An inner node is worth the larger of its two children plus its own weight; a leaf is worth
  whatever the leaf valuation gives it.  A forest of 16 trees is worth the largest root.

  The law proved here: adding one and the same s to every leaf adds s to the root, and so to the forest,
      max (s + x) (s + y) = s + max x y     and     (s + u) + a = s + (u + a);
  both hold on all of the extended reals, so nothing has to be finite.  The second group of lemmas says
  that a tree, and a forest, of real numbers is a real number.
-/
import Mathlib.Data.EReal.Operations
import Mathlib.Algebra.Order.Monoid.Unbundled.MinMax

namespace LibMaxPlusHeap

section Defs
variable {α : Type*} [Max α] [Add α]

/-- An inner node: the larger child plus the node's own weight. -/
def node (a l r : α) : α := max l r + a

/-- The root of a 15-node heap whose leaves 7..14 are valued by `lf` and whose inner nodes 0..6 carry the weights `a`. -/
def heap15 (lf a : Fin 15 → α) : α :=
  node (a 0)
    (node (a 1) (node (a 3) (lf 7) (lf 8)) (node (a 4) (lf 9) (lf 10)))
    (node (a 2) (node (a 5) (lf 11) (lf 12)) (node (a 6) (lf 13) (lf 14)))

/-- The largest of 16 values, taken from the left. -/
def forest16 (T : Fin 16 → α) : α :=
  max (max (max (max (max (max (max (max (max (max (max (max (max (max (max (T 0) (T 1)) (T 2)) (T 3)) (T 4)) (T 5))
    (T 6)) (T 7)) (T 8)) (T 9)) (T 10)) (T 11)) (T 12)) (T 13)) (T 14)) (T 15)

/-- The forest over the weights alone: every leaf is worth its own weight. -/
def forestMax (a : Fin 16 → Fin 15 → α) : α := forest16 fun t => heap15 (a t) (a t)

/-- The forest with `s` added to every leaf's weight. -/
def forestShifted (s : α) (a : Fin 16 → Fin 15 → α) : α := forest16 fun t => heap15 (fun n => s + a t n) (a t)

end Defs

/-! ## Adding s to every leaf adds s to the root -/

theorem heap15_shift (s : EReal) (a : Fin 15 → EReal) :
    heap15 (fun n => s + a n) a = s + heap15 a a := by
  simp only [heap15, node, max_add_add_left, add_assoc]

theorem forest16_shift (s : EReal) (T : Fin 16 → EReal) :
    forest16 (fun t => s + T t) = s + forest16 T := by
  simp only [forest16, max_add_add_left]

theorem forestShifted_eq (s : EReal) (a : Fin 16 → Fin 15 → EReal) :
    forestShifted s a = s + forestMax a := by
  unfold forestShifted forestMax
  simp only [heap15_shift]
  exact forest16_shift s _

/-! ## A forest of real numbers is a real number -/

theorem coe_max (x y : ℝ) : ((max x y : ℝ) : EReal) = max (x : EReal) (y : EReal) :=
  EReal.coe_strictMono.monotone.map_max

theorem heap15_coe (lf a : Fin 15 → ℝ) :
    heap15 (fun n => (lf n : EReal)) (fun n => (a n : EReal)) = ((heap15 lf a : ℝ) : EReal) := by
  simp only [heap15, node, coe_max, EReal.coe_add]

theorem forest16_coe (T : Fin 16 → ℝ) :
    forest16 (fun t => (T t : EReal)) = ((forest16 T : ℝ) : EReal) := by
  simp only [forest16, coe_max]

theorem forestMax_coe (a : Fin 16 → Fin 15 → ℝ) :
    forestMax (fun t n => (a t n : EReal)) = ((forestMax a : ℝ) : EReal) := by
  unfold forestMax
  simp only [heap15_coe]
  exact forest16_coe _

end LibMaxPlusHeap
-- ==== Proof.LibExpShift.lean ====
/-
  Shifting under the exponential, on the extended reals.

  For a real r with 0 ≤ r and a real M,
      exp (log (1 + r) + M) - 1 = r * exp M + (exp M - 1),
  because exp (log (1 + r) + M) = (1 + r) * exp M and 1 + r is positive.  Both sides are real numbers, so
  the identity is the real one read through the coercion.  Also: the larger of a real number and 0 is a
  real number that is not negative.
-/
import Idealize.ShloMosaic.PureOps.Ideal
import Idealize.ShloMosaic.PureOps.Ideal.Laws

noncomputable section

namespace LibExpShift

open Idealize.ShloMosaic

/-- `exp (log1p r + M) - 1 = r * exp M + (exp M - 1)` for real `r ≥ 0` and real `M`. -/
theorem expm1_log1p_add (r M : ℝ) (hr : 0 ≤ r) :
    Ideal.exp (Ideal.log1p (r : EReal) + (M : EReal)) - 1
      = (r : EReal) * Ideal.exp (M : EReal) + (Ideal.exp (M : EReal) - 1) := by
  have h1 : (1 : EReal) + (r : EReal) = ((1 + r : ℝ) : EReal) := by
    rw [EReal.coe_add, EReal.coe_one]
  have hpos : ¬ (1 + r ≤ 0) := by linarith
  have hpos' : 0 < 1 + r := by linarith
  unfold Ideal.log1p
  rw [h1, Ideal.log_coe, if_neg hpos, ← EReal.coe_add, Ideal.exp_coe, Ideal.exp_coe, Real.exp_add,
    Real.exp_log hpos']
  rw [← EReal.coe_one, ← EReal.coe_sub, ← EReal.coe_mul, ← EReal.coe_sub, ← EReal.coe_add]
  congr 1
  ring

/-- The larger of a real number and zero, on the extended reals, is the real number `max x 0`. -/
theorem max_coe_zero (x : ℝ) : max (x : EReal) 0 = ((max x 0 : ℝ) : EReal) := by
  rw [← EReal.coe_zero]
  exact (EReal.coe_strictMono.monotone.map_max).symm

end LibExpShift

end
-- ==== Proof.LibForestRows.lean ====
/-
  Rows of a parameter table, read at an entry.  The table has 16 trees of 15 nodes of 512 channels.

  * the slab of tree t: the slice [t:t+1, :, :] of the 16 x 15 x 512 table, seen as a 15 x 512 matrix;
    its entry (n, c) is the table's entry (t, n, c);
  * row n of a slab copied into each of 10000 rows (slice [n:n+1, :], seen as a vector of 512, as a
    1 x 512 row, then broadcast down): its entry (r, c) is the slab's entry (n, c), whatever r is;
  * the table flattened to a 240 x 512 matrix: its entry (15 t + n, c) is the table's entry (t, n, c).
-/
import Idealize.ShloMosaic.Lib.ValueIdx
import Idealize.ShloMosaic.Lib.Pipeline.Value

namespace LibForestRows

open Idealize.ShloMosaic Idealize.ShloMosaic.ValueIdx

abbrev Tbl : Shape := ⟨3, ![16, 15, 512]⟩
abbrev Tbl1 : Shape := ⟨3, ![1, 15, 512]⟩
abbrev Slab : Shape := ⟨2, ![15, 512]⟩
abbrev Row : Shape := ⟨2, ![1, 512]⟩
abbrev Chan : Shape := ⟨1, ![512]⟩
abbrev Big : Shape := ⟨2, ![10000, 512]⟩
abbrev Flat : Shape := ⟨2, ![240, 512]⟩

variable {α : Type}

/-- The slab of tree `t`. -/
def slab (t : Fin 16) (h : Tbl.Slices ![t.val, 0, 0] Tbl1) (hc : Tbl1.ShapeCasts Slab) (a : Tbl.Idx → α) : Slab.Idx → α :=
  shapeCast Slab (extractStridedSlice Tbl1 ![t.val, 0, 0] a h) hc

theorem slab_apply (t : Fin 16) (h : Tbl.Slices ![t.val, 0, 0] Tbl1) (hc : Tbl1.ShapeCasts Slab) (a : Tbl.Idx → α)
    (n : Fin 15) (c : Fin 512) : slab t h hc a (ix2 n c) = a (ix3 t n c) := by
  unfold slab
  refine (shapeCast_apply _ hc (ix2 n c) (ix3 (0 : Fin 1) n c) ?_).trans ?_
  · rewrite [Shape.rowMajor_val_three, Shape.rowMajor_val_two]
    show (0 * 15 + n.val) * 512 + c.val = n.val * 512 + c.val
    omega
  · exact extractStridedSlice_apply ![t.val, 0, 0] a h _ (ix3 t n c) (fun d => match d with
      | ⟨0, _⟩ => by show t.val = t.val + 0; omega
      | ⟨1, _⟩ => by show n.val = 0 + n.val; omega
      | ⟨2, _⟩ => by show c.val = 0 + c.val; omega)

/-- Row `n` of a slab, copied into each of the 10000 rows. -/
def spread (n : Fin 15) (h : Slab.Slices ![n.val, 0] Row) (hc : Row.ShapeCasts Chan)
    (hb1 : Chan.BroadcastsInDim Row (![1] : Fin 1 → Fin Row.rank))
    (hb2 : Row.BroadcastsInDim Big (![0, 1] : Fin 2 → Fin Big.rank)) (y : Slab.Idx → α) : Big.Idx → α :=
  broadcastInDim Big ![0, 1] hb2 (broadcastInDim Row ![1] hb1 (shapeCast Chan (extractStridedSlice Row ![n.val, 0] y h) hc))

theorem spread_apply (n : Fin 15) (h : Slab.Slices ![n.val, 0] Row) (hc : Row.ShapeCasts Chan)
    (hb1 : Chan.BroadcastsInDim Row (![1] : Fin 1 → Fin Row.rank))
    (hb2 : Row.BroadcastsInDim Big (![0, 1] : Fin 2 → Fin Big.rank)) (y : Slab.Idx → α) (i : Big.Idx) :
    spread n h hc hb1 hb2 y i = y (ix2 n (i 1)) := by
  unfold spread
  refine (broadcastInDim_apply _ hb2 _ i (ix2 (0 : Fin 1) (i 1)) (fun d => match d with
      | ⟨0, _⟩ => by show 0 = if (1 : Nat) = 1 then 0 else (i 0).val; rw [if_pos rfl]
      | ⟨1, _⟩ => by show (i 1).val = if (512 : Nat) = 1 then 0 else (i 1).val; rw [if_neg (by decide)])).trans ?_
  refine (broadcastInDim_apply _ hb1 _ (ix2 (0 : Fin 1) (i 1)) (ix1 (i 1)) (fun d => match d with
      | ⟨0, _⟩ => by show (i 1).val = if (512 : Nat) = 1 then 0 else (i 1).val; rw [if_neg (by decide)])).trans ?_
  refine (shapeCast_apply _ hc (ix1 (i 1)) (ix2 (0 : Fin 1) (i 1)) ?_).trans ?_
  · rewrite [Shape.rowMajor_val_two, Shape.rowMajor_val_one]
    show 0 * 512 + (i 1).val = (i 1).val
    omega
  · exact extractStridedSlice_apply ![n.val, 0] y h _ (ix2 n (i 1)) (fun d => match d with
      | ⟨0, _⟩ => by show n.val = n.val + 0; omega
      | ⟨1, _⟩ => by show (i 1).val = 0 + (i 1).val; omega)

/-- The table flattened to 240 rows: row `15 t + n` is node `n` of tree `t`. -/
theorem flat_apply (h : Tbl.ShapeCasts Flat) (a : Tbl.Idx → α) (t : Fin 16) (n : Fin 15) (c : Fin 512) (r : Fin 240)
    (hr : r.val = 15 * t.val + n.val) : shapeCast Flat a h (ix2 r c) = a (ix3 t n c) := by
  refine shapeCast_apply a h (ix2 r c) (ix3 t n c) ?_
  rewrite [Shape.rowMajor_val_three, Shape.rowMajor_val_two]
  show (t.val * 15 + n.val) * 512 + c.val = r.val * 512 + c.val
  omega

end LibForestRows
-- ==== Proof.Spec.lean ====
/-
  The function both programs compute, entry by entry.

  For a column c let M(c) be the forest's value over the table alone: the largest, over the 16 trees, of the
  root of the tree whose every node is worth the larger child plus its own weight alphas[t, n, c] (a leaf: its
  own weight).  Then

      kernelForm x alphas (r, c)    = max (x(r,c)) 0 * exp M(c) + (exp M(c) - 1)
      referenceForm x alphas (r, c) = exp (F(r,c)) - 1

  where F(r,c) is the same forest with log (1 + max (x(r,c)) 0) added to every leaf's weight.  The two agree
  when every entry of x and of alphas is a real number: adding s to every leaf adds s to the forest (no
  finiteness needed), and exp (log (1 + r) + M) - 1 = r * exp M + (exp M - 1) for real r ≥ 0 and real M.
-/
import proofs.«155760_g3719441679094_cont_8to1_b_551_25_alg».proof.Proof.LibMaxPlusHeap
import proofs.«155760_g3719441679094_cont_8to1_b_551_25_alg».proof.Proof.LibExpShift
import proofs.«155760_g3719441679094_cont_8to1_b_551_25_alg».proof.Proof.LibForestRows
import Idealize.ShloMosaic.Lib.ValueIdx

noncomputable section

namespace Cert.Spec

open Idealize.ShloMosaic Idealize.ShloMosaic.ValueIdx LibMaxPlusHeap LibForestRows

/-- The forest's value over the table alone, in column `c`. -/
def colMax (a : Tbl.Idx → EReal) (c : Fin 512) : EReal := forestMax fun t n => a (ix3 t n c)

/-- The kernel's arrangement. -/
def kernelForm (x : Big.Idx → EReal) (a : Tbl.Idx → EReal) : Big.Idx → EReal := fun i =>
  max (x i) 0 * Ideal.exp (colMax a (i 1)) + (Ideal.exp (colMax a (i 1)) - 1)

/-- The reference's arrangement. -/
def referenceForm (x : Big.Idx → EReal) (a : Tbl.Idx → EReal) : Big.Idx → EReal := fun i =>
  Ideal.exp (forestShifted (Ideal.log1p (max (x i) 0)) fun t n => a (ix3 t n (i 1))) - 1

/-- The two arrangements agree on real entries. -/
theorem referenceForm_eq_kernelForm (x : Big.Idx → EReal) (a : Tbl.Idx → EReal)
    (hx : ∀ i, ∃ r : ℝ, x i = (r : EReal)) (ha : ∀ j, ∃ r : ℝ, a j = (r : EReal)) :
    referenceForm x a = kernelForm x a := by
  funext i
  obtain ⟨xr, hxr⟩ := hx i
  choose ar har using ha
  have hM : colMax a (i 1) = ((forestMax fun t n => ar (ix3 t n (i 1)) : ℝ) : EReal) := by
    unfold colMax
    simp only [har]
    exact forestMax_coe _
  unfold referenceForm kernelForm
  rw [forestShifted_eq]
  change Ideal.exp (Ideal.log1p (max (x i) 0) + colMax a (i 1)) - 1 = _
  rw [hM, hxr, LibExpShift.max_coe_zero]
  exact LibExpShift.expm1_log1p_add _ _ (le_max_right _ _)

end Cert.Spec

end
-- ==== Proof.RefTree.lean ====
/-
  One tree of the reference as a function of two arrays.

  xv is the 10000 x 512 array log (1 + max x 0); y is one tree's 15 x 512 slab of the parameter table.  Row n
  of the slab, copied into every one of the 10000 rows, is that node's weight at every entry.  A leaf n (7..14) is
  xv plus its row; an inner node n is the entrywise larger of its two children 2n+1, 2n+2 plus its row; the tree is
  node 0.  Read at the entry (r, c) this is the 15-node heap over the column y(., c) whose leaves carry
  xv(r, c) + y(n, c) and whose inner nodes carry y(n, c).
-/
import proofs.«155760_g3719441679094_cont_8to1_b_551_25_alg».proof.Proof.Gen.ReferenceIdeal
import proofs.«155760_g3719441679094_cont_8to1_b_551_25_alg».proof.Proof.LibMaxPlusHeap
import proofs.«155760_g3719441679094_cont_8to1_b_551_25_alg».proof.Proof.LibForestRows
import Idealize.ShloMosaic.Lib.ValueIdx
import Idealize.ShloMosaic.PureOps.Ideal.Laws

noncomputable section

namespace Cert.ReferenceIdeal.Tree

open Cert.ReferenceIdeal Cert.ReferenceIdeal.Gen Idealize.ShloMosaic Idealize.ShloMosaic.ValueIdx LibMaxPlusHeap

variable {F : FTy → Type} [FloatOps F]

/-- A 10000 x 512 array, a 15 x 512 slab, the 16 x 15 x 512 table. -/
abbrev Mat (F : FTy → Type) : Type := (⟨S10000x512, .f32⟩ : BufTy).Contents (Elt F)
abbrev SlabT (F : FTy → Type) : Type := (⟨S15x512, .f32⟩ : BufTy).Contents (Elt F)
abbrev TblT (F : FTy → Type) : Type := (⟨S16x15x512, .f32⟩ : BufTy).Contents (Elt F)

/-- Row `n` of the slab at every one of the 10000 rows. -/
def row (n : Fin 15) (h : S15x512.Slices ![n.val, 0] S1x512) (y : SlabT F) : Mat F :=
  LibForestRows.spread n h shapeCasts_S1x512_S512 bcast_S512_S1x512_1 bcast_S1x512_S10000x512_0_1 y

/-- A leaf: xv plus the node's row. -/
def leaf (xv : Mat F) (y : SlabT F) (n : Fin 15) (h : S15x512.Slices ![n.val, 0] S1x512) : Mat F :=
  addf xv (row n h y)

/-- An inner node: the larger child plus the node's row. -/
def inner (l r : Mat F) (y : SlabT F) (n : Fin 15) (h : S15x512.Slices ![n.val, 0] S1x512) : Mat F :=
  addf (maximumf l r) (row n h y)

/-- The tree: node 0 over nodes 1, 2 over nodes 3..6 over the leaves 7..14. -/
def treeOps (xv : Mat F) (y : SlabT F) : Mat F :=
  inner
    (inner (inner (leaf xv y 7 slices_S15x512_S1x512_7_0) (leaf xv y 8 slices_S15x512_S1x512_8_0) y 3 slices_S15x512_S1x512_3_0)
           (inner (leaf xv y 9 slices_S15x512_S1x512_9_0) (leaf xv y 10 slices_S15x512_S1x512_10_0) y 4 slices_S15x512_S1x512_4_0) y 1 slices_S15x512_S1x512_1_0)
    (inner (inner (leaf xv y 11 slices_S15x512_S1x512_11_0) (leaf xv y 12 slices_S15x512_S1x512_12_0) y 5 slices_S15x512_S1x512_5_0)
           (inner (leaf xv y 13 slices_S15x512_S1x512_13_0) (leaf xv y 14 slices_S15x512_S1x512_14_0) y 6 slices_S15x512_S1x512_6_0) y 2 slices_S15x512_S1x512_2_0)
    y 0 slices_S15x512_S1x512_0_0

/-- The slab of tree `t` of the table. -/
def slabOf (t : Fin 16) (h : S16x15x512.Slices ![t.val, 0, 0] S1x15x512) (a : TblT F) : SlabT F :=
  LibForestRows.slab t h shapeCasts_S1x15x512_S15x512 a

theorem slabOf_apply (t : Fin 16) (h : S16x15x512.Slices ![t.val, 0, 0] S1x15x512) (a : TblT F) (n : Fin 15) (c : Fin 512) :
    slabOf t h a (ix2 n c) = a (ix3 t n c) :=
  LibForestRows.slab_apply t h _ a n c

/-- The tree at an entry, over the extended reals. -/
theorem treeOps_apply (xv : Mat Ideal) (y : SlabT Ideal) (i : S10000x512.Idx) :
    treeOps xv y i = heap15 (fun n => xv i + y (ix2 n (i 1))) (fun n => y (ix2 n (i 1))) := by
  simp only [treeOps, inner, leaf, row, addf_apply, maximumf_apply, LibForestRows.spread_apply, heap15, node]

end Cert.ReferenceIdeal.Tree

end
-- ==== Proof.LibHostLines.lean ====
/-
  Straight lines of host operations put together from pieces.

  A host program printed in several windows, or one that calls module-local functions, is run as ONE line: the
  concatenation of the windows' lines and, at each call, of the called function's line.  The side conditions of the
  library's run theorem for a line (`StableHlo.run_seq`: every operation names TensorCore buffers only, every
  operation determines its results) and the list of buffers a line writes are then wanted for a concatenation, given
  them for the pieces.  This module has those three facts for `++`, for any topology, signature and element values,
  and nothing about any particular program.  (The run itself needs `StableHlo.seq_append`, which the library has.)
-/
import Idealize.ShloMosaic.Lib.StableHlo.Run

namespace HostLines

open Idealize.ShloMosaic Idealize.ShloMosaic.StableHlo

variable {τ : Topo} {sig : RefSig} {Val : EltTy → Type}

/-- A property of every operation of two lines holds of every operation of their concatenation
    (in the `List.Forall` form `StableHlo.run_seq` takes its buffer condition in). -/
theorem forall_append {p : HloOp τ sig Val → Prop} {l₁ l₂ : List (HloOp τ sig Val)}
    (h₁ : l₁.Forall p) (h₂ : l₂.Forall p) : (l₁ ++ l₂).Forall p := by
  rw [List.forall_iff_forall_mem] at h₁ h₂ ⊢
  intro x hx
  rcases List.mem_append.1 hx with h | h
  · exact h₁ x h
  · exact h₂ x h

/-- The same in membership form (the form `StableHlo.run_seq` takes "every operation determines its results" in). -/
theorem mem_append {p : HloOp τ sig Val → Prop} {l₁ l₂ : List (HloOp τ sig Val)}
    (h₁ : ∀ op ∈ l₁, p op) (h₂ : ∀ op ∈ l₂, p op) : ∀ op ∈ l₁ ++ l₂, p op := by
  intro x hx
  rcases List.mem_append.1 hx with h | h
  · exact h₁ x h
  · exact h₂ x h

/-- Every operation of a LITERAL line determines its results: checked element by element
    (the check `StableHlo.run_seq` makes by default, usable piece by piece). -/
macro "fresh_line" : tactic =>
  `(tactic| (intro _ h; (repeat (cases h with | head => rfl | tail _ h => ?_)); exact nomatch h))

/-- The operation writes only buffers of the list `W` of TensorCore references. -/
def WritesIn (W : List (Ref sig .tc)) (op : HloOp τ sig Val) : Prop :=
  op.writes ⊆ (W.map (Proc.devRef (τ := τ) .tc)).toFinset

/-- Writing within a list is writing within any list that holds it. -/
theorem writesIn_mono {W W' : List (Ref sig .tc)} (h : W ⊆ W') {op : HloOp τ sig Val} (hop : WritesIn W op) :
    WritesIn W' op := fun b hb => by
  obtain ⟨y, hy, he⟩ := List.mem_map.mp (List.mem_toFinset.mp (hop hb))
  exact List.mem_toFinset.mpr (List.mem_map.mpr ⟨y, h hy, he⟩)

/-- Two lines writing within two lists: their concatenation writes within the concatenated list. -/
theorem writesIn_append {l₁ l₂ : List (HloOp τ sig Val)} {W₁ W₂ : List (Ref sig .tc)}
    (h₁ : l₁.Forall (WritesIn W₁)) (h₂ : l₂.Forall (WritesIn W₂)) : (l₁ ++ l₂).Forall (WritesIn (W₁ ++ W₂)) := by
  rw [List.forall_iff_forall_mem] at h₁ h₂ ⊢
  intro x hx
  rcases List.mem_append.1 hx with h | h
  · exact writesIn_mono (List.subset_append_left _ _) (h₁ x h)
  · exact writesIn_mono (List.subset_append_right _ _) (h₂ x h)

/-- A reference outside the list a line writes within keeps its contents through the line
    (whether a reference is in a literal list is decided over references, in one pass). -/
theorem keeps {W : List (Ref sig .tc)} {r : Ref sig .tc} (ops : List (HloOp τ sig Val)) (V : Valuation τ sig Val)
    (hW : ops.Forall (WritesIn W)) (hr : r ∉ W) : after ops V (Proc.devRef .tc r) = V (Proc.devRef .tc r) :=
  after_of_writes_sub ops V hW hr

end HostLines
-- ==== Proof.LibHostRead.lean ====
/-
  Reading a buffer after a line of host operations.

  `StableHlo.after ops V b` is what buffer b holds once the operations have run in order from contents V: the last
  operation that writes b applied to what its operands held then, and so on back to V.  The tactic below computes
  that term for a literal list of operations.  It first runs the library's one-pass simplification; a read that ends
  up inside the operand list of a concatenate is not reached by it, so the library's rewriting loop goes on from
  there; operations of an inlined call carry their values through casts along an equation between a buffer's type and
  itself, which are then removed.  What is left is an equation between terms of the pure operations.
-/
import Idealize.ShloMosaic.Lib.StableHlo.Run

namespace Cert.HostRead

open Idealize.ShloMosaic Idealize.ShloMosaic.StableHlo

/-- Running one line of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Computes `StableHlo.after ops V b` for a literal list `ops` down to the pure operations over `V`. -/
macro "read_after" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [TRef.toBuf, TRef.ofBuf]
             repeat rw [cast_eq]))

end Cert.HostRead
-- ==== Proof.RefRun.lean ====
/-
  The reference's run, piece by piece.

  @main is one straight line of 1364 host operations.  It is run as the concatenation of 18 pieces: a head
  (max x 0, then xv = log (1 + .)), one piece per tree, and the final exp (.) - 1.  The piece of tree t reads
  only xv, the table and the running maximum the trees before it left, and leaves the new running maximum:
      after tree 0:  the tree over slab 0;      after tree t:  max (what was there) (the tree over slab t);
  every piece leaves xv and both arguments as they were.  Chaining the pieces, the result is
      exp (max (... max (tree 0) (tree 1) ...) (tree 15)) - 1      entry by entry,
  which read at an entry is the reference's arrangement of the specification.
-/
import proofs.«155760_g3719441679094_cont_8to1_b_551_25_alg».proof.Proof.RefRunFacts
import proofs.«155760_g3719441679094_cont_8to1_b_551_25_alg».proof.Proof.RefTree
import proofs.«155760_g3719441679094_cont_8to1_b_551_25_alg».proof.Proof.LibHostLines
import proofs.«155760_g3719441679094_cont_8to1_b_551_25_alg».proof.Proof.LibHostRead
import proofs.«155760_g3719441679094_cont_8to1_b_551_25_alg».proof.Proof.Spec

noncomputable section

namespace Cert.ReferenceIdeal.RRun

open Cert.ReferenceIdeal Cert.ReferenceIdeal.Gen Cert.ReferenceIdeal.RunP Cert.ReferenceIdeal.Tree
open Idealize.ShloMosaic Idealize.ShloMosaic.TcCoe Idealize.SL.Sem Idealize.ShloMosaic.StableHlo Idealize.ShloMosaic.ValueIdx
open HostLines Cert.HostRead LibMaxPlusHeap

variable {F : FTy → Type} [FloatOps F]

/-! ## The whole line: its side conditions and its run -/

theorem ops_sub : (ops : List (HloOp τ sig (Elt F))).Forall fun op => op.bufs ⊆ tcRefs τ sig :=
  forall_append opsHead_sub (forall_append opsTree0_sub (forall_append opsTree1_sub (forall_append opsTree2_sub (forall_append opsTree3_sub (forall_append opsTree4_sub (forall_append opsTree5_sub (forall_append opsTree6_sub (forall_append opsTree7_sub (forall_append opsTree8_sub (forall_append opsTree9_sub (forall_append opsTree10_sub (forall_append opsTree11_sub (forall_append opsTree12_sub (forall_append opsTree13_sub (forall_append opsTree14_sub (forall_append opsTree15_sub (opsTail_sub)))))))))))))))))

theorem ops_fresh : ∀ op ∈ (ops : List (HloOp τ sig (Elt F))), op.fresh = ∅ :=
  mem_append (l₁ := opsHead) (by fresh_line) (mem_append (l₁ := opsTree0) (by fresh_line) (mem_append (l₁ := opsTree1) (by fresh_line) (mem_append (l₁ := opsTree2) (by fresh_line) (mem_append (l₁ := opsTree3) (by fresh_line) (mem_append (l₁ := opsTree4) (by fresh_line) (mem_append (l₁ := opsTree5) (by fresh_line) (mem_append (l₁ := opsTree6) (by fresh_line) (mem_append (l₁ := opsTree7) (by fresh_line) (mem_append (l₁ := opsTree8) (by fresh_line) (mem_append (l₁ := opsTree9) (by fresh_line) (mem_append (l₁ := opsTree10) (by fresh_line) (mem_append (l₁ := opsTree11) (by fresh_line) (mem_append (l₁ := opsTree12) (by fresh_line) (mem_append (l₁ := opsTree13) (by fresh_line) (mem_append (l₁ := opsTree14) (by fresh_line) (mem_append (l₁ := opsTree15) (by fresh_line) ((by fresh_line : ∀ op ∈ (opsTail : List (HloOp τ sig (Elt F))), op.fresh = ∅))))))))))))))))))

/-- Every weakly fair execution of @main terminates, with every buffer at what the line leaves in it. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The head and the tail -/

/-- xv = log (1 + max x 0). -/
def xvOf (x : Mat F) : Mat F :=
  Host.log1p (maximumf x (broadcastInDim S10000x512 ![] bcast_S_S10000x512 (constant S_ .f32 0x00000000#32)))

variable (W : Valuation τ sig (Elt F))

theorem head_xv : after opsHead W (Proc.devRef .tc main_v1) = xvOf (W (Proc.devRef .tc main_arg0)) := by
  read_after <;> rfl
theorem head_arg0 : after opsHead W (Proc.devRef .tc main_arg0) = W (Proc.devRef .tc main_arg0) := by
  read_after <;> rfl
theorem head_arg1 : after opsHead W (Proc.devRef .tc main_arg1) = W (Proc.devRef .tc main_arg1) := by
  read_after <;> rfl

theorem tail_out : after opsTail W (Proc.devRef .tc main_v1361) = Host.expm1 (W (Proc.devRef .tc main_v1360)) := by
  after_results_simp <;> rfl
theorem tail_arg0 : after opsTail W (Proc.devRef .tc main_arg0) = W (Proc.devRef .tc main_arg0) := by
  after_results_simp <;> rfl
theorem tail_arg1 : after opsTail W (Proc.devRef .tc main_arg1) = W (Proc.devRef .tc main_arg1) := by
  after_results_simp <;> rfl

/-! ## The trees -/

set_option maxHeartbeats 40000000 in
theorem tree0_out : after opsTree0 W (Proc.devRef .tc main_v85) = treeOps (W (Proc.devRef .tc main_v1)) (slabOf 0 slices_S16x15x512_S1x15x512_0_0_0 (W (Proc.devRef .tc main_arg1))) := by
  after_results_simp <;> rfl
theorem tree0_xv : after opsTree0 W (Proc.devRef .tc main_v1) = W (Proc.devRef .tc main_v1) := by
  after_results_simp <;> rfl
theorem tree0_arg0 : after opsTree0 W (Proc.devRef .tc main_arg0) = W (Proc.devRef .tc main_arg0) := by
  after_results_simp <;> rfl
theorem tree0_arg1 : after opsTree0 W (Proc.devRef .tc main_arg1) = W (Proc.devRef .tc main_arg1) := by
  after_results_simp <;> rfl

set_option maxHeartbeats 40000000 in
theorem tree1_out : after opsTree1 W (Proc.devRef .tc main_v170) = maximumf (W (Proc.devRef .tc main_v85)) (treeOps (W (Proc.devRef .tc main_v1)) (slabOf 1 slices_S16x15x512_S1x15x512_1_0_0 (W (Proc.devRef .tc main_arg1)))) := by
  after_results_simp <;> rfl
theorem tree1_xv : after opsTree1 W (Proc.devRef .tc main_v1) = W (Proc.devRef .tc main_v1) := by
  after_results_simp <;> rfl
theorem tree1_arg0 : after opsTree1 W (Proc.devRef .tc main_arg0) = W (Proc.devRef .tc main_arg0) := by
  after_results_simp <;> rfl
theorem tree1_arg1 : after opsTree1 W (Proc.devRef .tc main_arg1) = W (Proc.devRef .tc main_arg1) := by
  after_results_simp <;> rfl

set_option maxHeartbeats 40000000 in
theorem tree2_out : after opsTree2 W (Proc.devRef .tc main_v255) = maximumf (W (Proc.devRef .tc main_v170)) (treeOps (W (Proc.devRef .tc main_v1)) (slabOf 2 slices_S16x15x512_S1x15x512_2_0_0 (W (Proc.devRef .tc main_arg1)))) := by
  after_results_simp <;> rfl
theorem tree2_xv : after opsTree2 W (Proc.devRef .tc main_v1) = W (Proc.devRef .tc main_v1) := by
  after_results_simp <;> rfl
theorem tree2_arg0 : after opsTree2 W (Proc.devRef .tc main_arg0) = W (Proc.devRef .tc main_arg0) := by
  after_results_simp <;> rfl
theorem tree2_arg1 : after opsTree2 W (Proc.devRef .tc main_arg1) = W (Proc.devRef .tc main_arg1) := by
  after_results_simp <;> rfl

set_option maxHeartbeats 40000000 in
theorem tree3_out : after opsTree3 W (Proc.devRef .tc main_v340) = maximumf (W (Proc.devRef .tc main_v255)) (treeOps (W (Proc.devRef .tc main_v1)) (slabOf 3 slices_S16x15x512_S1x15x512_3_0_0 (W (Proc.devRef .tc main_arg1)))) := by
  after_results_simp <;> rfl
theorem tree3_xv : after opsTree3 W (Proc.devRef .tc main_v1) = W (Proc.devRef .tc main_v1) := by
  after_results_simp <;> rfl
theorem tree3_arg0 : after opsTree3 W (Proc.devRef .tc main_arg0) = W (Proc.devRef .tc main_arg0) := by
  after_results_simp <;> rfl
theorem tree3_arg1 : after opsTree3 W (Proc.devRef .tc main_arg1) = W (Proc.devRef .tc main_arg1) := by
  after_results_simp <;> rfl

set_option maxHeartbeats 40000000 in
theorem tree4_out : after opsTree4 W (Proc.devRef .tc main_v425) = maximumf (W (Proc.devRef .tc main_v340)) (treeOps (W (Proc.devRef .tc main_v1)) (slabOf 4 slices_S16x15x512_S1x15x512_4_0_0 (W (Proc.devRef .tc main_arg1)))) := by
  after_results_simp <;> rfl
theorem tree4_xv : after opsTree4 W (Proc.devRef .tc main_v1) = W (Proc.devRef .tc main_v1) := by
  after_results_simp <;> rfl
theorem tree4_arg0 : after opsTree4 W (Proc.devRef .tc main_arg0) = W (Proc.devRef .tc main_arg0) := by
  after_results_simp <;> rfl
theorem tree4_arg1 : after opsTree4 W (Proc.devRef .tc main_arg1) = W (Proc.devRef .tc main_arg1) := by
  after_results_simp <;> rfl

set_option maxHeartbeats 40000000 in
theorem tree5_out : after opsTree5 W (Proc.devRef .tc main_v510) = maximumf (W (Proc.devRef .tc main_v425)) (treeOps (W (Proc.devRef .tc main_v1)) (slabOf 5 slices_S16x15x512_S1x15x512_5_0_0 (W (Proc.devRef .tc main_arg1)))) := by
  after_results_simp <;> rfl
theorem tree5_xv : after opsTree5 W (Proc.devRef .tc main_v1) = W (Proc.devRef .tc main_v1) := by
  after_results_simp <;> rfl
theorem tree5_arg0 : after opsTree5 W (Proc.devRef .tc main_arg0) = W (Proc.devRef .tc main_arg0) := by
  after_results_simp <;> rfl
theorem tree5_arg1 : after opsTree5 W (Proc.devRef .tc main_arg1) = W (Proc.devRef .tc main_arg1) := by
  after_results_simp <;> rfl

set_option maxHeartbeats 40000000 in
theorem tree6_out : after opsTree6 W (Proc.devRef .tc main_v595) = maximumf (W (Proc.devRef .tc main_v510)) (treeOps (W (Proc.devRef .tc main_v1)) (slabOf 6 slices_S16x15x512_S1x15x512_6_0_0 (W (Proc.devRef .tc main_arg1)))) := by
  after_results_simp <;> rfl
theorem tree6_xv : after opsTree6 W (Proc.devRef .tc main_v1) = W (Proc.devRef .tc main_v1) := by
  after_results_simp <;> rfl
theorem tree6_arg0 : after opsTree6 W (Proc.devRef .tc main_arg0) = W (Proc.devRef .tc main_arg0) := by
  after_results_simp <;> rfl
theorem tree6_arg1 : after opsTree6 W (Proc.devRef .tc main_arg1) = W (Proc.devRef .tc main_arg1) := by
  after_results_simp <;> rfl

set_option maxHeartbeats 40000000 in
theorem tree7_out : after opsTree7 W (Proc.devRef .tc main_v680) = maximumf (W (Proc.devRef .tc main_v595)) (treeOps (W (Proc.devRef .tc main_v1)) (slabOf 7 slices_S16x15x512_S1x15x512_7_0_0 (W (Proc.devRef .tc main_arg1)))) := by
  after_results_simp <;> rfl
theorem tree7_xv : after opsTree7 W (Proc.devRef .tc main_v1) = W (Proc.devRef .tc main_v1) := by
  after_results_simp <;> rfl
theorem tree7_arg0 : after opsTree7 W (Proc.devRef .tc main_arg0) = W (Proc.devRef .tc main_arg0) := by
  after_results_simp <;> rfl
theorem tree7_arg1 : after opsTree7 W (Proc.devRef .tc main_arg1) = W (Proc.devRef .tc main_arg1) := by
  after_results_simp <;> rfl

set_option maxHeartbeats 40000000 in
theorem tree8_out : after opsTree8 W (Proc.devRef .tc main_v765) = maximumf (W (Proc.devRef .tc main_v680)) (treeOps (W (Proc.devRef .tc main_v1)) (slabOf 8 slices_S16x15x512_S1x15x512_8_0_0 (W (Proc.devRef .tc main_arg1)))) := by
  after_results_simp <;> rfl
theorem tree8_xv : after opsTree8 W (Proc.devRef .tc main_v1) = W (Proc.devRef .tc main_v1) := by
  after_results_simp <;> rfl
theorem tree8_arg0 : after opsTree8 W (Proc.devRef .tc main_arg0) = W (Proc.devRef .tc main_arg0) := by
  after_results_simp <;> rfl
theorem tree8_arg1 : after opsTree8 W (Proc.devRef .tc main_arg1) = W (Proc.devRef .tc main_arg1) := by
  after_results_simp <;> rfl

set_option maxHeartbeats 40000000 in
theorem tree9_out : after opsTree9 W (Proc.devRef .tc main_v850) = maximumf (W (Proc.devRef .tc main_v765)) (treeOps (W (Proc.devRef .tc main_v1)) (slabOf 9 slices_S16x15x512_S1x15x512_9_0_0 (W (Proc.devRef .tc main_arg1)))) := by
  after_results_simp <;> rfl
theorem tree9_xv : after opsTree9 W (Proc.devRef .tc main_v1) = W (Proc.devRef .tc main_v1) := by
  after_results_simp <;> rfl
theorem tree9_arg0 : after opsTree9 W (Proc.devRef .tc main_arg0) = W (Proc.devRef .tc main_arg0) := by
  after_results_simp <;> rfl
theorem tree9_arg1 : after opsTree9 W (Proc.devRef .tc main_arg1) = W (Proc.devRef .tc main_arg1) := by
  after_results_simp <;> rfl

set_option maxHeartbeats 40000000 in
theorem tree10_out : after opsTree10 W (Proc.devRef .tc main_v935) = maximumf (W (Proc.devRef .tc main_v850)) (treeOps (W (Proc.devRef .tc main_v1)) (slabOf 10 slices_S16x15x512_S1x15x512_10_0_0 (W (Proc.devRef .tc main_arg1)))) := by
  after_results_simp <;> rfl
theorem tree10_xv : after opsTree10 W (Proc.devRef .tc main_v1) = W (Proc.devRef .tc main_v1) := by
  after_results_simp <;> rfl
theorem tree10_arg0 : after opsTree10 W (Proc.devRef .tc main_arg0) = W (Proc.devRef .tc main_arg0) := by
  after_results_simp <;> rfl
theorem tree10_arg1 : after opsTree10 W (Proc.devRef .tc main_arg1) = W (Proc.devRef .tc main_arg1) := by
  after_results_simp <;> rfl

set_option maxHeartbeats 40000000 in
theorem tree11_out : after opsTree11 W (Proc.devRef .tc main_v1020) = maximumf (W (Proc.devRef .tc main_v935)) (treeOps (W (Proc.devRef .tc main_v1)) (slabOf 11 slices_S16x15x512_S1x15x512_11_0_0 (W (Proc.devRef .tc main_arg1)))) := by
  after_results_simp <;> rfl
theorem tree11_xv : after opsTree11 W (Proc.devRef .tc main_v1) = W (Proc.devRef .tc main_v1) := by
  after_results_simp <;> rfl
theorem tree11_arg0 : after opsTree11 W (Proc.devRef .tc main_arg0) = W (Proc.devRef .tc main_arg0) := by
  after_results_simp <;> rfl
theorem tree11_arg1 : after opsTree11 W (Proc.devRef .tc main_arg1) = W (Proc.devRef .tc main_arg1) := by
  after_results_simp <;> rfl

set_option maxHeartbeats 40000000 in
theorem tree12_out : after opsTree12 W (Proc.devRef .tc main_v1105) = maximumf (W (Proc.devRef .tc main_v1020)) (treeOps (W (Proc.devRef .tc main_v1)) (slabOf 12 slices_S16x15x512_S1x15x512_12_0_0 (W (Proc.devRef .tc main_arg1)))) := by
  after_results_simp <;> rfl
theorem tree12_xv : after opsTree12 W (Proc.devRef .tc main_v1) = W (Proc.devRef .tc main_v1) := by
  after_results_simp <;> rfl
theorem tree12_arg0 : after opsTree12 W (Proc.devRef .tc main_arg0) = W (Proc.devRef .tc main_arg0) := by
  after_results_simp <;> rfl
theorem tree12_arg1 : after opsTree12 W (Proc.devRef .tc main_arg1) = W (Proc.devRef .tc main_arg1) := by
  after_results_simp <;> rfl

set_option maxHeartbeats 40000000 in
theorem tree13_out : after opsTree13 W (Proc.devRef .tc main_v1190) = maximumf (W (Proc.devRef .tc main_v1105)) (treeOps (W (Proc.devRef .tc main_v1)) (slabOf 13 slices_S16x15x512_S1x15x512_13_0_0 (W (Proc.devRef .tc main_arg1)))) := by
  after_results_simp <;> rfl
theorem tree13_xv : after opsTree13 W (Proc.devRef .tc main_v1) = W (Proc.devRef .tc main_v1) := by
  after_results_simp <;> rfl
theorem tree13_arg0 : after opsTree13 W (Proc.devRef .tc main_arg0) = W (Proc.devRef .tc main_arg0) := by
  after_results_simp <;> rfl
theorem tree13_arg1 : after opsTree13 W (Proc.devRef .tc main_arg1) = W (Proc.devRef .tc main_arg1) := by
  after_results_simp <;> rfl

set_option maxHeartbeats 40000000 in
theorem tree14_out : after opsTree14 W (Proc.devRef .tc main_v1275) = maximumf (W (Proc.devRef .tc main_v1190)) (treeOps (W (Proc.devRef .tc main_v1)) (slabOf 14 slices_S16x15x512_S1x15x512_14_0_0 (W (Proc.devRef .tc main_arg1)))) := by
  after_results_simp <;> rfl
theorem tree14_xv : after opsTree14 W (Proc.devRef .tc main_v1) = W (Proc.devRef .tc main_v1) := by
  after_results_simp <;> rfl
theorem tree14_arg0 : after opsTree14 W (Proc.devRef .tc main_arg0) = W (Proc.devRef .tc main_arg0) := by
  after_results_simp <;> rfl
theorem tree14_arg1 : after opsTree14 W (Proc.devRef .tc main_arg1) = W (Proc.devRef .tc main_arg1) := by
  after_results_simp <;> rfl

set_option maxHeartbeats 40000000 in
theorem tree15_out : after opsTree15 W (Proc.devRef .tc main_v1360) = maximumf (W (Proc.devRef .tc main_v1275)) (treeOps (W (Proc.devRef .tc main_v1)) (slabOf 15 slices_S16x15x512_S1x15x512_15_0_0 (W (Proc.devRef .tc main_arg1)))) := by
  after_results_simp <;> rfl
theorem tree15_xv : after opsTree15 W (Proc.devRef .tc main_v1) = W (Proc.devRef .tc main_v1) := by
  after_results_simp <;> rfl
theorem tree15_arg0 : after opsTree15 W (Proc.devRef .tc main_arg0) = W (Proc.devRef .tc main_arg0) := by
  after_results_simp <;> rfl
theorem tree15_arg1 : after opsTree15 W (Proc.devRef .tc main_arg1) = W (Proc.devRef .tc main_arg1) := by
  after_results_simp <;> rfl

end Cert.ReferenceIdeal.RRun

end
-- ==== Proof.RefValue.lean ====
/-
  The reference's result as one function of its arguments.

  Chaining the pieces: the result buffer holds exp (max over the 16 trees, taken from the left) - 1 of
  xv = log (1 + max x 0) and the table, and both arguments are as launched.  Read at the entry (r, c), tree t is
  the 15-node heap whose leaves carry xv(r,c) + alphas(t,n,c) and whose inner nodes carry alphas(t,n,c), so the
  result is the reference's arrangement of the specification.
-/
import proofs.«155760_g3719441679094_cont_8to1_b_551_25_alg».proof.Proof.RefRun

noncomputable section

namespace Cert.ReferenceIdeal.RValue

open Cert.ReferenceIdeal Cert.ReferenceIdeal.Gen Cert.ReferenceIdeal.RunP Cert.ReferenceIdeal.Tree Cert.ReferenceIdeal.RRun
open Idealize.ShloMosaic Idealize.ShloMosaic.TcCoe Idealize.SL.Sem Idealize.ShloMosaic.StableHlo Idealize.ShloMosaic.ValueIdx
open Cert.HostRead LibMaxPlusHeap

variable {F : FTy → Type} [FloatOps F]

/-- The 16 trees, the entrywise maximum taken from the left. -/
def forestOps (xv : Mat F) (a : TblT F) : Mat F :=
  (maximumf (maximumf (maximumf (maximumf (maximumf (maximumf (maximumf (maximumf (maximumf (maximumf (maximumf (maximumf (maximumf (maximumf (maximumf (treeOps xv (slabOf 0 slices_S16x15x512_S1x15x512_0_0_0 a))
      (treeOps xv (slabOf 1 slices_S16x15x512_S1x15x512_1_0_0 a)))
      (treeOps xv (slabOf 2 slices_S16x15x512_S1x15x512_2_0_0 a)))
      (treeOps xv (slabOf 3 slices_S16x15x512_S1x15x512_3_0_0 a)))
      (treeOps xv (slabOf 4 slices_S16x15x512_S1x15x512_4_0_0 a)))
      (treeOps xv (slabOf 5 slices_S16x15x512_S1x15x512_5_0_0 a)))
      (treeOps xv (slabOf 6 slices_S16x15x512_S1x15x512_6_0_0 a)))
      (treeOps xv (slabOf 7 slices_S16x15x512_S1x15x512_7_0_0 a)))
      (treeOps xv (slabOf 8 slices_S16x15x512_S1x15x512_8_0_0 a)))
      (treeOps xv (slabOf 9 slices_S16x15x512_S1x15x512_9_0_0 a)))
      (treeOps xv (slabOf 10 slices_S16x15x512_S1x15x512_10_0_0 a)))
      (treeOps xv (slabOf 11 slices_S16x15x512_S1x15x512_11_0_0 a)))
      (treeOps xv (slabOf 12 slices_S16x15x512_S1x15x512_12_0_0 a)))
      (treeOps xv (slabOf 13 slices_S16x15x512_S1x15x512_13_0_0 a)))
      (treeOps xv (slabOf 14 slices_S16x15x512_S1x15x512_14_0_0 a)))
      (treeOps xv (slabOf 15 slices_S16x15x512_S1x15x512_15_0_0 a)))

/-- What the line leaves in the result buffer. -/
theorem result_eq (V : Valuation τ sig (Elt F)) :
    after ops V (Proc.devRef .tc main_v1361) = Host.expm1 (forestOps (xvOf (V (Proc.devRef .tc main_arg0))) (V (Proc.devRef .tc main_arg1))) := by
  simp only [Cert.HostRead.after_append]
  rw [tail_out, tree15_out, tree14_out, tree14_xv, tree14_arg1, tree13_out, tree13_xv, tree13_arg1, tree12_out, tree12_xv, tree12_arg1, tree11_out, tree11_xv, tree11_arg1, tree10_out, tree10_xv, tree10_arg1, tree9_out, tree9_xv, tree9_arg1, tree8_out, tree8_xv, tree8_arg1, tree7_out, tree7_xv, tree7_arg1, tree6_out, tree6_xv, tree6_arg1, tree5_out, tree5_xv, tree5_arg1, tree4_out, tree4_xv, tree4_arg1, tree3_out, tree3_xv, tree3_arg1, tree2_out, tree2_xv, tree2_arg1, tree1_out, tree1_xv, tree1_arg1, tree0_out, tree0_xv, tree0_arg1, head_xv, head_arg1]
  rfl

/-- The line leaves both arguments as they were. -/
theorem kept_arg0 (V : Valuation τ sig (Elt F)) : after ops V (Proc.devRef .tc main_arg0) = V (Proc.devRef .tc main_arg0) := by
  simp only [Cert.HostRead.after_append]
  rw [tail_arg0, tree15_arg0, tree14_arg0, tree13_arg0, tree12_arg0, tree11_arg0, tree10_arg0, tree9_arg0, tree8_arg0, tree7_arg0, tree6_arg0, tree5_arg0, tree4_arg0, tree3_arg0, tree2_arg0, tree1_arg0, tree0_arg0, head_arg0]

theorem kept_arg1 (V : Valuation τ sig (Elt F)) : after ops V (Proc.devRef .tc main_arg1) = V (Proc.devRef .tc main_arg1) := by
  simp only [Cert.HostRead.after_append]
  rw [tail_arg1, tree15_arg1, tree14_arg1, tree13_arg1, tree12_arg1, tree11_arg1, tree10_arg1, tree9_arg1, tree8_arg1, tree7_arg1, tree6_arg1, tree5_arg1, tree4_arg1, tree3_arg1, tree2_arg1, tree1_arg1, tree0_arg1, head_arg1]

/-! ## At an entry, over the extended reals -/

/-- Tree `t` over its slab of the table, at the entry (r, c): the heap over the column alphas(t, ., c). -/
theorem tree_entry (xv : Mat Ideal) (a : TblT Ideal) (t : Fin 16) (h : S16x15x512.Slices ![t.val, 0, 0] S1x15x512)
    (r : Fin 10000) (c : Fin 512) :
    treeOps xv (slabOf t h a) (ix2 r c)
      = heap15 (fun n => xv (ix2 r c) + a (ix3 t n c)) (fun n => a (ix3 t n c)) := by
  rw [treeOps_apply]
  show heap15 (fun n => xv (ix2 r c) + slabOf t h a (ix2 n c)) (fun n => slabOf t h a (ix2 n c)) = _
  simp only [slabOf_apply]

theorem forestOps_apply (xv : Mat Ideal) (a : TblT Ideal) (r : Fin 10000) (c : Fin 512) :
    forestOps xv a (ix2 r c) = forestShifted (xv (ix2 r c)) fun t n => a (ix3 t n c) := by
  simp only [forestOps, maximumf_apply, tree_entry, forestShifted, forest16]

theorem xvOf_apply (x : Mat Ideal) (i : S10000x512.Idx) : xvOf x i = Ideal.log1p (max (x i) 0) := by
  simp only [xvOf, Host.log1p, maximumf, broadcastInDim, constant, Ideal.hostUnary_log1p_def, Ideal.maximumf_def,
    Ideal.ofBits_def, Ideal.ofBits_zero_f32]

theorem result_apply (x : Mat Ideal) (a : TblT Ideal) :
    Host.expm1 (forestOps (xvOf x) a) = Cert.Spec.referenceForm x a := by
  funext i
  obtain ⟨r, c, rfl⟩ : ∃ (r : Fin 10000) (c : Fin 512), i = ix2 r c := ⟨i 0, i 1, eq_ix2 i⟩
  show FloatOps.hostUnary .expm1 (forestOps (xvOf x) a (ix2 r c)) = _
  rw [Ideal.hostUnary_expm1_def, forestOps_apply, xvOf_apply]
  rfl

/-- Every weakly fair execution of the reference terminates with the result at the reference's arrangement of the
    specification and both arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1361)
          = Cert.Spec.referenceForm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(h c main_v1361).trans ((result_eq _).trans (result_apply _ _)),
       (h c main_arg0).trans (kept_arg0 _),
       (h c main_arg1).trans (kept_arg1 _)⟩)
    (run_raw m ρ)

end Cert.ReferenceIdeal.RValue

end
-- ==== Proof.KernelPieces.lean ====
/-
  What each case of the kernel body leaves behind, as pure terms of the blocks it was given.

  The body keeps one row of 512 numbers between grid points.  At the first point it computes, from the 240 rows of
  the table block, the forest's value M (16 heap-ordered trees of 15 rows each in the (max, +) semiring, the 16 roots
  folded from the left) and stores exp M in the kept row; at every point it then reads the kept row em back and
  writes  max(x, 0) * em + (em - 1)  over its block of x, em repeated down the rows.

    * at the first point the kept row ends at `emK table`, and the output block at the formula over `emK table`;
    * at a later point the kept row is unchanged, and the output block is the formula over the kept row it found.
-/
import proofs.«155760_g3719441679094_cont_8to1_b_551_25_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- One loaded row passes through a reshape to its own shape before it is used. -/
def castK (v : Vec F S1x512 .f32) : FVec F S1x512 .f32 := shapeCast S1x512 v shapeCasts_S1x512_S1x512

/-- An inner node of a tree, on rows: the larger child plus the node's own row. -/
def nodeK (a l r : FVec F S1x512 .f32) : FVec F S1x512 .f32 := addf (maximumf l r) a

theorem row_inb (r : Nat) (h : r < 240) : ∀ a, (![r, 0] : Fin 2 → Nat) a + S1x512.size a ≤ S240x512.size a := by
  intro a
  match a with
  | ⟨0, _⟩ => show r + 1 ≤ 240; omega
  | ⟨1, _⟩ => show 0 + 512 ≤ 512; omega

/-- Row `r` of the table block: what a load of the one-row rectangle at row offset `r` reads. -/
def rowN (x : Vec F S240x512 .f32) (r : Nat) (h : r < 240) : Vec F S1x512 .f32 :=
  View.ld x (Rect.unit ![r, 0] S1x512.size (row_inb r h))

/-- The root of the tree whose 15 nodes are the rows `b`, …, `b + 14`, in heap layout: node `n` has the children
    `2n + 1` and `2n + 2`, nodes 7..14 are leaves, and the left child is the first argument of each maximum. -/
def treeK (x : Vec F S240x512 .f32) (b : Nat) (hb : b + 14 < 240) : FVec F S1x512 .f32 :=
  nodeK (castK (rowN x b (by omega)))
    (nodeK (castK (rowN x (b + 1) (by omega)))
      (nodeK (castK (rowN x (b + 3) (by omega))) (castK (rowN x (b + 7) (by omega))) (castK (rowN x (b + 8) (by omega))))
      (nodeK (castK (rowN x (b + 4) (by omega))) (castK (rowN x (b + 9) (by omega))) (castK (rowN x (b + 10) (by omega)))))
    (nodeK (castK (rowN x (b + 2) (by omega)))
      (nodeK (castK (rowN x (b + 5) (by omega))) (castK (rowN x (b + 11) (by omega))) (castK (rowN x (b + 12) (by omega))))
      (nodeK (castK (rowN x (b + 6) (by omega))) (castK (rowN x (b + 13) (by omega))) (castK (rowN x (b + 14) (by omega)))))

/-- The largest of the 16 roots, folded from the left: tree `t` is the rows `15 t`, …, `15 t + 14`. -/
def forestK (x : Vec F S240x512 .f32) : FVec F S1x512 .f32 :=
  maximumf (maximumf (maximumf (maximumf (maximumf (maximumf (maximumf (maximumf (maximumf (maximumf (maximumf (maximumf (maximumf (maximumf (maximumf (treeK x 0 (by omega)) (treeK x 15 (by omega))) (treeK x 30 (by omega))) (treeK x 45 (by omega))) (treeK x 60 (by omega))) (treeK x 75 (by omega))) (treeK x 90 (by omega))) (treeK x 105 (by omega))) (treeK x 120 (by omega))) (treeK x 135 (by omega))) (treeK x 150 (by omega))) (treeK x 165 (by omega))) (treeK x 180 (by omega))) (treeK x 195 (by omega))) (treeK x 210 (by omega))) (treeK x 225 (by omega))

/-- What the first grid point stores into the carried row: the exponential of the forest's value, through a
    reshape to its own shape. -/
def emK (x : Vec F S240x512 .f32) : FVec F S1x512 .f32 :=
  shapeCast S1x512 (exp (forestK x)) shapeCasts_S1x512_S1x512

/-! ## The first point -/

/-- The kept row after the first point. -/
theorem sout_A (c : Dev nD) (i : grid0.Coords) (a1 : Memref sig .tc .vmem S240x512 .f32) (h1 : a1.IsWhole)
    (a2 : Memref sig .tc .vmem S5000x512 .f32) (h2 : a2.IsWhole) (a3 : Memref sig .tc .vmem S5000x512 .f32) (h3 : a3.IsWhole)
    (a4 : Memref sig .tc .vmem S1x512 .f32) (h4 : a4.IsWhole) (hc : cond0_0 i)
    (x0 : Vec F S240x512 .f32) (x1 : Vec F S5000x512 .f32) :
    sout0_A_0 c i a1 h1 a2 h2 a3 h3 a4 h4 hc x0 x1 = emK x0 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero hz]
  simp only [View.readAt_eq_ld, h1.read_unread]
  rfl

/-- The output block after the first point: the kept row is read back as it was just stored. -/
theorem out_A (c : Dev nD) (i : grid0.Coords) (a1 : Memref sig .tc .vmem S240x512 .f32) (h1 : a1.IsWhole)
    (a2 : Memref sig .tc .vmem S5000x512 .f32) (h2 : a2.IsWhole) (a3 : Memref sig .tc .vmem S5000x512 .f32) (h3 : a3.IsWhole)
    (a4 : Memref sig .tc .vmem S1x512 .f32) (h4 : a4.IsWhole) (hc : cond0_0 i)
    (x0 : Vec F S240x512 .f32) (x1 : Vec F S5000x512 .f32) :
    out0_A_2 c i a1 h1 a2 h2 a3 h3 a4 h4 hc x0 x1 = k0_pay2 (emK x0) x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz, View.readCov_unit_zero (S := S1x512) _ hz]
  simp only [View.readAt_eq_ld, h1.read_unread, h2.read_unread, View.ld_unit_zero (S := S5000x512) hz]
  rfl

/-! ## A later point -/

/-- The output block after a later point, over the kept row `xs` it found; the kept row itself is not stored into
    (`sout0_B_0` is `xs` by definition). -/
theorem out_B (c : Dev nD) (i : grid0.Coords) (a1 : Memref sig .tc .vmem S240x512 .f32) (h1 : a1.IsWhole)
    (a2 : Memref sig .tc .vmem S5000x512 .f32) (h2 : a2.IsWhole) (a3 : Memref sig .tc .vmem S5000x512 .f32) (h3 : a3.IsWhole)
    (a4 : Memref sig .tc .vmem S1x512 .f32) (h4 : a4.IsWhole) (hc : ¬cond0_0 i)
    (x0 : Vec F S240x512 .f32) (x1 : Vec F S5000x512 .f32) (xs : Vec F S1x512 .f32) :
    out0_B_2 c i a1 h1 a2 h2 a3 h3 a4 h4 hc x0 x1 xs = k0_pay2 xs x1 := by
  unfold out0_B_2
  rw [View.read_writes_eq_canon _ _ _ (cover0_B_2 c i a1 h1 a2 h2 a3 h3 a4 h4 hc x0 x1 xs)]
  unfold kernelRun0_B
  dsimp only
  rw [View.canon_unit_zero hz]
  simp only [View.readAt_eq_ld, h2.read_unread, h4.read_unread, View.ld_unit_zero (S := S5000x512) hz,
    View.ld_unit_zero (S := S1x512) hz]

end Cert.KernelIdeal.KValue
end
-- ==== Proof.KernelForest.lean ====
/-
  The kernel's arithmetic read at an entry, on the extended reals.

  A reshape of a row to its own shape changes nothing; a maximum, a sum, a product and a difference of rows are taken
  entry by entry.  So the root of the tree on the rows b, …, b + 14, in column c, is the heap's value over the 15
  numbers found in that column; the 16 roots folded from the left are the forest's value; the kept row holds its
  exponential; and the output block holds, at (p, q),  max(x(p,q), 0) * em(q) + (em(q) - 1).
-/
import proofs.«155760_g3719441679094_cont_8to1_b_551_25_alg».proof.Proof.KernelPieces
import proofs.«155760_g3719441679094_cont_8to1_b_551_25_alg».proof.Proof.LibMaxPlusHeap
import proofs.«155760_g3719441679094_cont_8to1_b_551_25_alg».proof.Proof.Spec
import Idealize.ShloMosaic.Lib.ValueIdx
import Idealize.ShloMosaic.Lib.IdealHost
import Idealize.ShloMosaic.Lib.Pipeline.Value

noncomputable section

namespace Cert.KernelIdeal.KValue

open Cert.KernelIdeal Cert.KernelIdeal.Gen Idealize.ShloMosaic Idealize.ShloMosaic.ValueIdx LibMaxPlusHeap LibForestRows

/-- A reshape of a row to its own shape is the row. -/
theorem castK_eq (v : Vec Ideal S1x512 .f32) : castK v = v := shapeCast_self v _

/-- Row `r` of the table block, in column `c`. -/
theorem rowN_apply (x : Vec Ideal S240x512 .f32) (r : Nat) (h : r < 240) (c : Fin 512) :
    rowN x r h (ix2 (0 : Fin 1) c) = x (ix2 (⟨r, h⟩ : Fin 240) c) := by
  unfold rowN
  show x ((Rect.unit (s := S240x512) ![r, 0] S1x512.size (row_inb r h)).idx (ix2 (0 : Fin 1) c)) = _
  refine congrArg x (funext fun a => Fin.ext ?_)
  match a with
  | ⟨0, _⟩ => show r + 1 * 0 = r; omega
  | ⟨1, _⟩ => show 0 + 1 * c.val = c.val; omega

/-- The numbers of column `c` in the rows `b`, …, `b + 14`. -/
def colAt (x : Vec Ideal S240x512 .f32) (b : Nat) (hb : b + 14 < 240) (c : Fin 512) : Fin 15 → EReal :=
  fun n => x (ix2 (⟨b + n.val, by have := n.isLt; omega⟩ : Fin 240) c)

/-- The root of the tree on the rows `b`, …, `b + 14`, in column `c`: the heap's value over that column. -/
theorem treeK_apply (x : Vec Ideal S240x512 .f32) (b : Nat) (hb : b + 14 < 240) (c : Fin 512) :
    treeK x b hb (ix2 (0 : Fin 1) c) = heap15 (colAt x b hb c) (colAt x b hb c) := by
  unfold treeK nodeK
  simp only [castK_eq, addf_apply, maximumf_apply, rowN_apply]
  rfl

/-- The numbers of column `c` of the table block, by tree and node: row `15 t + n` is node `n` of tree `t`. -/
def colOf (x : Vec Ideal S240x512 .f32) (c : Fin 512) : Fin 16 → Fin 15 → EReal :=
  fun t n => x (ix2 (⟨15 * t.val + n.val, by have := t.isLt; have := n.isLt; omega⟩ : Fin 240) c)

/-- The 16 roots folded from the left, in column `c`: the forest's value over that column. -/
theorem forestK_apply (x : Vec Ideal S240x512 .f32) (c : Fin 512) :
    forestK x (ix2 (0 : Fin 1) c) = forestMax (colOf x c) := by
  unfold forestK
  simp only [maximumf_apply, treeK_apply]
  rfl

/-- The kept row, in column `c`: the exponential of the forest's value. -/
theorem emK_apply (x : Vec Ideal S240x512 .f32) (c : Fin 512) :
    emK x (ix2 (0 : Fin 1) c) = Ideal.exp (forestMax (colOf x c)) := by
  unfold emK
  rw [shapeCast_self]
  show FloatOps.exp (forestK x (ix2 (0 : Fin 1) c)) = _
  rw [Ideal.exp_def, forestK_apply]

/-- The output block at (p, q), over a kept row `em` and a block `xb` of x. -/
theorem pay2_apply (em : Vec Ideal S1x512 .f32) (xb : Vec Ideal S5000x512 .f32) (p : Fin 5000) (q : Fin 512) :
    k0_pay2 em xb (ix2 p q)
      = max (xb (ix2 p q)) 0 * em (ix2 (0 : Fin 1) q) + (em (ix2 (0 : Fin 1) q) - 1) := by
  have hb : ∀ v : Vec Ideal S1x512 .f32,
      broadcastTo S5000x512 v broadcasts_S1x512_S5000x512 (ix2 p q) = v (ix2 (0 : Fin 1) q) := fun v =>
    broadcastTo_apply v broadcasts_S1x512_S5000x512 (ix2 p q) (ix2 (0 : Fin 1) q) (fun a => match a with
      | ⟨0, _⟩ => by show 0 = if (1 : Nat) = 1 then 0 else _; rw [if_pos rfl]
      | ⟨1, _⟩ => by show q.val = if (512 : Nat) = 1 then 0 else q.val; rw [if_neg (by decide)])
  unfold k0_pay2
  simp only [addf_apply, mulf_apply, maximumf_apply, subf_apply, broadcast_apply, hb]
  show max (xb (ix2 p q)) (Ideal.ofBits .f32 0x00000000#32) * em (ix2 (0 : Fin 1) q)
      + (em (ix2 (0 : Fin 1) q) - Ideal.ofBits .f32 0x3F800000#32) = _
  rw [Ideal.ofBits_zero_f32, Ideal.ofBits_one_f32]

/-- The kept row of a table block `T` that holds, in row `15 t + n`, node `n` of tree `t` of the table `a`: in column
    `q` it is the exponential of the forest's value over that column of `a`. -/
theorem emK_entry (T : Vec Ideal S240x512 .f32) (a : Tbl.Idx → EReal)
    (hT : ∀ (t : Fin 16) (n : Fin 15) (q : Fin 512) (r : Fin 240), r.val = 15 * t.val + n.val → T (ix2 r q) = a (ix3 t n q))
    (q : Fin 512) : emK T (ix2 (0 : Fin 1) q) = Ideal.exp (Cert.Spec.colMax a q) := by
  have hM : forestMax (colOf T q) = Cert.Spec.colMax a q := by
    unfold Cert.Spec.colMax colOf
    congr 1
    funext t n
    exact hT t n q _ rfl
  rw [emK_apply, hM]

/-- One entry of what a grid point writes.  Let the kept row `em` hold in column `q` the exponential of the forest's
    value over that column of the table `a`, and let the block `xb` of x hold at (p, q) the entry `i` of `x`, whose
    column is `q`.  Then the output formula at (p, q) is the specification's entry `i`. -/
theorem point_value_kept (em : Vec Ideal S1x512 .f32) (xb : Vec Ideal S5000x512 .f32) (x : Big.Idx → EReal) (a : Tbl.Idx → EReal)
    (p : Fin 5000) (q : Fin 512) (hem : em (ix2 (0 : Fin 1) q) = Ideal.exp (Cert.Spec.colMax a q))
    (i : Big.Idx) (hx : xb (ix2 p q) = x i) (hi : i 1 = q) :
    k0_pay2 em xb (ix2 p q) = Cert.Spec.kernelForm x a i := by
  rw [pay2_apply, hem, hx]
  unfold Cert.Spec.kernelForm
  rw [hi]

/-- The same at the point that stores the kept row: over the kept row of its own table block. -/
theorem point_value (T : Vec Ideal S240x512 .f32) (xb : Vec Ideal S5000x512 .f32) (x : Big.Idx → EReal) (a : Tbl.Idx → EReal)
    (hT : ∀ (t : Fin 16) (n : Fin 15) (q : Fin 512) (r : Fin 240), r.val = 15 * t.val + n.val → T (ix2 r q) = a (ix3 t n q))
    (p : Fin 5000) (q : Fin 512) (i : Big.Idx) (hx : xb (ix2 p q) = x i) (hi : i 1 = q) :
    k0_pay2 (emK T) xb (ix2 p q) = Cert.Spec.kernelForm x a i :=
  point_value_kept (emK T) xb x a p q (emK_entry T a hT q) i hx hi

end Cert.KernelIdeal.KValue
end
-- ==== Proof.KernelBlocks.lean ====
/-
  From what the grid points write to the whole result array.

  The region finds three arrays: the table flattened to 240 rows (the host reshapes the 16 x 15 x 512 table before
  the region: row 15 t + n is node n of tree t), x, and the result.  The table's window never moves: at both points
  its block is the whole flattened table.  The windows of x and of the result move together: at point t their block
  is the rows 5000 t, …, 5000 t + 4999.  The kept row is stored at point 0 only, and point 1 finds it as point 0 left
  it.  So each point writes back its block of ONE function of the two arguments — the specification's `kernelForm` —
  and the two blocks cover the 10000 rows: row r lies in the block of point r / 5000.
-/
import proofs.«155760_g3719441679094_cont_8to1_b_551_25_alg».proof.Proof.Gen.KernelIdeal.Value
import proofs.«155760_g3719441679094_cont_8to1_b_551_25_alg».proof.Proof.KernelForest
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx LibForestRows
open Idealize.ShloMosaic.Pipeline (Dat)

variable (m : (ℓ : Loc nD τ sig) → Buf (Elt Ideal) ℓ) (ρ : Dev nD → PrngReg)

/-! ## The arrays as the region finds them -/

/-- The flattened table is the host's reshape of the table argument. -/
theorem table_eq (c : Dev nD) :
    (V m c main_v0 : S240x512.Idx → EReal)
      = shapeCast S240x512 (m ((c : Thread nD τ).loc main_arg1)) shapeCasts_S16x15x512_S240x512 := by
  dsimp only [V, hostOps0]; after_results; rfl

/-- Where the three windows' blocks sit, at each of the two points. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The table's block at any point: row `15 tt + n`, column `q`, is node `n` of tree `tt` of the table argument. -/
theorem table_entry (c : Dev nD) (t : Fin cfg0.N) (tt : Fin 16) (n : Fin 15) (q : Fin 512) (r : Fin 240)
    (hr : r.val = 15 * tt.val + n.val) :
    iblk m c 0 t (ix2 r q) = m ((c : Thread nD τ).loc main_arg1) (ix3 tt n q) := by
  obtain ⟨e0, e1, -, -, -, -⟩ := idx_facts t
  unfold iblk
  rw [View.read_apply]
  show V m c main_v0 (((cfg0.win 0).blk t).view.emb (ix2 r q)) = _
  have he : ((cfg0.win 0).blk t).view.emb (ix2 r q) = ix2 r q := by
    funext a; apply Fin.ext
    match a with
    | ⟨0, _⟩ => show win0_0.index t (0 : Fin 2) * 240 + 1 * r.val = r.val; rw [e0]; omega
    | ⟨1, _⟩ => show win0_0.index t (1 : Fin 2) * 512 + 1 * q.val = q.val; rw [e1]; omega
  rw [he, table_eq]
  exact flat_apply _ _ tt n q r hr

/-- The row of the arrays that row `p` of point `t`'s block is. -/
abbrev rowAt (t : Fin cfg0.N) (p : Fin 5000) : Fin 10000 :=
  ⟨5000 * t.val + p.val, by have := lt_of_lt_of_eq t.isLt (show cfg0.N = 2 from N_0); have := p.isLt; omega⟩

/-- The block of x at point `t`: its entry (p, q) is x's entry (5000 t + p, q). -/
theorem x_entry (c : Dev nD) (t : Fin cfg0.N) (p : Fin 5000) (q : Fin 512) :
    iblk m c 1 t (ix2 p q) = m ((c : Thread nD τ).loc main_arg0) (ix2 (rowAt t p) q) := by
  obtain ⟨-, -, e0, e1, -, -⟩ := idx_facts t
  unfold iblk
  rw [View.read_apply]
  show V m c main_arg0 (((cfg0.win 1).blk t).view.emb (ix2 p q)) = _
  rw [V_main_arg0]
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 512 + 1 * q.val = q.val; rw [e1]; omega

/-- The result's block at point `t`: its entry (p, q) is the result's entry (5000 t + p, q). -/
theorem out_emb (t : Fin cfg0.N) (p : Fin 5000) (q : Fin 512) :
    ((cfg0.win 2).blk t).view.emb (ix2 p q) = ix2 (rowAt t p) q := by
  obtain ⟨-, -, -, -, e0, e1⟩ := idx_facts t
  funext a; apply Fin.ext
  match a with
  | ⟨0, _⟩ => show win0_2.index t (0 : Fin 2) * 5000 + 1 * p.val = 5000 * t.val + p.val; rw [e0]; omega
  | ⟨1, _⟩ => show win0_2.index t (1 : Fin 2) * 512 + 1 * q.val = q.val; rw [e1]; omega

/-! ## The kept row -/

/-- After either point the kept row is the one point 0 stored: the exponential of the forest's value over the table. -/
theorem kept_entry (c : Dev nD) : ∀ (n : ℕ) (h : n < cfg0.N) (q : Fin 512),
    (outsAt0 m c n h).2 (ix2 (0 : Fin 1) q) = Ideal.exp (Cert.Spec.colMax (m ((c : Thread nD τ).loc main_arg1)) q)
  | 0, h, q => by
    rw [outsAt0_A m c ⟨0, h⟩ rfl]
    dsimp only
    rw [sout_A]
    exact emK_entry (iblk m c 0 ⟨0, h⟩) _ (table_entry m c ⟨0, h⟩) q
  | n + 1, h, q => by
    have hN : cfg0.N = 2 := N_0
    have hB : ¬(⟨n + 1, h⟩ : Fin cfg0.N).val % 2 = 0 := by dsimp only; omega
    rw [outsAt0_B m c ⟨n + 1, h⟩ hB]
    dsimp only
    show (outsAt0 m c n _).2 (ix2 (0 : Fin 1) q) = _
    exact kept_entry c n _ q

/-! ## What each point writes back -/

/-- Point `t` writes back its block of the specification's function of the two arguments. -/
theorem flushed_eq (c : Dev nD) (t : Fin cfg0.N) :
    (dats m 0 c).flushed 2 t
      = ((cfg0.win 2).blk t).view.read (Elt Ideal)
          (Cert.Spec.kernelForm (m ((c : Thread nD τ).loc main_arg0)) (m ((c : Thread nD τ).loc main_arg1))) := by
  by_cases h0 : t.val % 2 = 0
  · rw [Value.flushed2_A m c t h0, out_A]
    funext j
    rw [View.read_apply]
    show k0_pay2 (emK (iblk m c 0 t)) (iblk m c 1 t) j = Cert.Spec.kernelForm _ _ (((cfg0.win 2).blk t).view.emb j)
    obtain ⟨p, q, rfl⟩ : ∃ (p : Fin 5000) (q : Fin 512), j = ix2 p q := ⟨j 0, j 1, eq_ix2 j⟩
    rw [out_emb]
    exact point_value (iblk m c 0 t) (iblk m c 1 t) _ _ (table_entry m c t) p q _ (x_entry m c t p q) rfl
  · rw [Value.flushed2_B m c t h0, out_B]
    funext j
    rw [View.read_apply]
    show k0_pay2 (outsAt0 m c (t.val - 1) _).2 (iblk m c 1 t) j = Cert.Spec.kernelForm _ _ (((cfg0.win 2).blk t).view.emb j)
    obtain ⟨p, q, rfl⟩ : ∃ (p : Fin 5000) (q : Fin 512), j = ix2 p q := ⟨j 0, j 1, eq_ix2 j⟩
    rw [out_emb]
    exact point_value_kept _ (iblk m c 1 t) _ _ p q (kept_entry m c _ _ q) _ (x_entry m c t p q) rfl

/-! ## The whole array -/

/-- An index of the result is in point `t`'s block iff each coordinate is in the block's range on its axis. -/
theorem mem_blk (t : Fin cfg0.N) (i : S10000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v1).slice (win0_2.rect t)).set ↔ _
  rw [View.set_slice_whole, Rect.mem_set_unit]
  exact Iff.rfl

/-- Every row lies in some point's block: row `r` in the block of point `r / 5000`. -/
theorem covered (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 2 := N_0
  let t : Fin cfg0.N := ⟨(i 0).val / 5000, by omega⟩
  obtain ⟨-, -, -, -, e0, e1⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 512 ≤ (i 1).val ∧ (i 1).val < win0_2.index t (1 : Fin 2) * 512 + 512; omega

/-- The result array after the run is the specification's function of the two arguments. -/
theorem final (c : Dev nD) :
    (dats m 0 c).arrAt 2 cfg0.N
      = Cert.Spec.kernelForm (m ((c : Thread nD τ).loc main_arg0)) (m ((c : Thread nD τ).loc main_arg1)) :=
  (dats m 0 c).arrAt_eq_of_cover 2 _ (fun t _ => flushed_eq m c t) covered

end Cert.KernelIdeal.KValue
end
-- ==== Proof.KernelValue.lean ====
/-
  The kernel's run, read: from any memory, every weakly fair execution of the program ends with the result array
  holding the specification's function of the two arguments, entry by entry, and with the two arguments unchanged.
-/
import proofs.«155760_g3719441679094_cont_8to1_b_551_25_alg».proof.Proof.KernelBlocks

noncomputable section

open Idealize.ShloMosaic Idealize.ShloMosaic.TcCoe Idealize.SL.Sem

/-- The generated run names the result array after the run; `final` says what it holds. -/
theorem Cert.KernelIdeal.KValue.run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v1)
          = Cert.Spec.kernelForm (m ((c.tc : Thread _ _).loc Cert.KernelIdeal.main_arg0)) (m ((c.tc : Thread _ _).loc Cert.KernelIdeal.main_arg1))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1) :=
  (θ_run Cert.KernelIdeal.defs _ _).mono (fun r h c => ⟨(h c).1.trans (Cert.KernelIdeal.KValue.final m c), (h c).2⟩)
    (Cert.KernelIdeal.Value.run_blocks m ρ)

end
-- ==== Proof.lean ====
/-
  Both programs compute one function of x (10000 x 512) and the parameter table alphas (16 x 15 x 512).

  The reference takes xv = log (1 + max x 0), evaluates 16 complete binary trees of 15 nodes in the (max, +)
  semiring — a leaf is xv plus its weight, an inner node the larger child plus its weight —, takes the largest
  root, and returns exp (.) - 1.  The kernel evaluates the same forest over the weights alone, once, into
  M (one value per column), keeps exp M between its two grid points, and returns max x 0 * exp M + (exp M - 1).

  Two laws join them.  Adding one s to every leaf adds s to every root and to the largest root: max (s + u) (s + v)
  = s + max u v and associativity, valid on all extended reals.  And for real r ≥ 0 and real M,
  exp (log (1 + r) + M) - 1 = r * exp M + (exp M - 1); this one needs real numbers, which is what the
  precondition provides: every entry of x and of alphas has absolute value below +inf.

  The modules: LibMaxPlusHeap (the forest and the first law), LibExpShift (the second law), LibForestRows (rows of
  the table read at an entry), Spec (both arrangements and their agreement), FiniteInputs (the precondition read
  back), RefRunPieces / RefTree / RefRun / RefValue (the reference's run and its result), and the kernel's value
  modules; assembled here behind the witnesses of the programs' stated facts.
-/
import proofs.«155760_g3719441679094_cont_8to1_b_551_25_alg».proof.Defs
import proofs.«155760_g3719441679094_cont_8to1_b_551_25_alg».proof.Proof.Gen.Kernel
import proofs.«155760_g3719441679094_cont_8to1_b_551_25_alg».proof.Proof.Gen.Kernel.Frame
import proofs.«155760_g3719441679094_cont_8to1_b_551_25_alg».proof.Proof.Gen.KernelIdeal
import proofs.«155760_g3719441679094_cont_8to1_b_551_25_alg».proof.Proof.Gen.KernelIdeal.Frame
import proofs.«155760_g3719441679094_cont_8to1_b_551_25_alg».proof.Proof.Gen.ReferenceIdeal
import proofs.«155760_g3719441679094_cont_8to1_b_551_25_alg».proof.Proof.Gen.Pre_finite_inputs
import proofs.«155760_g3719441679094_cont_8to1_b_551_25_alg».proof.Proof.FiniteInputs
import proofs.«155760_g3719441679094_cont_8to1_b_551_25_alg».proof.Proof.Spec
import proofs.«155760_g3719441679094_cont_8to1_b_551_25_alg».proof.Proof.RefValue
import proofs.«155760_g3719441679094_cont_8to1_b_551_25_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RValue.run m ρ)

/-- The idealization applied no rewrite: nothing to preserve. -/
theorem preserves : Cert.preserves_Kernel_KernelIdeal := trivial

/-- From memories agreeing on the arguments the kernel ends at the kernel's arrangement and the reference at the
    reference's; under the precondition every entry is real, where the two arrangements agree. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2]
  obtain ⟨hx, ha⟩ := Cert.FiniteInputs.reals_of_pre _ _ (hpre c)
  exact Cert.Spec.referenceForm_eq_kernelForm _ _ hx ha

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
